-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8)) (m ((c.tc : Thread Cert.Kernel.nD Cert.Kernel.τ).loc Cert.Kernel.main_arg9)) (m ((c.tc : Thread Cert.Kernel.nD Cert.Kernel.τ).loc Cert.Kernel.main_arg10)) (m ((c.tc : Thread Cert.Kernel.nD Cert.Kernel.τ).loc Cert.Kernel.main_arg11)) (m ((c.tc : Thread Cert.Kernel.nD Cert.Kernel.τ).loc Cert.Kernel.main_arg12))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11)) (m ((c.tc : Thread Cert.ReferenceIdeal.nD Cert.ReferenceIdeal.τ).loc Cert.ReferenceIdeal.main_arg12))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9)
      ∧ r.2.mem ((c.tc : Thread Cert.Kernel.nD Cert.Kernel.τ).loc Cert.Kernel.main_arg10) = m ((c.tc : Thread Cert.Kernel.nD Cert.Kernel.τ).loc Cert.Kernel.main_arg10)
      ∧ r.2.mem ((c.tc : Thread Cert.Kernel.nD Cert.Kernel.τ).loc Cert.Kernel.main_arg11) = m ((c.tc : Thread Cert.Kernel.nD Cert.Kernel.τ).loc Cert.Kernel.main_arg11)
      ∧ r.2.mem ((c.tc : Thread Cert.Kernel.nD Cert.Kernel.τ).loc Cert.Kernel.main_arg12) = m ((c.tc : Thread Cert.Kernel.nD Cert.Kernel.τ).loc Cert.Kernel.main_arg12))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
      ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
      ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10)
      ∧ r.2.mem ((c.tc : Thread Cert.ReferenceIdeal.nD Cert.ReferenceIdeal.τ).loc Cert.ReferenceIdeal.main_arg11) = m ((c.tc : Thread Cert.ReferenceIdeal.nD Cert.ReferenceIdeal.τ).loc Cert.ReferenceIdeal.main_arg11)
      ∧ r.2.mem ((c.tc : Thread Cert.ReferenceIdeal.nD Cert.ReferenceIdeal.τ).loc Cert.ReferenceIdeal.main_arg12) = m ((c.tc : Thread Cert.ReferenceIdeal.nD Cert.ReferenceIdeal.τ).loc Cert.ReferenceIdeal.main_arg12))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)
      ∧ m' ((c.tc : Thread Cert.ReferenceIdeal.nD Cert.ReferenceIdeal.τ).loc Cert.ReferenceIdeal.main_arg11) = m ((c.tc : Thread Cert.KernelIdeal.nD Cert.KernelIdeal.τ).loc Cert.KernelIdeal.main_arg11)
      ∧ m' ((c.tc : Thread Cert.ReferenceIdeal.nD Cert.ReferenceIdeal.τ).loc Cert.ReferenceIdeal.main_arg12) = m ((c.tc : Thread Cert.KernelIdeal.nD Cert.KernelIdeal.τ).loc Cert.KernelIdeal.main_arg12)) →
    ∃ (v0 : (c : Dev Cert.KernelIdeal.nD) → Buf (Elt Ideal) ((c.tc : Thread Cert.KernelIdeal.nD Cert.KernelIdeal.τ).loc Cert.KernelIdeal.main_v16_2)) (v1 : (c : Dev Cert.KernelIdeal.nD) → Buf (Elt Ideal) ((c.tc : Thread Cert.KernelIdeal.nD Cert.KernelIdeal.τ).loc Cert.KernelIdeal.main_v16_0)) (v2 : (c : Dev Cert.KernelIdeal.nD) → Buf (Elt Ideal) ((c.tc : Thread Cert.KernelIdeal.nD Cert.KernelIdeal.τ).loc Cert.KernelIdeal.main_v16_1)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v16_2) = v0 c
          ∧ r.2.mem ((c.tc : Thread Cert.KernelIdeal.nD Cert.KernelIdeal.τ).loc Cert.KernelIdeal.main_v16_0) = v1 c
          ∧ r.2.mem ((c.tc : Thread Cert.KernelIdeal.nD Cert.KernelIdeal.τ).loc Cert.KernelIdeal.main_v16_1) = v2 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
          ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
          ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
          ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v38) = v0 c
          ∧ r.2.mem ((c.tc : Thread Cert.ReferenceIdeal.nD Cert.ReferenceIdeal.τ).loc Cert.ReferenceIdeal.main_v34) = v1 c
          ∧ r.2.mem ((c.tc : Thread Cert.ReferenceIdeal.nD Cert.ReferenceIdeal.τ).loc Cert.ReferenceIdeal.main_v32) = v2 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9)
          ∧ r.2.mem ((c.tc : Thread Cert.ReferenceIdeal.nD Cert.ReferenceIdeal.τ).loc Cert.ReferenceIdeal.main_arg10) = m' ((c.tc : Thread Cert.ReferenceIdeal.nD Cert.ReferenceIdeal.τ).loc Cert.ReferenceIdeal.main_arg10)
          ∧ r.2.mem ((c.tc : Thread Cert.ReferenceIdeal.nD Cert.ReferenceIdeal.τ).loc Cert.ReferenceIdeal.main_arg11) = m' ((c.tc : Thread Cert.ReferenceIdeal.nD Cert.ReferenceIdeal.τ).loc Cert.ReferenceIdeal.main_arg11)
          ∧ r.2.mem ((c.tc : Thread Cert.ReferenceIdeal.nD Cert.ReferenceIdeal.τ).loc Cert.ReferenceIdeal.main_arg12) = m' ((c.tc : Thread Cert.ReferenceIdeal.nD Cert.ReferenceIdeal.τ).loc Cert.ReferenceIdeal.main_arg12))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S8192x1024 : Shape := ⟨2, ![8192, 1024]⟩
abbrev S2048x1024 : Shape := ⟨2, ![2048, 1024]⟩
abbrev S1024 : Shape := ⟨1, ![1024]⟩
abbrev S1024x512 : Shape := ⟨2, ![1024, 512]⟩
abbrev S512 : Shape := ⟨1, ![512]⟩
abbrev S_ : Shape := ⟨0, ![]⟩

class Facts : Prop where
  bcast_S_S8192x1024 : S_.BroadcastsInDim S8192x1024 (![] : Fin 0 → Fin S8192x1024.rank)
  reducesTo_S8192x1024_S_d0_1 : S8192x1024.ReducesTo [0, 1] S_
  h_S_ : 0 < S_.numel
  bcast_S_S2048x1024 : S_.BroadcastsInDim S2048x1024 (![] : Fin 0 → Fin S2048x1024.rank)
  reducesTo_S2048x1024_S_d0_1 : S2048x1024.ReducesTo [0, 1] S_
  bcast_S_S1024 : S_.BroadcastsInDim S1024 (![] : Fin 0 → Fin S1024.rank)
  reducesTo_S1024_S_d0 : S1024.ReducesTo [0] S_
  bcast_S_S1024x512 : S_.BroadcastsInDim S1024x512 (![] : Fin 0 → Fin S1024x512.rank)
  reducesTo_S1024x512_S_d0_1 : S1024x512.ReducesTo [0, 1] S_
  bcast_S_S512 : S_.BroadcastsInDim S512 (![] : Fin 0 → Fin S512.rank)
  reducesTo_S512_S_d0 : S512.ReducesTo [0] S_

variable [Facts]

def fn_part3 {F : FTy → Type} [FloatOps F] (main_arg11 : FVec F S1024x512 .f32) (main_arg12 : FVec F S512 .f32) (main_v48 : IVec S_ 1) (main_v49 : FVec F S1024 .f32) (main_v50 : FVec F S1024 .f32) : IVec S_ 1 :=
  let main_v51 : IVec S1024 1 := cmpf .olt main_v49 main_v50
  let main_c_19 : IVec S_ 1 := constantI S_ 1 1#1
  let main_v52 : IVec S_ 1 := (fun x v => Host.reduce IntOp.andi x v reducesTo_S1024_S_d0 h_S_) main_v51 main_c_19
  let main_v53 : IVec S_ 1 := andi main_v48 main_v52
  let main_v54 : FVec F S1024x512 .f32 := Host.absf main_arg11
  let main_cst_20 : FVec F S_ .f32 := constant S_ .f32 0x7F800000#32
  let main_v55 : FVec F S1024x512 .f32 := broadcastInDim S1024x512 ![] bcast_S_S1024x512 main_cst_20
  let main_v56 : IVec S1024x512 1 := cmpf .olt main_v54 main_v55
  let main_c_21 : IVec S_ 1 := constantI S_ 1 1#1
  let main_v57 : IVec S_ 1 := (fun x v => Host.reduce IntOp.andi x v reducesTo_S1024x512_S_d0_1 h_S_) main_v56 main_c_21
  let main_v58 : IVec S_ 1 := andi main_v53 main_v57
  let main_v59 : FVec F S512 .f32 := Host.absf main_arg12
  let main_cst_22 : FVec F S_ .f32 := constant S_ .f32 0x7F800000#32
  let main_v60 : FVec F S512 .f32 := broadcastInDim S512 ![] bcast_S_S512 main_cst_22
  let main_v61 : IVec S512 1 := cmpf .olt main_v59 main_v60
  let main_c_23 : IVec S_ 1 := constantI S_ 1 1#1
  let main_v62 : IVec S_ 1 := (fun x v => Host.reduce IntOp.andi x v reducesTo_S512_S_d0 h_S_) main_v61 main_c_23
  let main_v63 : IVec S_ 1 := andi main_v58 main_v62
  main_v63

def fn_part2 {F : FTy → Type} [FloatOps F] (main_arg7 : FVec F S2048x1024 .f32) (main_arg8 : FVec F S1024 .f32) (main_arg9 : FVec F S2048x1024 .f32) (main_arg10 : FVec F S1024 .f32) (main_arg11 : FVec F S1024x512 .f32) (main_arg12 : FVec F S512 .f32) (main_v33 : IVec S_ 1) : IVec S_ 1 :=
  let main_v34 : FVec F S2048x1024 .f32 := Host.absf main_arg7
  let main_cst_12 : FVec F S_ .f32 := constant S_ .f32 0x7F800000#32
  let main_v35 : FVec F S2048x1024 .f32 := broadcastInDim S2048x1024 ![] bcast_S_S2048x1024 main_cst_12
  let main_v36 : IVec S2048x1024 1 := cmpf .olt main_v34 main_v35
  let main_c_13 : IVec S_ 1 := constantI S_ 1 1#1
  let main_v37 : IVec S_ 1 := (fun x v => Host.reduce IntOp.andi x v reducesTo_S2048x1024_S_d0_1 h_S_) main_v36 main_c_13
  let main_v38 : IVec S_ 1 := andi main_v33 main_v37
  let main_v39 : FVec F S1024 .f32 := Host.absf main_arg8
  let main_cst_14 : FVec F S_ .f32 := constant S_ .f32 0x7F800000#32
  let main_v40 : FVec F S1024 .f32 := broadcastInDim S1024 ![] bcast_S_S1024 main_cst_14
  let main_v41 : IVec S1024 1 := cmpf .olt main_v39 main_v40
  let main_c_15 : IVec S_ 1 := constantI S_ 1 1#1
  let main_v42 : IVec S_ 1 := (fun x v => Host.reduce IntOp.andi x v reducesTo_S1024_S_d0 h_S_) main_v41 main_c_15
  let main_v43 : IVec S_ 1 := andi main_v38 main_v42
  let main_v44 : FVec F S2048x1024 .f32 := Host.absf main_arg9
  let main_cst_16 : FVec F S_ .f32 := constant S_ .f32 0x7F800000#32
  let main_v45 : FVec F S2048x1024 .f32 := broadcastInDim S2048x1024 ![] bcast_S_S2048x1024 main_cst_16
  let main_v46 : IVec S2048x1024 1 := cmpf .olt main_v44 main_v45
  let main_c_17 : IVec S_ 1 := constantI S_ 1 1#1
  let main_v47 : IVec S_ 1 := (fun x v => Host.reduce IntOp.andi x v reducesTo_S2048x1024_S_d0_1 h_S_) main_v46 main_c_17
  let main_v48 : IVec S_ 1 := andi main_v43 main_v47
  let main_v49 : FVec F S1024 .f32 := Host.absf main_arg10
  let main_cst_18 : FVec F S_ .f32 := constant S_ .f32 0x7F800000#32
  let main_v50 : FVec F S1024 .f32 := broadcastInDim S1024 ![] bcast_S_S1024 main_cst_18
  fn_part3 (F := F) main_arg11 main_arg12 main_v48 main_v49 main_v50

def fn_part1 {F : FTy → Type} [FloatOps F] (main_arg4 : FVec F S1024 .f32) (main_arg5 : FVec F S2048x1024 .f32) (main_arg6 : FVec F S1024 .f32) (main_arg7 : FVec F S2048x1024 .f32) (main_arg8 : FVec F S1024 .f32) (main_arg9 : FVec F S2048x1024 .f32) (main_arg10 : FVec F S1024 .f32) (main_arg11 : FVec F S1024x512 .f32) (main_arg12 : FVec F S512 .f32) (main_v13 : IVec S_ 1) (main_v16 : IVec S2048x1024 1) : IVec S_ 1 :=
  let main_c_5 : IVec S_ 1 := constantI S_ 1 1#1
  let main_v17 : IVec S_ 1 := (fun x v => Host.reduce IntOp.andi x v reducesTo_S2048x1024_S_d0_1 h_S_) main_v16 main_c_5
  let main_v18 : IVec S_ 1 := andi main_v13 main_v17
  let main_v19 : FVec F S1024 .f32 := Host.absf main_arg4
  let main_cst_6 : FVec F S_ .f32 := constant S_ .f32 0x7F800000#32
  let main_v20 : FVec F S1024 .f32 := broadcastInDim S1024 ![] bcast_S_S1024 main_cst_6
  let main_v21 : IVec S1024 1 := cmpf .olt main_v19 main_v20
  let main_c_7 : IVec S_ 1 := constantI S_ 1 1#1
  let main_v22 : IVec S_ 1 := (fun x v => Host.reduce IntOp.andi x v reducesTo_S1024_S_d0 h_S_) main_v21 main_c_7
  let main_v23 : IVec S_ 1 := andi main_v18 main_v22
  let main_v24 : FVec F S2048x1024 .f32 := Host.absf main_arg5
  let main_cst_8 : FVec F S_ .f32 := constant S_ .f32 0x7F800000#32
  let main_v25 : FVec F S2048x1024 .f32 := broadcastInDim S2048x1024 ![] bcast_S_S2048x1024 main_cst_8
  let main_v26 : IVec S2048x1024 1 := cmpf .olt main_v24 main_v25
  let main_c_9 : IVec S_ 1 := constantI S_ 1 1#1
  let main_v27 : IVec S_ 1 := (fun x v => Host.reduce IntOp.andi x v reducesTo_S2048x1024_S_d0_1 h_S_) main_v26 main_c_9
  let main_v28 : IVec S_ 1 := andi main_v23 main_v27
  let main_v29 : FVec F S1024 .f32 := Host.absf main_arg6
  let main_cst_10 : FVec F S_ .f32 := constant S_ .f32 0x7F800000#32
  let main_v30 : FVec F S1024 .f32 := broadcastInDim S1024 ![] bcast_S_S1024 main_cst_10
  let main_v31 : IVec S1024 1 := cmpf .olt main_v29 main_v30
  let main_c_11 : IVec S_ 1 := constantI S_ 1 1#1
  let main_v32 : IVec S_ 1 := (fun x v => Host.reduce IntOp.andi x v reducesTo_S1024_S_d0 h_S_) main_v31 main_c_11
  let main_v33 : IVec S_ 1 := andi main_v28 main_v32
  fn_part2 (F := F) main_arg7 main_arg8 main_arg9 main_arg10 main_arg11 main_arg12 main_v33

def fn {F : FTy → Type} [FloatOps F] (main_arg0 : FVec F S8192x1024 .f32) (main_arg1 : FVec F S8192x1024 .f32) (main_arg2 : FVec F S8192x1024 .f32) (main_arg3 : FVec F S2048x1024 .f32) (main_arg4 : FVec F S1024 .f32) (main_arg5 : FVec F S2048x1024 .f32) (main_arg6 : FVec F S1024 .f32) (main_arg7 : FVec F S2048x1024 .f32) (main_arg8 : FVec F S1024 .f32) (main_arg9 : FVec F S2048x1024 .f32) (main_arg10 : FVec F S1024 .f32) (main_arg11 : FVec F S1024x512 .f32) (main_arg12 : FVec F S512 .f32) : IVec S_ 1 :=
  let main_v0 : FVec F S8192x1024 .f32 := Host.absf main_arg0
  let main_cst : FVec F S_ .f32 := constant S_ .f32 0x7F800000#32
  let main_v1 : FVec F S8192x1024 .f32 := broadcastInDim S8192x1024 ![] bcast_S_S8192x1024 main_cst
  let main_v2 : IVec S8192x1024 1 := cmpf .olt main_v0 main_v1
  let main_c : IVec S_ 1 := constantI S_ 1 1#1
  let main_v3 : IVec S_ 1 := (fun x v => Host.reduce IntOp.andi x v reducesTo_S8192x1024_S_d0_1 h_S_) main_v2 main_c
  let main_v4 : FVec F S8192x1024 .f32 := Host.absf main_arg1
  let main_cst_0 : FVec F S_ .f32 := constant S_ .f32 0x7F800000#32
  let main_v5 : FVec F S8192x1024 .f32 := broadcastInDim S8192x1024 ![] bcast_S_S8192x1024 main_cst_0
  let main_v6 : IVec S8192x1024 1 := cmpf .olt main_v4 main_v5
  let main_c_1 : IVec S_ 1 := constantI S_ 1 1#1
  let main_v7 : IVec S_ 1 := (fun x v => Host.reduce IntOp.andi x v reducesTo_S8192x1024_S_d0_1 h_S_) main_v6 main_c_1
  let main_v8 : IVec S_ 1 := andi main_v3 main_v7
  let main_v9 : FVec F S8192x1024 .f32 := Host.absf main_arg2
  let main_cst_2 : FVec F S_ .f32 := constant S_ .f32 0x7F800000#32
  let main_v10 : FVec F S8192x1024 .f32 := broadcastInDim S8192x1024 ![] bcast_S_S8192x1024 main_cst_2
  let main_v11 : IVec S8192x1024 1 := cmpf .olt main_v9 main_v10
  let main_c_3 : IVec S_ 1 := constantI S_ 1 1#1
  let main_v12 : IVec S_ 1 := (fun x v => Host.reduce IntOp.andi x v reducesTo_S8192x1024_S_d0_1 h_S_) main_v11 main_c_3
  let main_v13 : IVec S_ 1 := andi main_v8 main_v12
  let main_v14 : FVec F S2048x1024 .f32 := Host.absf main_arg3
  let main_cst_4 : FVec F S_ .f32 := constant S_ .f32 0x7F800000#32
  let main_v15 : FVec F S2048x1024 .f32 := broadcastInDim S2048x1024 ![] bcast_S_S2048x1024 main_cst_4
  let main_v16 : IVec S2048x1024 1 := cmpf .olt main_v14 main_v15
  fn_part1 (F := F) main_arg4 main_arg5 main_arg6 main_arg7 main_arg8 main_arg9 main_arg10 main_arg11 main_arg12 main_v13 main_v16
-- ==== Kernel.lean ====
abbrev S8192x1024 : Shape := ⟨2, ![8192, 1024]⟩
abbrev S2048x1024 : Shape := ⟨2, ![2048, 1024]⟩
abbrev S1024 : Shape := ⟨1, ![1024]⟩
abbrev S1024x512 : Shape := ⟨2, ![1024, 512]⟩
abbrev S512 : Shape := ⟨1, ![512]⟩
abbrev S1024x1024 : Shape := ⟨2, ![1024, 1024]⟩
abbrev S1024x4096 : Shape := ⟨2, ![1024, 4096]⟩
abbrev S4096 : Shape := ⟨1, ![4096]⟩
abbrev S1x4096 : Shape := ⟨2, ![1, 4096]⟩
abbrev S1x512 : Shape := ⟨2, ![1, 512]⟩
abbrev S8192x512 : Shape := ⟨2, ![8192, 512]⟩
abbrev S256x1024 : Shape := ⟨2, ![256, 1024]⟩
abbrev S256x512 : Shape := ⟨2, ![256, 512]⟩
abbrev S1x1024 : Shape := ⟨2, ![1, 1024]⟩

abbrev nBuf : Space → Nat
  | .hbm => 32
  | .vmem => 17
  | .smem => 0
  | _ => 0

abbrev bufTy : (tb : Table) → Fin (tcTables nBuf tb) → BufTy
  | .hbm, ⟨0, _⟩ => ⟨S8192x1024, .f32⟩
  | .hbm, ⟨1, _⟩ => ⟨S8192x1024, .f32⟩
  | .hbm, ⟨2, _⟩ => ⟨S8192x1024, .f32⟩
  | .hbm, ⟨3, _⟩ => ⟨S2048x1024, .f32⟩
  | .hbm, ⟨4, _⟩ => ⟨S1024, .f32⟩
  | .hbm, ⟨5, _⟩ => ⟨S2048x1024, .f32⟩
  | .hbm, ⟨6, _⟩ => ⟨S1024, .f32⟩
  | .hbm, ⟨7, _⟩ => ⟨S2048x1024, .f32⟩
  | .hbm, ⟨8, _⟩ => ⟨S1024, .f32⟩
  | .hbm, ⟨9, _⟩ => ⟨S2048x1024, .f32⟩
  | .hbm, ⟨10, _⟩ => ⟨S1024, .f32⟩
  | .hbm, ⟨11, _⟩ => ⟨S1024x512, .f32⟩
  | .hbm, ⟨12, _⟩ => ⟨S512, .f32⟩
  | .hbm, ⟨13, _⟩ => ⟨S1024x1024, .f32⟩
  | .hbm, ⟨14, _⟩ => ⟨S1024x1024, .f32⟩
  | .hbm, ⟨15, _⟩ => ⟨S1024x1024, .f32⟩
  | .hbm, ⟨16, _⟩ => ⟨S1024x1024, .f32⟩
  | .hbm, ⟨17, _⟩ => ⟨S1024x4096, .f32⟩
  | .hbm, ⟨18, _⟩ => ⟨S1024x4096, .bf16⟩
  | .hbm, ⟨19, _⟩ => ⟨S1024x1024, .f32⟩
  | .hbm, ⟨20, _⟩ => ⟨S1024x1024, .f32⟩
  | .hbm, ⟨21, _⟩ => ⟨S1024x1024, .f32⟩
  | .hbm, ⟨22, _⟩ => ⟨S1024x1024, .f32⟩
  | .hbm, ⟨23, _⟩ => ⟨S1024x4096, .f32⟩
  | .hbm, ⟨24, _⟩ => ⟨S1024x4096, .bf16⟩
  | .hbm, ⟨25, _⟩ => ⟨S4096, .f32⟩
  | .hbm, ⟨26, _⟩ => ⟨S1x4096, .f32⟩
  | .hbm, ⟨27, _⟩ => ⟨S1024x512, .bf16⟩
  | .hbm, ⟨28, _⟩ => ⟨S1x512, .f32⟩
  | .hbm, ⟨29, _⟩ => ⟨S8192x1024, .f32⟩
  | .hbm, ⟨30, _⟩ => ⟨S8192x1024, .f32⟩
  | .hbm, ⟨31, _⟩ => ⟨S8192x512, .f32⟩
  | .local _ .vmem, ⟨0, _⟩ => ⟨S256x1024, .f32⟩
  | .local _ .vmem, ⟨1, _⟩ => ⟨S256x1024, .f32⟩
  | .local _ .vmem, ⟨2, _⟩ => ⟨S256x1024, .f32⟩
  | .local _ .vmem, ⟨3, _⟩ => ⟨S256x1024, .f32⟩
  | .local _ .vmem, ⟨4, _⟩ => ⟨S256x1024, .f32⟩
  | .local _ .vmem, ⟨5, _⟩ => ⟨S256x1024, .f32⟩
  | .local _ .vmem, ⟨6, _⟩ => ⟨S1024x4096, .bf16⟩
  | .local _ .vmem, ⟨7, _⟩ => ⟨S1024x4096, .bf16⟩
  | .local _ .vmem, ⟨8, _⟩ => ⟨S1x4096, .f32⟩
  | .local _ .vmem, ⟨9, _⟩ => ⟨S1024x512, .bf16⟩
  | .local _ .vmem, ⟨10, _⟩ => ⟨S1x512, .f32⟩
  | .local _ .vmem, ⟨11, _⟩ => ⟨S256x1024, .f32⟩
  | .local _ .vmem, ⟨12, _⟩ => ⟨S256x1024, .f32⟩
  | .local _ .vmem, ⟨13, _⟩ => ⟨S256x1024, .f32⟩
  | .local _ .vmem, ⟨14, _⟩ => ⟨S256x1024, .f32⟩
  | .local _ .vmem, ⟨15, _⟩ => ⟨S256x512, .f32⟩
  | .local _ .vmem, ⟨16, _⟩ => ⟨S256x512, .f32⟩
  | _, _ => ⟨S8192x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | _, _ => false

abbrev semScoped : Fin 0 → Bool
  | ⟨_, h⟩ => absurd h (Nat.not_lt_zero _)

abbrev dmaSemScoped : Fin 17 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | _ => false

abbrev sig : RefSig :=
  ofTc nBuf bufTy 0 17 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_v0 : Ref sig .tc := ⟨.hbm, 13, rfl⟩
abbrev main_v1 : Ref sig .tc := ⟨.hbm, 14, rfl⟩
abbrev main_v2 : Ref sig .tc := ⟨.hbm, 15, rfl⟩
abbrev main_v3 : Ref sig .tc := ⟨.hbm, 16, rfl⟩
abbrev main_v4 : Ref sig .tc := ⟨.hbm, 17, rfl⟩
abbrev main_v5 : Ref sig .tc := ⟨.hbm, 18, rfl⟩
abbrev main_v6 : Ref sig .tc := ⟨.hbm, 19, rfl⟩
abbrev main_v7 : Ref sig .tc := ⟨.hbm, 20, rfl⟩
abbrev main_v8 : Ref sig .tc := ⟨.hbm, 21, rfl⟩
abbrev main_v9 : Ref sig .tc := ⟨.hbm, 22, rfl⟩
abbrev main_v10 : Ref sig .tc := ⟨.hbm, 23, rfl⟩
abbrev main_v11 : Ref sig .tc := ⟨.hbm, 24, rfl⟩
abbrev main_v12 : Ref sig .tc := ⟨.hbm, 25, rfl⟩
abbrev main_v13 : Ref sig .tc := ⟨.hbm, 26, rfl⟩
abbrev main_v14 : Ref sig .tc := ⟨.hbm, 27, rfl⟩
abbrev main_v15 : Ref sig .tc := ⟨.hbm, 28, rfl⟩
abbrev main_v16_0 : Ref sig .tc := ⟨.hbm, 29, rfl⟩
abbrev main_v16_1 : Ref sig .tc := ⟨.hbm, 30, rfl⟩
abbrev main_v16_2 : Ref sig .tc := ⟨.hbm, 31, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg4_0 : Ref sig .tc := ⟨.vmem, 7, rfl⟩
abbrev cc0_stg5_0 : Ref sig .tc := ⟨.vmem, 8, rfl⟩
abbrev cc0_stg6_0 : Ref sig .tc := ⟨.vmem, 9, rfl⟩
abbrev cc0_stg7_0 : Ref sig .tc := ⟨.vmem, 10, rfl⟩
abbrev cc0_stg8_0 : Ref sig .tc := ⟨.vmem, 11, rfl⟩
abbrev cc0_stg8_1 : Ref sig .tc := ⟨.vmem, 12, rfl⟩
abbrev cc0_stg9_0 : Ref sig .tc := ⟨.vmem, 13, rfl⟩
abbrev cc0_stg9_1 : Ref sig .tc := ⟨.vmem, 14, rfl⟩
abbrev cc0_stg10_0 : Ref sig .tc := ⟨.vmem, 15, rfl⟩
abbrev cc0_stg10_1 : Ref sig .tc := ⟨.vmem, 16, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem4_0 : DmaSem sig := 7
abbrev cc0_sem5_0 : DmaSem sig := 8
abbrev cc0_sem6_0 : DmaSem sig := 9
abbrev cc0_sem7_0 : DmaSem sig := 10
abbrev cc0_sem8_0 : DmaSem sig := 11
abbrev cc0_sem8_1 : DmaSem sig := 12
abbrev cc0_sem9_0 : DmaSem sig := 13
abbrev cc0_sem9_1 : DmaSem sig := 14
abbrev cc0_sem10_0 : DmaSem sig := 15
abbrev cc0_sem10_1 : DmaSem sig := 16

abbrev nD : Nat := 1
abbrev τ : Topo := Topo.v7x

variable {F : FTy → Type} [FloatOps F]

abbrev grid0 : Pipeline.Grid := ⟨1, ![32], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_9 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_10 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S256x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S256x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S256x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 1 → Memref sig .tc .vmem S1024x4096 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S1024x4096 .bf16 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S1x4096 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S1024x512 .bf16 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 1 → Memref sig .tc .vmem S1x512 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 2 → Memref sig .tc .vmem S256x1024 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]

abbrev stage0_9 : Fin 2 → Memref sig .tc .vmem S256x1024 .f32 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true]

abbrev stage0_10 : Fin 2 → Memref sig .tc .vmem S256x512 .f32 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true]

class Facts₀ : Prop where
  slices_S2048x1024_S1024x1024_0_0 : S2048x1024.Slices ![0, 0] S1024x1024
  concatenates_S1024x1024_S1024x1024_S1024x1024_S1024x1024_S1024x4096_d1 : Shape.Concatenates [S1024x1024, S1024x1024, S1024x1024, S1024x1024] S1024x4096 1
  bitsLt_bf16_f32 : FTy.bits .bf16 < FTy.bits .f32
  slices_S2048x1024_S1024x1024_1024_0 : S2048x1024.Slices ![1024, 0] S1024x1024
  concatenates_S1024_S1024_S1024_S1024_S4096_d0 : Shape.Concatenates [S1024, S1024, S1024, S1024] S4096 0
  shapeCasts_S4096_S1x4096 : S4096.ShapeCasts S1x4096
  shapeCasts_S512_S1x512 : S512.ShapeCasts S1x512
  inb_S256x1024_S256x1024_0_0 : ∀ a, (![0, 0] : Fin 2 → Nat) a + S256x1024.size a ≤ S256x1024.size a
  h_S256x1024 : 0 < S256x1024.numel
  inb_S1024x4096_S1024x1024_0_0 : ∀ a, (![0, 0] : Fin 2 → Nat) a + S1024x1024.size a ≤ S1024x4096.size a
  h_S1024x1024 : 0 < S1024x1024.numel
  shapeCasts_S1024x1024_S1024x1024 : S1024x1024.ShapeCasts S1024x1024
  inb_S1x4096_S1x1024_0_0 : ∀ a, (![0, 0] : Fin 2 → Nat) a + S1x1024.size a ≤ S1x4096.size a
  h_S1x1024 : 0 < S1x1024.numel
  shapeCasts_S1x1024_S1x1024 : S1x1024.ShapeCasts S1x1024
  broadcasts_S1x1024_S256x1024 : S1x1024.Broadcasts S256x1024
  inb_S1024x4096_S1024x1024_0_1024 : ∀ a, (![0, 1024] : Fin 2 → Nat) a + S1024x1024.size a ≤ S1024x4096.size a
  inb_S1x4096_S1x1024_0_1024 : ∀ a, (![0, 1024] : Fin 2 → Nat) a + S1x1024.size a ≤ S1x4096.size a
  inb_S1024x4096_S1024x1024_0_2048 : ∀ a, (![0, 2048] : Fin 2 → Nat) a + S1024x1024.size a ≤ S1024x4096.size a
  inb_S1x4096_S1x1024_0_2048 : ∀ a, (![0, 2048] : Fin 2 → Nat) a + S1x1024.size a ≤ S1x4096.size a
  inb_S1024x4096_S1024x1024_0_3072 : ∀ a, (![0, 3072] : Fin 2 → Nat) a + S1024x1024.size a ≤ S1024x4096.size a
  inb_S1x4096_S1x1024_0_3072 : ∀ a, (![0, 3072] : Fin 2 → Nat) a + S1x1024.size a ≤ S1x4096.size a
  inb_S1024x512_S1024x512_0_0 : ∀ a, (![0, 0] : Fin 2 → Nat) a + S1024x512.size a ≤ S1024x512.size a
  h_S1024x512 : 0 < S1024x512.numel
  shapeCasts_S1024x512_S1024x512 : S1024x512.ShapeCasts S1024x512
  inb_S1x512_S1x512_0_0 : ∀ a, (![0, 0] : Fin 2 → Nat) a + S1x512.size a ≤ S1x512.size a
  h_S1x512 : 0 < S1x512.numel
  shapeCasts_S1x512_S1x512 : S1x512.ShapeCasts S1x512
  broadcasts_S1x512_S256x512 : S1x512.Broadcasts S256x512
  inb_S256x512_S256x512_0_0 : ∀ a, (![0, 0] : Fin 2 → Nat) a + S256x512.size a ≤ S256x512.size a
  h_S256x512 : 0 < S256x512.numel
  dot_S256x1024_S1024x1024_S256x1024_1_0_0_1_n_n_wf : DotDims.WF S256x1024 S1024x1024 S256x1024 [1] [0] [0] [1] [] []
  dot_S256x1024_S1024x512_S256x512_1_0_0_1_n_n_wf : DotDims.WF S256x1024 S1024x512 S256x512 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S256x1024.size a ≤ S8192x1024.size a
  hwx0_0 : ∀ i : grid0.Coords, EltTy.bits .f32 = 32 ∨ (Rect.block (s := S8192x1024) S256x1024.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S256x1024.size a ≤ S8192x1024.size a
  hwx0_1 : ∀ i : grid0.Coords, EltTy.bits .f32 = 32 ∨ (Rect.block (s := S8192x1024) S256x1024.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S256x1024.size a ≤ S8192x1024.size a
  hwx0_2 : ∀ i : grid0.Coords, EltTy.bits .f32 = 32 ∨ (Rect.block (s := S8192x1024) S256x1024.size (cc0_transform_2 i) (hinb0_2 i)).WholeWords (EltTy.packing .f32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S1024x4096.size a ≤ S1024x4096.size a
  hwx0_3 : ∀ i : grid0.Coords, EltTy.bits .bf16 = 32 ∨ (Rect.block (s := S1024x4096) S1024x4096.size (cc0_transform_3 i) (hinb0_3 i)).WholeWords (EltTy.packing .bf16)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S1024x4096.size a ≤ S1024x4096.size a
  hwx0_4 : ∀ i : grid0.Coords, EltTy.bits .bf16 = 32 ∨ (Rect.block (s := S1024x4096) S1024x4096.size (cc0_transform_4 i) (hinb0_4 i)).WholeWords (EltTy.packing .bf16)
  hstage0_5 : ∀ j, (stage0_5 j).IsWhole
  nbuf0_5 : grid0.bufCount reads0_5 true = 1
  hreads0_5 : ∀ i i' : grid0.Coords, (∀ a, reads0_5 a = true → i a = i' a) → cc0_transform_5 i = cc0_transform_5 i'
  hinb0_5 : ∀ (i : grid0.Coords) a, (cc0_transform_5 i a + 1) * S1x4096.size a ≤ S1x4096.size a
  hwx0_5 : ∀ i : grid0.Coords, EltTy.bits .f32 = 32 ∨ (Rect.block (s := S1x4096) S1x4096.size (cc0_transform_5 i) (hinb0_5 i)).WholeWords (EltTy.packing .f32)
  hstage0_6 : ∀ j, (stage0_6 j).IsWhole
  nbuf0_6 : grid0.bufCount reads0_6 true = 1
  hreads0_6 : ∀ i i' : grid0.Coords, (∀ a, reads0_6 a = true → i a = i' a) → cc0_transform_6 i = cc0_transform_6 i'
  hinb0_6 : ∀ (i : grid0.Coords) a, (cc0_transform_6 i a + 1) * S1024x512.size a ≤ S1024x512.size a
  hwx0_6 : ∀ i : grid0.Coords, EltTy.bits .bf16 = 32 ∨ (Rect.block (s := S1024x512) S1024x512.size (cc0_transform_6 i) (hinb0_6 i)).WholeWords (EltTy.packing .bf16)
  hstage0_7 : ∀ j, (stage0_7 j).IsWhole
  nbuf0_7 : grid0.bufCount reads0_7 true = 1
  hreads0_7 : ∀ i i' : grid0.Coords, (∀ a, reads0_7 a = true → i a = i' a) → cc0_transform_7 i = cc0_transform_7 i'
  hinb0_7 : ∀ (i : grid0.Coords) a, (cc0_transform_7 i a + 1) * S1x512.size a ≤ S1x512.size a
  hwx0_7 : ∀ i : grid0.Coords, EltTy.bits .f32 = 32 ∨ (Rect.block (s := S1x512) S1x512.size (cc0_transform_7 i) (hinb0_7 i)).WholeWords (EltTy.packing .f32)
  hstage0_8 : ∀ j, (stage0_8 j).IsWhole
  nbuf0_8 : grid0.bufCount reads0_8 false = 2
  hreads0_8 : ∀ i i' : grid0.Coords, (∀ a, reads0_8 a = true → i a = i' a) → cc0_transform_8 i = cc0_transform_8 i'
  hinb0_8 : ∀ (i : grid0.Coords) a, (cc0_transform_8 i a + 1) * S256x1024.size a ≤ S8192x1024.size a
  hwx0_8 : ∀ i : grid0.Coords, EltTy.bits .f32 = 32 ∨ (Rect.block (s := S8192x1024) S256x1024.size (cc0_transform_8 i) (hinb0_8 i)).WholeWords (EltTy.packing .f32)
  hstage0_9 : ∀ j, (stage0_9 j).IsWhole
  nbuf0_9 : grid0.bufCount reads0_9 false = 2
  hreads0_9 : ∀ i i' : grid0.Coords, (∀ a, reads0_9 a = true → i a = i' a) → cc0_transform_9 i = cc0_transform_9 i'
  hinb0_9 : ∀ (i : grid0.Coords) a, (cc0_transform_9 i a + 1) * S256x1024.size a ≤ S8192x1024.size a
  hwx0_9 : ∀ i : grid0.Coords, EltTy.bits .f32 = 32 ∨ (Rect.block (s := S8192x1024) S256x1024.size (cc0_transform_9 i) (hinb0_9 i)).WholeWords (EltTy.packing .f32)
  hstage0_10 : ∀ j, (stage0_10 j).IsWhole
  nbuf0_10 : grid0.bufCount reads0_10 false = 2
  hreads0_10 : ∀ i i' : grid0.Coords, (∀ a, reads0_10 a = true → i a = i' a) → cc0_transform_10 i = cc0_transform_10 i'
  hinb0_10 : ∀ (i : grid0.Coords) a, (cc0_transform_10 i a + 1) * S256x512.size a ≤ S8192x512.size a
  hwx0_10 : ∀ i : grid0.Coords, EltTy.bits .f32 = 32 ∨ (Rect.block (s := S8192x512) S256x512.size (cc0_transform_10 i) (hinb0_10 i)).WholeWords (EltTy.packing .f32)

variable [Facts₀]

def dot_S256x1024_S1024x1024_S256x1024_1_0_0_1_n_n : DotDims S256x1024 S1024x1024 S256x1024 where
  lhsContracting := [1]
  rhsContracting := [0]
  lhsNonContracting := [0]
  rhsNonContracting := [1]
  lhsBatch := []
  rhsBatch := []
  wf := dot_S256x1024_S1024x1024_S256x1024_1_0_0_1_n_n_wf
def dot_S256x1024_S1024x512_S256x512_1_0_0_1_n_n : DotDims S256x1024 S1024x512 S256x512 where
  lhsContracting := [1]
  rhsContracting := [0]
  lhsNonContracting := [0]
  rhsNonContracting := [1]
  lhsBatch := []
  rhsBatch := []
  wf := dot_S256x1024_S1024x512_S256x512_1_0_0_1_n_n_wf

abbrev win0_0 : Pipeline.Window sig grid0 :=
  Pipeline.Window.ofSpec (Memref.whole main_arg0) S256x1024.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg1) S256x1024.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_arg2) S256x1024.size cc0_transform_2 reads0_2 false false 2 stage0_2 sem0_2
    hrank0 hreads0_2 hinb0_2 nbuf0_2 (Memref.isWhole_whole _) hwx0_2 hstage0_2

abbrev win0_3 : Pipeline.Window sig grid0 :=
  Pipeline.Window.ofSpec (Memref.whole main_v5) S1024x4096.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_v11) S1024x4096.size cc0_transform_4 reads0_4 false true 1 stage0_4 sem0_4
    hrank0 hreads0_4 hinb0_4 nbuf0_4 (Memref.isWhole_whole _) hwx0_4 hstage0_4

abbrev win0_5 : Pipeline.Window sig grid0 :=
  Pipeline.Window.ofSpec (Memref.whole main_v13) S1x4096.size cc0_transform_5 reads0_5 false true 1 stage0_5 sem0_5
    hrank0 hreads0_5 hinb0_5 nbuf0_5 (Memref.isWhole_whole _) hwx0_5 hstage0_5

abbrev win0_6 : Pipeline.Window sig grid0 :=
  Pipeline.Window.ofSpec (Memref.whole main_v14) S1024x512.size cc0_transform_6 reads0_6 false true 1 stage0_6 sem0_6
    hrank0 hreads0_6 hinb0_6 nbuf0_6 (Memref.isWhole_whole _) hwx0_6 hstage0_6

abbrev win0_7 : Pipeline.Window sig grid0 :=
  Pipeline.Window.ofSpec (Memref.whole main_v15) S1x512.size cc0_transform_7 reads0_7 false true 1 stage0_7 sem0_7
    hrank0 hreads0_7 hinb0_7 nbuf0_7 (Memref.isWhole_whole _) hwx0_7 hstage0_7

abbrev win0_8 : Pipeline.Window sig grid0 :=
  Pipeline.Window.ofSpec (Memref.whole main_v16_0) S256x1024.size cc0_transform_8 reads0_8 true false 2 stage0_8 sem0_8
    hrank0 hreads0_8 hinb0_8 nbuf0_8 (Memref.isWhole_whole _) hwx0_8 hstage0_8

abbrev win0_9 : Pipeline.Window sig grid0 :=
  Pipeline.Window.ofSpec (Memref.whole main_v16_1) S256x1024.size cc0_transform_9 reads0_9 true false 2 stage0_9 sem0_9
    hrank0 hreads0_9 hinb0_9 nbuf0_9 (Memref.isWhole_whole _) hwx0_9 hstage0_9

abbrev win0_10 : Pipeline.Window sig grid0 :=
  Pipeline.Window.ofSpec (Memref.whole main_v16_2) S256x512.size cc0_transform_10 reads0_10 true false 2 stage0_10 sem0_10
    hrank0 hreads0_10 hinb0_10 nbuf0_10 (Memref.isWhole_whole _) hwx0_10 hstage0_10

abbrev win0 : Fin 11 → Pipeline.Window sig grid0 := fun | 0 => win0_0 | 1 => win0_1 | 2 => win0_2 | 3 => win0_3 | 4 => win0_4 | 5 => win0_5 | 6 => win0_6 | 7 => win0_7 | 8 => win0_8 | 9 => win0_9 | 10 => win0_10 | ⟨_ + 11, h⟩ => absurd h (Nat.not_lt.2 (Nat.le_add_left _ _))
abbrev spec0 : Fin 11 → Pipeline.WinSpec sig grid0.rank := fun w => (win0 w).toWinSpec

class Facts : Prop extends Facts₀ where

variable [Facts]
-- ==== ReferenceIdeal.lean ====
abbrev S8192x1024 : Shape := ⟨2, ![8192, 1024]⟩
abbrev S2048x1024 : Shape := ⟨2, ![2048, 1024]⟩
abbrev S1024 : Shape := ⟨1, ![1024]⟩
abbrev S1024x512 : Shape := ⟨2, ![1024, 512]⟩
abbrev S512 : Shape := ⟨1, ![512]⟩
abbrev S8192x2048 : Shape := ⟨2, ![8192, 2048]⟩
abbrev S2048x4096 : Shape := ⟨2, ![2048, 4096]⟩
abbrev S4096 : Shape := ⟨1, ![4096]⟩
abbrev S8192x4096 : Shape := ⟨2, ![8192, 4096]⟩
abbrev S1x4096 : Shape := ⟨2, ![1, 4096]⟩
abbrev S_ : Shape := ⟨0, ![]⟩
abbrev S8192x512 : Shape := ⟨2, ![8192, 512]⟩
abbrev S1x512 : Shape := ⟨2, ![1, 512]⟩

abbrev nBuf : Space → Nat
  | .hbm => 58
  | .vmem => 0
  | .smem => 0
  | _ => 0

abbrev bufTy : (tb : Table) → Fin (tcTables nBuf tb) → BufTy
  | .hbm, ⟨0, _⟩ => ⟨S8192x1024, .f32⟩
  | .hbm, ⟨1, _⟩ => ⟨S8192x1024, .f32⟩
  | .hbm, ⟨2, _⟩ => ⟨S8192x1024, .f32⟩
  | .hbm, ⟨3, _⟩ => ⟨S2048x1024, .f32⟩
  | .hbm, ⟨4, _⟩ => ⟨S1024, .f32⟩
  | .hbm, ⟨5, _⟩ => ⟨S2048x1024, .f32⟩
  | .hbm, ⟨6, _⟩ => ⟨S1024, .f32⟩
  | .hbm, ⟨7, _⟩ => ⟨S2048x1024, .f32⟩
  | .hbm, ⟨8, _⟩ => ⟨S1024, .f32⟩
  | .hbm, ⟨9, _⟩ => ⟨S2048x1024, .f32⟩
  | .hbm, ⟨10, _⟩ => ⟨S1024, .f32⟩
  | .hbm, ⟨11, _⟩ => ⟨S1024x512, .f32⟩
  | .hbm, ⟨12, _⟩ => ⟨S512, .f32⟩
  | .hbm, ⟨13, _⟩ => ⟨S8192x2048, .f32⟩
  | .hbm, ⟨14, _⟩ => ⟨S2048x4096, .f32⟩
  | .hbm, ⟨15, _⟩ => ⟨S4096, .f32⟩
  | .hbm, ⟨16, _⟩ => ⟨S8192x4096, .f32⟩
  | .hbm, ⟨17, _⟩ => ⟨S1x4096, .f32⟩
  | .hbm, ⟨18, _⟩ => ⟨S8192x4096, .f32⟩
  | .hbm, ⟨19, _⟩ => ⟨S8192x4096, .f32⟩
  | .hbm, ⟨20, _⟩ => ⟨S8192x1024, .f32⟩
  | .hbm, ⟨21, _⟩ => ⟨S8192x1024, .f32⟩
  | .hbm, ⟨22, _⟩ => ⟨S8192x1024, .f32⟩
  | .hbm, ⟨23, _⟩ => ⟨S8192x1024, .f32⟩
  | .hbm, ⟨24, _⟩ => ⟨S8192x1024, .f32⟩
  | .hbm, ⟨25, _⟩ => ⟨S8192x1024, .f32⟩
  | .hbm, ⟨26, _⟩ => ⟨S_, .f32⟩
  | .hbm, ⟨27, _⟩ => ⟨S8192x1024, .f32⟩
  | .hbm, ⟨28, _⟩ => ⟨S8192x1024, .f32⟩
  | .hbm, ⟨29, _⟩ => ⟨S_, .f32⟩
  | .hbm, ⟨30, _⟩ => ⟨S8192x1024, .f32⟩
  | .hbm, ⟨31, _⟩ => ⟨S8192x1024, .f32⟩
  | .hbm, ⟨32, _⟩ => ⟨S8192x1024, .f32⟩
  | .hbm, ⟨33, _⟩ => ⟨S8192x1024, .f32⟩
  | .hbm, ⟨34, _⟩ => ⟨S_, .f32⟩
  | .hbm, ⟨35, _⟩ => ⟨S8192x1024, .f32⟩
  | .hbm, ⟨36, _⟩ => ⟨S8192x1024, .f32⟩
  | .hbm, ⟨37, _⟩ => ⟨S_, .f32⟩
  | .hbm, ⟨38, _⟩ => ⟨S8192x1024, .f32⟩
  | .hbm, ⟨39, _⟩ => ⟨S8192x1024, .f32⟩
  | .hbm, ⟨40, _⟩ => ⟨S8192x1024, .f32⟩
  | .hbm, ⟨41, _⟩ => ⟨S8192x1024, .f32⟩
  | .hbm, ⟨42, _⟩ => ⟨S_, .f32⟩
  | .hbm, ⟨43, _⟩ => ⟨S8192x1024, .f32⟩
  | .hbm, ⟨44, _⟩ => ⟨S8192x1024, .f32⟩
  | .hbm, ⟨45, _⟩ => ⟨S_, .f32⟩
  | .hbm, ⟨46, _⟩ => ⟨S8192x1024, .f32⟩
  | .hbm, ⟨47, _⟩ => ⟨S8192x1024, .f32⟩
  | .hbm, ⟨48, _⟩ => ⟨S8192x1024, .f32⟩
  | .hbm, ⟨49, _⟩ => ⟨S8192x1024, .f32⟩
  | .hbm, ⟨50, _⟩ => ⟨S8192x1024, .f32⟩
  | .hbm, ⟨51, _⟩ => ⟨S8192x1024, .f32⟩
  | .hbm, ⟨52, _⟩ => ⟨S8192x1024, .f32⟩
  | .hbm, ⟨53, _⟩ => ⟨S8192x1024, .f32⟩
  | .hbm, ⟨54, _⟩ => ⟨S8192x512, .f32⟩
  | .hbm, ⟨55, _⟩ => ⟨S1x512, .f32⟩
  | .hbm, ⟨56, _⟩ => ⟨S8192x512, .f32⟩
  | .hbm, ⟨57, _⟩ => ⟨S8192x512, .f32⟩
  | _, _ => ⟨S8192x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_v0 : Ref sig .tc := ⟨.hbm, 13, rfl⟩
abbrev main_v1 : Ref sig .tc := ⟨.hbm, 14, rfl⟩
abbrev main_v2 : Ref sig .tc := ⟨.hbm, 15, rfl⟩
abbrev main_v3 : Ref sig .tc := ⟨.hbm, 16, rfl⟩
abbrev main_v4 : Ref sig .tc := ⟨.hbm, 17, rfl⟩
abbrev main_v5 : Ref sig .tc := ⟨.hbm, 18, rfl⟩
abbrev main_v6 : Ref sig .tc := ⟨.hbm, 19, rfl⟩
abbrev main_v7 : Ref sig .tc := ⟨.hbm, 20, rfl⟩
abbrev main_v8 : Ref sig .tc := ⟨.hbm, 21, rfl⟩
abbrev main_v9 : Ref sig .tc := ⟨.hbm, 22, rfl⟩
abbrev main_v10 : Ref sig .tc := ⟨.hbm, 23, rfl⟩
abbrev main_v11 : Ref sig .tc := ⟨.hbm, 24, rfl⟩
abbrev main_v12 : Ref sig .tc := ⟨.hbm, 25, rfl⟩
abbrev main_cst : Ref sig .tc := ⟨.hbm, 26, rfl⟩
abbrev main_v13 : Ref sig .tc := ⟨.hbm, 27, rfl⟩
abbrev main_v14 : Ref sig .tc := ⟨.hbm, 28, rfl⟩
abbrev main_cst_0 : Ref sig .tc := ⟨.hbm, 29, rfl⟩
abbrev main_v15 : Ref sig .tc := ⟨.hbm, 30, rfl⟩
abbrev main_v16 : Ref sig .tc := ⟨.hbm, 31, rfl⟩
abbrev main_v17 : Ref sig .tc := ⟨.hbm, 32, rfl⟩
abbrev main_v18 : Ref sig .tc := ⟨.hbm, 33, rfl⟩
abbrev main_cst_1 : Ref sig .tc := ⟨.hbm, 34, rfl⟩
abbrev main_v19 : Ref sig .tc := ⟨.hbm, 35, rfl⟩
abbrev main_v20 : Ref sig .tc := ⟨.hbm, 36, rfl⟩
abbrev main_cst_2 : Ref sig .tc := ⟨.hbm, 37, rfl⟩
abbrev main_v21 : Ref sig .tc := ⟨.hbm, 38, rfl⟩
abbrev main_v22 : Ref sig .tc := ⟨.hbm, 39, rfl⟩
abbrev main_v23 : Ref sig .tc := ⟨.hbm, 40, rfl⟩
abbrev main_v24 : Ref sig .tc := ⟨.hbm, 41, rfl⟩
abbrev main_cst_3 : Ref sig .tc := ⟨.hbm, 42, rfl⟩
abbrev main_v25 : Ref sig .tc := ⟨.hbm, 43, rfl⟩
abbrev main_v26 : Ref sig .tc := ⟨.hbm, 44, rfl⟩
abbrev main_cst_4 : Ref sig .tc := ⟨.hbm, 45, rfl⟩
abbrev main_v27 : Ref sig .tc := ⟨.hbm, 46, rfl⟩
abbrev main_v28 : Ref sig .tc := ⟨.hbm, 47, rfl⟩
abbrev main_v29 : Ref sig .tc := ⟨.hbm, 48, rfl⟩
abbrev main_v30 : Ref sig .tc := ⟨.hbm, 49, rfl⟩
abbrev main_v31 : Ref sig .tc := ⟨.hbm, 50, rfl⟩
abbrev main_v32 : Ref sig .tc := ⟨.hbm, 51, rfl⟩
abbrev main_v33 : Ref sig .tc := ⟨.hbm, 52, rfl⟩
abbrev main_v34 : Ref sig .tc := ⟨.hbm, 53, rfl⟩
abbrev main_v35 : Ref sig .tc := ⟨.hbm, 54, rfl⟩
abbrev main_v36 : Ref sig .tc := ⟨.hbm, 55, rfl⟩
abbrev main_v37 : Ref sig .tc := ⟨.hbm, 56, rfl⟩
abbrev main_v38 : Ref sig .tc := ⟨.hbm, 57, rfl⟩

abbrev nD : Nat := 1
abbrev τ : Topo := Topo.v7x

variable {F : FTy → Type} [FloatOps F]

class Facts₀ : Prop where
  concatenates_S8192x1024_S8192x1024_S8192x2048_d1 : Shape.Concatenates [S8192x1024, S8192x1024] S8192x2048 1
  concatenates_S2048x1024_S2048x1024_S2048x1024_S2048x1024_S2048x4096_d1 : Shape.Concatenates [S2048x1024, S2048x1024, S2048x1024, S2048x1024] S2048x4096 1
  concatenates_S1024_S1024_S1024_S1024_S4096_d0 : Shape.Concatenates [S1024, S1024, S1024, S1024] S4096 0
  bcast_S4096_S1x4096_1 : S4096.BroadcastsInDim S1x4096 (![1] : Fin 1 → Fin S1x4096.rank)
  bcast_S1x4096_S8192x4096_0_1 : S1x4096.BroadcastsInDim S8192x4096 (![0, 1] : Fin 2 → Fin S8192x4096.rank)
  slices_S8192x4096_S8192x1024_0_0 : S8192x4096.Slices ![0, 0] S8192x1024
  slices_S8192x4096_S8192x1024_0_1024 : S8192x4096.Slices ![0, 1024] S8192x1024
  slices_S8192x4096_S8192x1024_0_2048 : S8192x4096.Slices ![0, 2048] S8192x1024
  slices_S8192x4096_S8192x1024_0_3072 : S8192x4096.Slices ![0, 3072] S8192x1024
  bcast_S_S8192x1024 : S_.BroadcastsInDim S8192x1024 (![] : Fin 0 → Fin S8192x1024.rank)
  bcast_S512_S1x512_1 : S512.BroadcastsInDim S1x512 (![1] : Fin 1 → Fin S1x512.rank)
  bcast_S1x512_S8192x512_0_1 : S1x512.BroadcastsInDim S8192x512 (![0, 1] : Fin 2 → Fin S8192x512.rank)
  dot_S8192x2048_S2048x4096_S8192x4096_1_0_0_1_n_n_wf : DotDims.WF S8192x2048 S2048x4096 S8192x4096 [1] [0] [0] [1] [] []
  dot_S8192x1024_S1024x512_S8192x512_1_0_0_1_n_n_wf : DotDims.WF S8192x1024 S1024x512 S8192x512 [1] [0] [0] [1] [] []

variable [Facts₀]

def dot_S8192x2048_S2048x4096_S8192x4096_1_0_0_1_n_n : DotDims S8192x2048 S2048x4096 S8192x4096 where
  lhsContracting := [1]
  rhsContracting := [0]
  lhsNonContracting := [0]
  rhsNonContracting := [1]
  lhsBatch := []
  rhsBatch := []
  wf := dot_S8192x2048_S2048x4096_S8192x4096_1_0_0_1_n_n_wf
def dot_S8192x1024_S1024x512_S8192x512_1_0_0_1_n_n : DotDims S8192x1024 S1024x512 S8192x512 where
  lhsContracting := [1]
  rhsContracting := [0]
  lhsNonContracting := [0]
  rhsNonContracting := [1]
  lhsBatch := []
  rhsBatch := []
  wf := dot_S8192x1024_S1024x512_S8192x512_1_0_0_1_n_n_wf

class Facts : Prop extends Facts₀ where

variable [Facts]
-- ==== Proof.CellBodyBits.lean ====
/-
  The launch of the LSTM-cell kernel, part one: the host lines before the launch and the kernel body at one tile
  of 256 batch rows.

  The host lines only re-lay the parameters: the upper halves (rows 0..1023) of the four gate weights side by
  side as a [1024, 4096] matrix for the input, the lower halves (rows 1024..2047) likewise for the hidden
  state, the four gate biases end to end as one row [1, 4096], the output projection and its bias. None of them
  writes an argument array. The kernel body reads a tile of x, h and c and the whole re-laid parameters, and
  stores three tiles: the new cell state, the new hidden state, and the projected output; here it is shown to
  run, leaving its inputs as they were and each output tile at the value the body's arithmetic names.
-/
import proofs.«115341_j37778532335717_2_alg».proof.Proof.Gen.Kernel.Launch
import proofs.«115341_j37778532335717_2_alg».proof.Proof.Gen.Kernel.Skeleton
import proofs.«115341_j37778532335717_2_alg».proof.Proof.Gen.Kernel.Points
import Idealize.ShloMosaic.Lib.Pipeline.FrameBody
import Idealize.ShloMosaic.Lib.Pipeline.Value
import Idealize.ShloMosaic.Lib.Ring
import Idealize.ShloMosaic.Lib.Tactic

set_option maxRecDepth 16384

noncomputable section

namespace Cert.Kernel.Cell

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## The buffers when the kernel is launched -/

/-- What each buffer of core `c` holds when the kernel is launched: the sixteen host lines applied to the
    launch memory. -/
abbrev V (c : Dev nD) (b : Ref sig .tc) : Buf (Elt F) ((c : Thread nD τ).loc b) :=
  StableHlo.after (List.flatten [hostOps0]) (fun b => m (c, b)) b

/-- The host lines allocate nothing. -/
theorem hostOps0_fresh : (hostOps0 : List (HloOp τ sig (Elt F))).Forall fun op => op.fresh = ∅ := by
  simp only [List.Forall]; repeat' constructor

/-- The program is those host lines followed by the launch. -/
theorem hmain (𝒱₀ : Variants) : Pipeline.HMain (Ix := Unit) (Name := ℕ) (U := UR sig nD τ) (Lvl := ℕ) cfgs 0 defs₀ 𝒱₀ m (main (F := F)) (V m) :=
  Pipeline.hmain_prefixes cfgs 0 defs₀ 𝒱₀ m main [hostOps0] (by simp only [List.Forall]; exact hostOps0_sub)
    (by simp only [List.Forall]; exact hostOps0_fresh) main_chain

/-- No host line before the launch writes argument 0. -/
theorem V_main_arg0 (c : Dev nD) : V m c main_arg0 = m ((c : Thread nD τ).loc main_arg0) :=
  StableHlo.after_of_forall_not_mem (b := Proc.devRef .tc main_arg0) _ _ (List.forall_iff_forall_mem.mp (by
    simp only [hostOps0, List.flatten_cons, List.flatten_nil, List.append_nil, List.cons_append,
      List.nil_append, List.Forall, StableHlo.unary_writes, StableHlo.nary_writes, StableHlo.reshape_writes, Finset.mem_singleton]
    repeat' apply And.intro
    all_goals exact StableHlo.devRef_ne_of_ne (by decide)))
/-- No host line before the launch writes argument 1. -/
theorem V_main_arg1 (c : Dev nD) : V m c main_arg1 = m ((c : Thread nD τ).loc main_arg1) :=
  StableHlo.after_of_forall_not_mem (b := Proc.devRef .tc main_arg1) _ _ (List.forall_iff_forall_mem.mp (by
    simp only [hostOps0, List.flatten_cons, List.flatten_nil, List.append_nil, List.cons_append,
      List.nil_append, List.Forall, StableHlo.unary_writes, StableHlo.nary_writes, StableHlo.reshape_writes, Finset.mem_singleton]
    repeat' apply And.intro
    all_goals exact StableHlo.devRef_ne_of_ne (by decide)))
/-- No host line before the launch writes argument 2. -/
theorem V_main_arg2 (c : Dev nD) : V m c main_arg2 = m ((c : Thread nD τ).loc main_arg2) :=
  StableHlo.after_of_forall_not_mem (b := Proc.devRef .tc main_arg2) _ _ (List.forall_iff_forall_mem.mp (by
    simp only [hostOps0, List.flatten_cons, List.flatten_nil, List.append_nil, List.cons_append,
      List.nil_append, List.Forall, StableHlo.unary_writes, StableHlo.nary_writes, StableHlo.reshape_writes, Finset.mem_singleton]
    repeat' apply And.intro
    all_goals exact StableHlo.devRef_ne_of_ne (by decide)))
/-- No host line before the launch writes argument 3. -/
theorem V_main_arg3 (c : Dev nD) : V m c main_arg3 = m ((c : Thread nD τ).loc main_arg3) :=
  StableHlo.after_of_forall_not_mem (b := Proc.devRef .tc main_arg3) _ _ (List.forall_iff_forall_mem.mp (by
    simp only [hostOps0, List.flatten_cons, List.flatten_nil, List.append_nil, List.cons_append,
      List.nil_append, List.Forall, StableHlo.unary_writes, StableHlo.nary_writes, StableHlo.reshape_writes, Finset.mem_singleton]
    repeat' apply And.intro
    all_goals exact StableHlo.devRef_ne_of_ne (by decide)))
/-- No host line before the launch writes argument 4. -/
theorem V_main_arg4 (c : Dev nD) : V m c main_arg4 = m ((c : Thread nD τ).loc main_arg4) :=
  StableHlo.after_of_forall_not_mem (b := Proc.devRef .tc main_arg4) _ _ (List.forall_iff_forall_mem.mp (by
    simp only [hostOps0, List.flatten_cons, List.flatten_nil, List.append_nil, List.cons_append,
      List.nil_append, List.Forall, StableHlo.unary_writes, StableHlo.nary_writes, StableHlo.reshape_writes, Finset.mem_singleton]
    repeat' apply And.intro
    all_goals exact StableHlo.devRef_ne_of_ne (by decide)))
/-- No host line before the launch writes argument 5. -/
theorem V_main_arg5 (c : Dev nD) : V m c main_arg5 = m ((c : Thread nD τ).loc main_arg5) :=
  StableHlo.after_of_forall_not_mem (b := Proc.devRef .tc main_arg5) _ _ (List.forall_iff_forall_mem.mp (by
    simp only [hostOps0, List.flatten_cons, List.flatten_nil, List.append_nil, List.cons_append,
      List.nil_append, List.Forall, StableHlo.unary_writes, StableHlo.nary_writes, StableHlo.reshape_writes, Finset.mem_singleton]
    repeat' apply And.intro
    all_goals exact StableHlo.devRef_ne_of_ne (by decide)))
/-- No host line before the launch writes argument 6. -/
theorem V_main_arg6 (c : Dev nD) : V m c main_arg6 = m ((c : Thread nD τ).loc main_arg6) :=
  StableHlo.after_of_forall_not_mem (b := Proc.devRef .tc main_arg6) _ _ (List.forall_iff_forall_mem.mp (by
    simp only [hostOps0, List.flatten_cons, List.flatten_nil, List.append_nil, List.cons_append,
      List.nil_append, List.Forall, StableHlo.unary_writes, StableHlo.nary_writes, StableHlo.reshape_writes, Finset.mem_singleton]
    repeat' apply And.intro
    all_goals exact StableHlo.devRef_ne_of_ne (by decide)))
/-- No host line before the launch writes argument 7. -/
theorem V_main_arg7 (c : Dev nD) : V m c main_arg7 = m ((c : Thread nD τ).loc main_arg7) :=
  StableHlo.after_of_forall_not_mem (b := Proc.devRef .tc main_arg7) _ _ (List.forall_iff_forall_mem.mp (by
    simp only [hostOps0, List.flatten_cons, List.flatten_nil, List.append_nil, List.cons_append,
      List.nil_append, List.Forall, StableHlo.unary_writes, StableHlo.nary_writes, StableHlo.reshape_writes, Finset.mem_singleton]
    repeat' apply And.intro
    all_goals exact StableHlo.devRef_ne_of_ne (by decide)))
/-- No host line before the launch writes argument 8. -/
theorem V_main_arg8 (c : Dev nD) : V m c main_arg8 = m ((c : Thread nD τ).loc main_arg8) :=
  StableHlo.after_of_forall_not_mem (b := Proc.devRef .tc main_arg8) _ _ (List.forall_iff_forall_mem.mp (by
    simp only [hostOps0, List.flatten_cons, List.flatten_nil, List.append_nil, List.cons_append,
      List.nil_append, List.Forall, StableHlo.unary_writes, StableHlo.nary_writes, StableHlo.reshape_writes, Finset.mem_singleton]
    repeat' apply And.intro
    all_goals exact StableHlo.devRef_ne_of_ne (by decide)))
/-- No host line before the launch writes argument 9. -/
theorem V_main_arg9 (c : Dev nD) : V m c main_arg9 = m ((c : Thread nD τ).loc main_arg9) :=
  StableHlo.after_of_forall_not_mem (b := Proc.devRef .tc main_arg9) _ _ (List.forall_iff_forall_mem.mp (by
    simp only [hostOps0, List.flatten_cons, List.flatten_nil, List.append_nil, List.cons_append,
      List.nil_append, List.Forall, StableHlo.unary_writes, StableHlo.nary_writes, StableHlo.reshape_writes, Finset.mem_singleton]
    repeat' apply And.intro
    all_goals exact StableHlo.devRef_ne_of_ne (by decide)))
/-- No host line before the launch writes argument 10. -/
theorem V_main_arg10 (c : Dev nD) : V m c main_arg10 = m ((c : Thread nD τ).loc main_arg10) :=
  StableHlo.after_of_forall_not_mem (b := Proc.devRef .tc main_arg10) _ _ (List.forall_iff_forall_mem.mp (by
    simp only [hostOps0, List.flatten_cons, List.flatten_nil, List.append_nil, List.cons_append,
      List.nil_append, List.Forall, StableHlo.unary_writes, StableHlo.nary_writes, StableHlo.reshape_writes, Finset.mem_singleton]
    repeat' apply And.intro
    all_goals exact StableHlo.devRef_ne_of_ne (by decide)))
/-- No host line before the launch writes argument 11. -/
theorem V_main_arg11 (c : Dev nD) : V m c main_arg11 = m ((c : Thread nD τ).loc main_arg11) :=
  StableHlo.after_of_forall_not_mem (b := Proc.devRef .tc main_arg11) _ _ (List.forall_iff_forall_mem.mp (by
    simp only [hostOps0, List.flatten_cons, List.flatten_nil, List.append_nil, List.cons_append,
      List.nil_append, List.Forall, StableHlo.unary_writes, StableHlo.nary_writes, StableHlo.reshape_writes, Finset.mem_singleton]
    repeat' apply And.intro
    all_goals exact StableHlo.devRef_ne_of_ne (by decide)))
/-- No host line before the launch writes argument 12. -/
theorem V_main_arg12 (c : Dev nD) : V m c main_arg12 = m ((c : Thread nD τ).loc main_arg12) :=
  StableHlo.after_of_forall_not_mem (b := Proc.devRef .tc main_arg12) _ _ (List.forall_iff_forall_mem.mp (by
    simp only [hostOps0, List.flatten_cons, List.flatten_nil, List.append_nil, List.cons_append,
      List.nil_append, List.Forall, StableHlo.unary_writes, StableHlo.nary_writes, StableHlo.reshape_writes, Finset.mem_singleton]
    repeat' apply And.intro
    all_goals exact StableHlo.devRef_ne_of_ne (by decide)))

/-! ## A window's tile at a grid point -/

/-- Window `w`'s tile at grid point `t`, read off its array as the launch finds it. -/
def iblk (c : Dev nD) (w : Fin cfg0.W) (t : Fin cfg0.N) : ((cfg0.win w).xblock (cfg0.grid.coords t)).Idx → Elt F (cfg0.win w).elt :=
  ((cfg0.win w).blk t).view.read (Elt F) (V m c (Pipeline.arrRef spec0 w))

/-! Each input's staging buffer holds its tile at every grid point — also the parameters', which are copied in
    once, at the first point, and whose tile is the same whole array at every point. -/
theorem before_of_0 {c : Dev nD} (dat : Dat τ (Elt F) Unit ℕ (UR sig nD τ) ℕ cfg0 c) (hA : dat.A 0 = V m c (Pipeline.arrRef spec0 0))
    (hafter : ∀ t, dat.after 0 t = iblk m c 0 t) (t : Fin cfg0.N) (d) : dat.before 0 t d = iblk m c 0 t :=
  (dat.before_in_eq_fetched 0 rfl (fun _ => rfl) (fun _ _ _ => rfl) (fun t => by rw [hafter]; unfold Dat.blockOf iblk; rw [hA]; try rfl) t d).trans
    (by unfold Dat.fetched Dat.blockOf iblk; rw [hA]; try rfl)
theorem before_of_1 {c : Dev nD} (dat : Dat τ (Elt F) Unit ℕ (UR sig nD τ) ℕ cfg0 c) (hA : dat.A 1 = V m c (Pipeline.arrRef spec0 1))
    (hafter : ∀ t, dat.after 1 t = iblk m c 1 t) (t : Fin cfg0.N) (d) : dat.before 1 t d = iblk m c 1 t :=
  (dat.before_in_eq_fetched 1 rfl (fun _ => rfl) (fun _ _ _ => rfl) (fun t => by rw [hafter]; unfold Dat.blockOf iblk; rw [hA]; try rfl) t d).trans
    (by unfold Dat.fetched Dat.blockOf iblk; rw [hA]; try rfl)
theorem before_of_2 {c : Dev nD} (dat : Dat τ (Elt F) Unit ℕ (UR sig nD τ) ℕ cfg0 c) (hA : dat.A 2 = V m c (Pipeline.arrRef spec0 2))
    (hafter : ∀ t, dat.after 2 t = iblk m c 2 t) (t : Fin cfg0.N) (d) : dat.before 2 t d = iblk m c 2 t :=
  (dat.before_in_eq_fetched 2 rfl (fun _ => rfl) (fun _ _ _ => rfl) (fun t => by rw [hafter]; unfold Dat.blockOf iblk; rw [hA]; try rfl) t d).trans
    (by unfold Dat.fetched Dat.blockOf iblk; rw [hA]; try rfl)
theorem before_of_3 {c : Dev nD} (dat : Dat τ (Elt F) Unit ℕ (UR sig nD τ) ℕ cfg0 c) (hA : dat.A 3 = V m c (Pipeline.arrRef spec0 3))
    (hafter : ∀ t, dat.after 3 t = iblk m c 3 t) (t : Fin cfg0.N) (d) : dat.before 3 t d = iblk m c 3 t :=
  (dat.before_in_eq_fetched 3 rfl (fun _ => rfl) (fun _ _ _ => rfl) (fun t => by rw [hafter]; unfold Dat.blockOf iblk; rw [hA]; try rfl) t d).trans
    (by unfold Dat.fetched Dat.blockOf iblk; rw [hA]; try rfl)
theorem before_of_4 {c : Dev nD} (dat : Dat τ (Elt F) Unit ℕ (UR sig nD τ) ℕ cfg0 c) (hA : dat.A 4 = V m c (Pipeline.arrRef spec0 4))
    (hafter : ∀ t, dat.after 4 t = iblk m c 4 t) (t : Fin cfg0.N) (d) : dat.before 4 t d = iblk m c 4 t :=
  (dat.before_in_eq_fetched 4 rfl (fun _ => rfl) (fun _ _ _ => rfl) (fun t => by rw [hafter]; unfold Dat.blockOf iblk; rw [hA]; try rfl) t d).trans
    (by unfold Dat.fetched Dat.blockOf iblk; rw [hA]; try rfl)
theorem before_of_5 {c : Dev nD} (dat : Dat τ (Elt F) Unit ℕ (UR sig nD τ) ℕ cfg0 c) (hA : dat.A 5 = V m c (Pipeline.arrRef spec0 5))
    (hafter : ∀ t, dat.after 5 t = iblk m c 5 t) (t : Fin cfg0.N) (d) : dat.before 5 t d = iblk m c 5 t :=
  (dat.before_in_eq_fetched 5 rfl (fun _ => rfl) (fun _ _ _ => rfl) (fun t => by rw [hafter]; unfold Dat.blockOf iblk; rw [hA]; try rfl) t d).trans
    (by unfold Dat.fetched Dat.blockOf iblk; rw [hA]; try rfl)
theorem before_of_6 {c : Dev nD} (dat : Dat τ (Elt F) Unit ℕ (UR sig nD τ) ℕ cfg0 c) (hA : dat.A 6 = V m c (Pipeline.arrRef spec0 6))
    (hafter : ∀ t, dat.after 6 t = iblk m c 6 t) (t : Fin cfg0.N) (d) : dat.before 6 t d = iblk m c 6 t :=
  (dat.before_in_eq_fetched 6 rfl (fun _ => rfl) (fun _ _ _ => rfl) (fun t => by rw [hafter]; unfold Dat.blockOf iblk; rw [hA]; try rfl) t d).trans
    (by unfold Dat.fetched Dat.blockOf iblk; rw [hA]; try rfl)
theorem before_of_7 {c : Dev nD} (dat : Dat τ (Elt F) Unit ℕ (UR sig nD τ) ℕ cfg0 c) (hA : dat.A 7 = V m c (Pipeline.arrRef spec0 7))
    (hafter : ∀ t, dat.after 7 t = iblk m c 7 t) (t : Fin cfg0.N) (d) : dat.before 7 t d = iblk m c 7 t :=
  (dat.before_in_eq_fetched 7 rfl (fun _ => rfl) (fun _ _ _ => rfl) (fun t => by rw [hafter]; unfold Dat.blockOf iblk; rw [hA]; try rfl) t d).trans
    (by unfold Dat.fetched Dat.blockOf iblk; rw [hA]; try rfl)

/-! ## The body's rectangles -/

theorem hz2 : (![0, 0] : Fin 2 → Nat) = fun _ => 0 := funext fun a => by fin_cases a <;> rfl

/-- A whole [256, 1024] tile. -/
abbrev rT : Rect S256x1024 := Rect.unit (s := S256x1024) ![0, 0] S256x1024.size inb_S256x1024_S256x1024_0_0
/-- Gate `g`'s [1024, 1024] columns of a re-laid weight matrix, `g` = 0 (input), 1 (forget), 2 (output), 3 (candidate). -/
abbrev rW0 : Rect S1024x4096 := Rect.unit (s := S1024x4096) ![0, 0] S1024x1024.size inb_S1024x4096_S1024x1024_0_0
abbrev rW1 : Rect S1024x4096 := Rect.unit (s := S1024x4096) ![0, 1024] S1024x1024.size inb_S1024x4096_S1024x1024_0_1024
abbrev rW2 : Rect S1024x4096 := Rect.unit (s := S1024x4096) ![0, 2048] S1024x1024.size inb_S1024x4096_S1024x1024_0_2048
abbrev rW3 : Rect S1024x4096 := Rect.unit (s := S1024x4096) ![0, 3072] S1024x1024.size inb_S1024x4096_S1024x1024_0_3072
/-- Gate `g`'s 1024 entries of the bias row. -/
abbrev rB0 : Rect S1x4096 := Rect.unit (s := S1x4096) ![0, 0] S1x1024.size inb_S1x4096_S1x1024_0_0
abbrev rB1 : Rect S1x4096 := Rect.unit (s := S1x4096) ![0, 1024] S1x1024.size inb_S1x4096_S1x1024_0_1024
abbrev rB2 : Rect S1x4096 := Rect.unit (s := S1x4096) ![0, 2048] S1x1024.size inb_S1x4096_S1x1024_0_2048
abbrev rB3 : Rect S1x4096 := Rect.unit (s := S1x4096) ![0, 3072] S1x1024.size inb_S1x4096_S1x1024_0_3072
/-- The whole output projection, its bias row, and a whole [256, 512] tile. -/
abbrev rWy : Rect S1024x512 := Rect.unit (s := S1024x512) ![0, 0] S1024x512.size inb_S1024x512_S1024x512_0_0
abbrev rBy : Rect S1x512 := Rect.unit (s := S1x512) ![0, 0] S1x512.size inb_S1x512_S1x512_0_0
abbrev rY : Rect S256x512 := Rect.unit (s := S256x512) ![0, 0] S256x512.size inb_S256x512_S256x512_0_0

/-! ## What the body stores -/

/-- The new cell state of a tile: forget gate times old cell state plus input gate times candidate. -/
abbrev cellTile (x0 : Vec F S256x1024 .f32) (x1 : Vec F S256x1024 .f32) (x2 : Vec F S256x1024 .f32) (x3 : Vec F S1024x4096 .bf16) (x4 : Vec F S1024x4096 .bf16) (x5 : Vec F S1x4096 .f32) : Vec F S256x1024 .f32 :=
  k0_pay7 (k0_pay1 (View.ld x0 rT)) (k0_pay2 (View.ld x1 rT)) (k0_pay3 (View.ld x0 rT) (View.ld x1 rT) (View.ld x3 rW0) (View.ld x4 rW0) (View.ld x5 rB0)) (k0_pay4 (View.ld x0 rT) (View.ld x1 rT) (View.ld x3 rW1) (View.ld x4 rW1) (View.ld x5 rB1)) (View.ld x3 rW3) (View.ld x4 rW3) (View.ld x5 rB3) (View.ld x2 rT)

/-- The new hidden state of a tile: output gate times tanh of the new cell state. -/
abbrev hiddenTile (x0 : Vec F S256x1024 .f32) (x1 : Vec F S256x1024 .f32) (x2 : Vec F S256x1024 .f32) (x3 : Vec F S1024x4096 .bf16) (x4 : Vec F S1024x4096 .bf16) (x5 : Vec F S1x4096 .f32) : Vec F S256x1024 .f32 :=
  k0_pay8 (k0_pay1 (View.ld x0 rT)) (k0_pay2 (View.ld x1 rT)) (k0_pay3 (View.ld x0 rT) (View.ld x1 rT) (View.ld x3 rW0) (View.ld x4 rW0) (View.ld x5 rB0)) (k0_pay4 (View.ld x0 rT) (View.ld x1 rT) (View.ld x3 rW1) (View.ld x4 rW1) (View.ld x5 rB1)) (k0_pay5 (View.ld x0 rT) (View.ld x3 rW2)) (k0_pay6 (View.ld x4 rW2)) (constant S256x1024 .f32 0x00000000#32) (View.ld x5 rB2) (View.ld x3 rW3) (View.ld x4 rW3) (View.ld x5 rB3) (View.ld x2 rT)

/-- The projected output of a tile: the new hidden state times the projection plus its bias. -/
abbrev projTile (x0 : Vec F S256x1024 .f32) (x1 : Vec F S256x1024 .f32) (x2 : Vec F S256x1024 .f32) (x3 : Vec F S1024x4096 .bf16) (x4 : Vec F S1024x4096 .bf16) (x5 : Vec F S1x4096 .f32) (x6 : Vec F S1024x512 .bf16) (x7 : Vec F S1x512 .f32) : Vec F S256x512 .f32 :=
  k0_pay9 (k0_pay1 (View.ld x0 rT)) (k0_pay2 (View.ld x1 rT)) (k0_pay3 (View.ld x0 rT) (View.ld x1 rT) (View.ld x3 rW0) (View.ld x4 rW0) (View.ld x5 rB0)) (k0_pay4 (View.ld x0 rT) (View.ld x1 rT) (View.ld x3 rW1) (View.ld x4 rW1) (View.ld x5 rB1)) (k0_pay5 (View.ld x0 rT) (View.ld x3 rW2)) (k0_pay6 (View.ld x4 rW2)) (constant S256x1024 .f32 0x00000000#32) (View.ld x5 rB2) (View.ld x3 rW3) (View.ld x4 rW3) (View.ld x5 rB3) (View.ld x2 rT) (View.ld x6 rWy) (View.ld x7 rBy)

/-- What the body leaves in the staging buffer of window 8 (new hidden state), 9 (new cell state), 10 (projection):
    one store over the whole tile each. -/
def out8 (x0 : Vec F S256x1024 .f32) (x1 : Vec F S256x1024 .f32) (x2 : Vec F S256x1024 .f32) (x3 : Vec F S1024x4096 .bf16) (x4 : Vec F S1024x4096 .bf16) (x5 : Vec F S1x4096 .f32) : Vec F S256x1024 .f32 := View.canon [⟨rT, hiddenTile x0 x1 x2 x3 x4 x5⟩]
def out9 (x0 : Vec F S256x1024 .f32) (x1 : Vec F S256x1024 .f32) (x2 : Vec F S256x1024 .f32) (x3 : Vec F S1024x4096 .bf16) (x4 : Vec F S1024x4096 .bf16) (x5 : Vec F S1x4096 .f32) : Vec F S256x1024 .f32 := View.canon [⟨rT, cellTile x0 x1 x2 x3 x4 x5⟩]
def out10 (x0 : Vec F S256x1024 .f32) (x1 : Vec F S256x1024 .f32) (x2 : Vec F S256x1024 .f32) (x3 : Vec F S1024x4096 .bf16) (x4 : Vec F S1024x4096 .bf16) (x5 : Vec F S1x4096 .f32) (x6 : Vec F S1024x512 .bf16) (x7 : Vec F S1x512 .f32) : Vec F S256x512 .f32 := View.canon [⟨rY, projTile x0 x1 x2 x3 x4 x5 x6 x7⟩]

theorem cover_T (p : Vec F S256x1024 .f32) (y : S256x1024.Idx) :
    ∃ pc ∈ ([⟨rT, p⟩] : List (View.Piece (Elt F) S256x1024 .f32)), y ∈ pc.1.set :=
  ⟨_, List.mem_singleton_self _, View.mem_set_unit_zero hz2 inb_S256x1024_S256x1024_0_0 y⟩
theorem cover_Y (p : Vec F S256x512 .f32) (y : S256x512.Idx) :
    ∃ pc ∈ ([⟨rY, p⟩] : List (View.Piece (Elt F) S256x512 .f32)), y ∈ pc.1.set :=
  ⟨_, List.mem_singleton_self _, View.mem_set_unit_zero hz2 inb_S256x512_S256x512_0_0 y⟩

/-! ## The body runs -/

set_option maxHeartbeats 4000000 in
/-- On whole staging buffers, the inputs' at contents `x0 … x7` and the outputs' at anything, the body runs to its
    end, faults nowhere, leaves the inputs' buffers as they were and the three outputs' at `out8`, `out9`, `out10`. -/
theorem sound_kernel (c : Dev nD) (E : Set ℕ) (i : grid0.Coords) (a0 : Memref sig .tc .vmem S256x1024 .f32) (ha0 : a0.IsWhole) (a1 : Memref sig .tc .vmem S256x1024 .f32) (ha1 : a1.IsWhole) (a2 : Memref sig .tc .vmem S256x1024 .f32) (ha2 : a2.IsWhole) (a3 : Memref sig .tc .vmem S1024x4096 .bf16) (ha3 : a3.IsWhole) (a4 : Memref sig .tc .vmem S1024x4096 .bf16) (ha4 : a4.IsWhole) (a5 : Memref sig .tc .vmem S1x4096 .f32) (ha5 : a5.IsWhole) (a6 : Memref sig .tc .vmem S1024x512 .bf16) (ha6 : a6.IsWhole) (a7 : Memref sig .tc .vmem S1x512 .f32) (ha7 : a7.IsWhole) (a8 : Memref sig .tc .vmem S256x1024 .f32) (ha8 : a8.IsWhole) (a9 : Memref sig .tc .vmem S256x1024 .f32) (ha9 : a9.IsWhole) (a10 : Memref sig .tc .vmem S256x512 .f32) (ha10 : a10.IsWhole)
    (x0 : Vec F S256x1024 .f32) (x1 : Vec F S256x1024 .f32) (x2 : Vec F S256x1024 .f32) (x3 : Vec F S1024x4096 .bf16) (x4 : Vec F S1024x4096 .bf16) (x5 : Vec F S1x4096 .f32) (x6 : Vec F S1024x512 .bf16) (x7 : Vec F S1x512 .f32) (K : PUnit → sProp 𝕄) :
    iprop(owns (c : Thread nD τ) a0 fullShare x0 ∗ owns (c : Thread nD τ) a1 fullShare x1 ∗ owns (c : Thread nD τ) a2 fullShare x2 ∗ owns (c : Thread nD τ) a3 fullShare x3 ∗ owns (c : Thread nD τ) a4 fullShare x4 ∗ owns (c : Thread nD τ) a5 fullShare x5 ∗ owns (c : Thread nD τ) a6 fullShare x6 ∗ owns (c : Thread nD τ) a7 fullShare x7 ∗ (∃ d, owns (c : Thread nD τ) a8 fullShare d) ∗ (∃ d, owns (c : Thread nD τ) a9 fullShare d) ∗ (∃ d, owns (c : Thread nD τ) a10 fullShare d)
        ∗ (iprop(owns (c : Thread nD τ) a0 fullShare x0 ∗ owns (c : Thread nD τ) a1 fullShare x1 ∗ owns (c : Thread nD τ) a2 fullShare x2 ∗ owns (c : Thread nD τ) a3 fullShare x3 ∗ owns (c : Thread nD τ) a4 fullShare x4 ∗ owns (c : Thread nD τ) a5 fullShare x5 ∗ owns (c : Thread nD τ) a6 fullShare x6 ∗ owns (c : Thread nD τ) a7 fullShare x7 ∗ owns (c : Thread nD τ) a8 fullShare (out8 x0 x1 x2 x3 x4 x5) ∗ owns (c : Thread nD τ) a9 fullShare (out9 x0 x1 x2 x3 x4 x5) ∗ owns (c : Thread nD τ) a10 fullShare (out10 x0 x1 x2 x3 x4 x5 x6 x7)) -∗ K ⟨⟩))
      ⊢ wp frame (wpE (defs₀ (F := F)) Variants.none c none) E (cc0__lstm_kernel i a0 ha0 a1 ha1 a2 ha2 a3 ha3 a4 ha4 a5 ha5 a6 ha6 a7 ha7 a8 ha8 a9 ha9 a10 ha10) K := by
  simp only [cc0__lstm_kernel_eq_skeleton]; unfold cc0__lstm_kernel_skel
  simp only [k0_part1_eq_skeleton, k0_part2_eq_skeleton]; unfold k0_part1_skel k0_part2_skel
  unfold owns
  iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%d8, %f8, -, H8⟩, ⟨%d9, %f9, -, H9⟩, ⟨%d10, %f10, -, H10⟩, Hk⟩
  subst hf0 hf1 hf2 hf3 hf4 hf5 hf6 hf7
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  isplitl [H5]
  · iexists f5; isplitr; · ipureintro; rfl
    iexact H5
  isplitl [H6]
  · iexists f6; isplitr; · ipureintro; rfl
    iexact H6
  isplitl [H7]
  · iexists f7; isplitr; · ipureintro; rfl
    iexact H7
  isplitl [H8]
  · iexists _; isplitr
    swap; · iexact H8
    ipureintro
    try dsimp only
    exact View.read_writes_eq_canon _ _ _ (cover_T _)
  isplitl [H9]
  · iexists _; isplitr
    swap; · iexact H9
    ipureintro
    try dsimp only
    exact View.read_writes_eq_canon _ _ _ (cover_T _)
  iexists _; isplitr
  swap; · iexact H10
  ipureintro
  try dsimp only
  exact View.read_writes_eq_canon _ _ _ (cover_Y _)

end Cert.Kernel.Cell

end
-- ==== Proof.CellRunBits.lean ====
/-
  The launch of the LSTM-cell kernel, part two: the run over the 32 tiles of 256 batch rows.

  At grid point `t` the kernel is handed tile `t` of x, h and c and the whole re-laid parameters, and leaves tile
  `t` of the new hidden state, the new cell state and the projection, which are written back to rows
  256·t .. 256·t + 255 of the three result arrays. So the program runs to its end, faults nowhere, leaves its
  thirteen argument arrays as launched, and each result array is what the tiles written back make of it.
-/
import proofs.«115341_j37778532335717_2_alg».proof.Proof.CellBodyBits

set_option maxRecDepth 16384

noncomputable section

namespace Cert.Kernel.Cell

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## What each staging buffer holds after the body, grid point by grid point -/

/-- The arrays as the launch finds them; after the body at point `t` each input's buffer still at its tile and each
    output's at the tile the body stored; nothing else is touched. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => iblk m c 4 t
    | ⟨5, _⟩ => iblk m c 5 t
    | ⟨6, _⟩ => iblk m c 6 t
    | ⟨7, _⟩ => iblk m c 7 t
    | ⟨8, _⟩ => out8 (iblk m c 0 t) (iblk m c 1 t) (iblk m c 2 t) (iblk m c 3 t) (iblk m c 4 t) (iblk m c 5 t)
    | ⟨9, _⟩ => out9 (iblk m c 0 t) (iblk m c 1 t) (iblk m c 2 t) (iblk m c 3 t) (iblk m c 4 t) (iblk m c 5 t)
    | ⟨10, _⟩ => out10 (iblk m c 0 t) (iblk m c 1 t) (iblk m c 2 t) (iblk m c 3 t) (iblk m c 4 t) (iblk m c 5 t) (iblk m c 6 t) (iblk m c 7 t)
  Φ _ := Pipeline.ΦA spec0 c
  q _ := fullShare
  owed _ := 0

theorem A_eq (c : Dev nD) (w : Fin cfg0.W) : (dats m 0 c).A w = V m c (Pipeline.arrRef spec0 w) := by
  dsimp only [dats]

theorem after_0 (c : Dev nD) (t : Fin cfg0.N) : (dats m 0 c).after 0 t = iblk m c 0 t := by dsimp only [dats]
theorem after_1 (c : Dev nD) (t : Fin cfg0.N) : (dats m 0 c).after 1 t = iblk m c 1 t := by dsimp only [dats]
theorem after_2 (c : Dev nD) (t : Fin cfg0.N) : (dats m 0 c).after 2 t = iblk m c 2 t := by dsimp only [dats]
theorem after_3 (c : Dev nD) (t : Fin cfg0.N) : (dats m 0 c).after 3 t = iblk m c 3 t := by dsimp only [dats]
theorem after_4 (c : Dev nD) (t : Fin cfg0.N) : (dats m 0 c).after 4 t = iblk m c 4 t := by dsimp only [dats]
theorem after_5 (c : Dev nD) (t : Fin cfg0.N) : (dats m 0 c).after 5 t = iblk m c 5 t := by dsimp only [dats]
theorem after_6 (c : Dev nD) (t : Fin cfg0.N) : (dats m 0 c).after 6 t = iblk m c 6 t := by dsimp only [dats]
theorem after_7 (c : Dev nD) (t : Fin cfg0.N) : (dats m 0 c).after 7 t = iblk m c 7 t := by dsimp only [dats]
theorem after_8 (c : Dev nD) (t : Fin cfg0.N) : (dats m 0 c).after 8 t = out8 (iblk m c 0 t) (iblk m c 1 t) (iblk m c 2 t) (iblk m c 3 t) (iblk m c 4 t) (iblk m c 5 t) := by dsimp only [dats]
theorem after_9 (c : Dev nD) (t : Fin cfg0.N) : (dats m 0 c).after 9 t = out9 (iblk m c 0 t) (iblk m c 1 t) (iblk m c 2 t) (iblk m c 3 t) (iblk m c 4 t) (iblk m c 5 t) := by dsimp only [dats]
theorem after_10 (c : Dev nD) (t : Fin cfg0.N) : (dats m 0 c).after 10 t = out10 (iblk m c 0 t) (iblk m c 1 t) (iblk m c 2 t) (iblk m c 3 t) (iblk m c 4 t) (iblk m c 5 t) (iblk m c 6 t) (iblk m c 7 t) := by dsimp only [dats]

theorem before_0 (c : Dev nD) (t : Fin cfg0.N) (d) : (dats m 0 c).before 0 t d = iblk m c 0 t :=
  before_of_0 m (dats m 0 c) (A_eq m c 0) (after_0 m c) t d
theorem before_1 (c : Dev nD) (t : Fin cfg0.N) (d) : (dats m 0 c).before 1 t d = iblk m c 1 t :=
  before_of_1 m (dats m 0 c) (A_eq m c 1) (after_1 m c) t d
theorem before_2 (c : Dev nD) (t : Fin cfg0.N) (d) : (dats m 0 c).before 2 t d = iblk m c 2 t :=
  before_of_2 m (dats m 0 c) (A_eq m c 2) (after_2 m c) t d
theorem before_3 (c : Dev nD) (t : Fin cfg0.N) (d) : (dats m 0 c).before 3 t d = iblk m c 3 t :=
  before_of_3 m (dats m 0 c) (A_eq m c 3) (after_3 m c) t d
theorem before_4 (c : Dev nD) (t : Fin cfg0.N) (d) : (dats m 0 c).before 4 t d = iblk m c 4 t :=
  before_of_4 m (dats m 0 c) (A_eq m c 4) (after_4 m c) t d
theorem before_5 (c : Dev nD) (t : Fin cfg0.N) (d) : (dats m 0 c).before 5 t d = iblk m c 5 t :=
  before_of_5 m (dats m 0 c) (A_eq m c 5) (after_5 m c) t d
theorem before_6 (c : Dev nD) (t : Fin cfg0.N) (d) : (dats m 0 c).before 6 t d = iblk m c 6 t :=
  before_of_6 m (dats m 0 c) (A_eq m c 6) (after_6 m c) t d
theorem before_7 (c : Dev nD) (t : Fin cfg0.N) (d) : (dats m 0 c).before 7 t d = iblk m c 7 t :=
  before_of_7 m (dats m 0 c) (A_eq m c 7) (after_7 m c) t d

/-! ## The body at a grid point -/

/-- What the body is called with at point `t`, -/
def bodyPre (c : Dev nD) (t : Fin cfg0.N) : sProp 𝕄 :=
  iprop((dats m 0 c).Φ t.castSucc ∗ (dats m 0 c).owesAt () t.castSucc
    ∗ (∃ d, owns (c : Thread nD τ) (st0_0 t) fullShare ((dats m 0 c).before 0 t d))
    ∗ (∃ d, owns (c : Thread nD τ) (st0_1 t) fullShare ((dats m 0 c).before 1 t d))
    ∗ (∃ d, owns (c : Thread nD τ) (st0_2 t) fullShare ((dats m 0 c).before 2 t d))
    ∗ (∃ d, owns (c : Thread nD τ) (st0_3 t) fullShare ((dats m 0 c).before 3 t d))
    ∗ (∃ d, owns (c : Thread nD τ) (st0_4 t) fullShare ((dats m 0 c).before 4 t d))
    ∗ (∃ d, owns (c : Thread nD τ) (st0_5 t) fullShare ((dats m 0 c).before 5 t d))
    ∗ (∃ d, owns (c : Thread nD τ) (st0_6 t) fullShare ((dats m 0 c).before 6 t d))
    ∗ (∃ d, owns (c : Thread nD τ) (st0_7 t) fullShare ((dats m 0 c).before 7 t d))
    ∗ (∃ d, owns (c : Thread nD τ) (st0_8 t) fullShare ((dats m 0 c).before 8 t d))
    ∗ (∃ d, owns (c : Thread nD τ) (st0_9 t) fullShare ((dats m 0 c).before 9 t d))
    ∗ (∃ d, owns (c : Thread nD τ) (st0_10 t) fullShare ((dats m 0 c).before 10 t d)))

/-- and what it returns. -/
def bodyPost (c : Dev nD) (t : Fin cfg0.N) : sProp 𝕄 :=
  iprop((dats m 0 c).Φ t.succ ∗ (dats m 0 c).owesAt () t.succ
    ∗ owns (c : Thread nD τ) (st0_0 t) fullShare ((dats m 0 c).after 0 t)
    ∗ owns (c : Thread nD τ) (st0_1 t) fullShare ((dats m 0 c).after 1 t)
    ∗ owns (c : Thread nD τ) (st0_2 t) fullShare ((dats m 0 c).after 2 t)
    ∗ owns (c : Thread nD τ) (st0_3 t) fullShare ((dats m 0 c).after 3 t)
    ∗ owns (c : Thread nD τ) (st0_4 t) fullShare ((dats m 0 c).after 4 t)
    ∗ owns (c : Thread nD τ) (st0_5 t) fullShare ((dats m 0 c).after 5 t)
    ∗ owns (c : Thread nD τ) (st0_6 t) fullShare ((dats m 0 c).after 6 t)
    ∗ owns (c : Thread nD τ) (st0_7 t) fullShare ((dats m 0 c).after 7 t)
    ∗ owns (c : Thread nD τ) (st0_8 t) fullShare ((dats m 0 c).after 8 t)
    ∗ owns (c : Thread nD τ) (st0_9 t) fullShare ((dats m 0 c).after 9 t)
    ∗ owns (c : Thread nD τ) (st0_10 t) fullShare ((dats m 0 c).after 10 t))

theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before_0, before_1, before_2, before_3, before_4, before_5, before_6, before_7]
  rw [show (dats m 0 c).Φ t.succ = (dats m 0 c).Φ t.castSucc from rfl,
    show (dats m 0 c).owesAt () t.succ = (dats m 0 c).owesAt () t.castSucc from rfl,
    after_0, after_1, after_2, after_3, after_4, after_5, after_6, after_7, after_8, after_9, after_10]
  iintro ⟨HΦ, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩, ⟨%d10, H10⟩⟩
  iapply (sound_kernel c Set.univ _ _ _ _ _ _ _ _ _ _ _ _ _ _ _ _ _ _ _ _ _ _ _ (iblk m c 0 t) (iblk m c 1 t) (iblk m c 2 t) (iblk m c 3 t) (iblk m c 4 t) (iblk m c 5 t) (iblk m c 6 t) (iblk m c 7 t) _)
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexists _; iexact H8
  isplitl [H9]; · iexists _; iexact H9
  isplitl [H10]; · iexists _; iexact H10
  iintro ⟨H0, H1, H2, H3, H4, H5, H6, H7, H8, H9, H10⟩
  isplitl [HΦ]; · iexact HΦ
  isplitl [Ho]; · iexact Ho
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexact H9
  iexact H10

theorem body_obligation (c : Dev nD) : BodyObligation (dats (F := F) m 0 c) (defs₀ (F := F)) Variants.none () Set.univ := fun t => by
  rw [bigSep_W0, bigSep_W0]
  exact sound_body m c t

/-! ## The run -/

set_option backward.isDefEq.respectTransparency.types false in
/-- Every weakly fair execution of the program ends, faulting nowhere, with every array a window stages at what the
    tiles written back make of it and every other buffer as the launch found it. -/
theorem run_main : θ_run defs (onTc (τ := τ) (main (F := F))) (s₀ m ρ) (Pipeline.FramePost cfgs (dats m) 0 (V m)) :=
  Pipeline.θ_run_frame cfgs (dats m) (0 : Fin 1) launch0 defs₀ Variants.none m ρ main
    (hbody := fun c => (body_obligation m c).loose) (hshare := fun c => (dats m 0 c).share_full fun _ => rfl)
    (howed := fun _ _ => rfl) (V := V m) (hmain := hmain m Variants.none) (hA := A_eq m) (hΦ := fun _ _ => rfl)

/-- The same run with the three result arrays NAMED and the thirteen arguments unchanged. -/
theorem run_named : θ_run defs (onTc (τ := τ) (main (F := F))) ⟨m, fun _ => 0, ρ⟩ (fun r => ∀ c : Dev nD,
      r.2.mem ((c.tc : Thread nD τ).loc main_v16_2) = (dats m 0 c).arrAt 10 cfg0.N
      ∧ r.2.mem ((c.tc : Thread nD τ).loc main_v16_0) = (dats m 0 c).arrAt 8 cfg0.N
      ∧ r.2.mem ((c.tc : Thread nD τ).loc main_v16_1) = (dats m 0 c).arrAt 9 cfg0.N
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)) :=
  (θ_run defs _ _).mono (fun r h c => ⟨(h c).1 10, (h c).1 8, (h c).1 9,
      ((h c).1 0).trans (((dats m 0 c).arrAt_in 0 rfl _).trans ((A_eq m c 0).trans (V_main_arg0 m c))),
      ((h c).1 1).trans (((dats m 0 c).arrAt_in 1 rfl _).trans ((A_eq m c 1).trans (V_main_arg1 m c))),
      ((h c).1 2).trans (((dats m 0 c).arrAt_in 2 rfl _).trans ((A_eq m c 2).trans (V_main_arg2 m c))),
      ((h c).2 main_arg3 (Pipeline.mem_restRefs_of main_arg3 (by decide) (by decide))).trans (V_main_arg3 m c),
      ((h c).2 main_arg4 (Pipeline.mem_restRefs_of main_arg4 (by decide) (by decide))).trans (V_main_arg4 m c),
      ((h c).2 main_arg5 (Pipeline.mem_restRefs_of main_arg5 (by decide) (by decide))).trans (V_main_arg5 m c),
      ((h c).2 main_arg6 (Pipeline.mem_restRefs_of main_arg6 (by decide) (by decide))).trans (V_main_arg6 m c),
      ((h c).2 main_arg7 (Pipeline.mem_restRefs_of main_arg7 (by decide) (by decide))).trans (V_main_arg7 m c),
      ((h c).2 main_arg8 (Pipeline.mem_restRefs_of main_arg8 (by decide) (by decide))).trans (V_main_arg8 m c),
      ((h c).2 main_arg9 (Pipeline.mem_restRefs_of main_arg9 (by decide) (by decide))).trans (V_main_arg9 m c),
      ((h c).2 main_arg10 (Pipeline.mem_restRefs_of main_arg10 (by decide) (by decide))).trans (V_main_arg10 m c),
      ((h c).2 main_arg11 (Pipeline.mem_restRefs_of main_arg11 (by decide) (by decide))).trans (V_main_arg11 m c),
      ((h c).2 main_arg12 (Pipeline.mem_restRefs_of main_arg12 (by decide) (by decide))).trans (V_main_arg12 m c)⟩) (run_main m ρ)

/-- The program runs to its end, faults nowhere and leaves its argument arrays as launched. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)) :=
  (θ_run defs _ _).mono (fun r h c => (h c).2.2.2) (run_named m ρ)

end Cert.Kernel.Cell

end
-- ==== Proof.CellBody.lean ====
/-
  The launch of the LSTM-cell kernel, part one: the host lines before the launch and the kernel body at one tile
  of 256 batch rows.

  The host lines only re-lay the parameters: the upper halves (rows 0..1023) of the four gate weights side by
  side as a [1024, 4096] matrix for the input, the lower halves (rows 1024..2047) likewise for the hidden
  state, the four gate biases end to end as one row [1, 4096], the output projection and its bias. None of them
  writes an argument array. The kernel body reads a tile of x, h and c and the whole re-laid parameters, and
  stores three tiles: the new cell state, the new hidden state, and the projected output; here it is shown to
  run, leaving its inputs as they were and each output tile at the value the body's arithmetic names.
-/
import proofs.«115341_j37778532335717_2_alg».proof.Proof.Gen.KernelIdeal.Launch
import proofs.«115341_j37778532335717_2_alg».proof.Proof.Gen.KernelIdeal.Skeleton
import proofs.«115341_j37778532335717_2_alg».proof.Proof.Gen.KernelIdeal.Points
import Idealize.ShloMosaic.Lib.Pipeline.FrameBody
import Idealize.ShloMosaic.Lib.Pipeline.Value
import Idealize.ShloMosaic.Lib.Ring
import Idealize.ShloMosaic.Lib.Tactic

set_option maxRecDepth 16384

noncomputable section

namespace Cert.KernelIdeal.Cell

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## The buffers when the kernel is launched -/

/-- What each buffer of core `c` holds when the kernel is launched: the sixteen host lines applied to the
    launch memory. -/
abbrev V (c : Dev nD) (b : Ref sig .tc) : Buf (Elt F) ((c : Thread nD τ).loc b) :=
  StableHlo.after (List.flatten [hostOps0]) (fun b => m (c, b)) b

/-- The host lines allocate nothing. -/
theorem hostOps0_fresh : (hostOps0 : List (HloOp τ sig (Elt F))).Forall fun op => op.fresh = ∅ := by
  simp only [List.Forall]; repeat' constructor

/-- The program is those host lines followed by the launch. -/
theorem hmain (𝒱₀ : Variants) : Pipeline.HMain (Ix := Unit) (Name := ℕ) (U := UR sig nD τ) (Lvl := ℕ) cfgs 0 defs₀ 𝒱₀ m (main (F := F)) (V m) :=
  Pipeline.hmain_prefixes cfgs 0 defs₀ 𝒱₀ m main [hostOps0] (by simp only [List.Forall]; exact hostOps0_sub)
    (by simp only [List.Forall]; exact hostOps0_fresh) main_chain

/-- No host line before the launch writes argument 0. -/
theorem V_main_arg0 (c : Dev nD) : V m c main_arg0 = m ((c : Thread nD τ).loc main_arg0) :=
  StableHlo.after_of_forall_not_mem (b := Proc.devRef .tc main_arg0) _ _ (List.forall_iff_forall_mem.mp (by
    simp only [hostOps0, List.flatten_cons, List.flatten_nil, List.append_nil, List.cons_append,
      List.nil_append, List.Forall, StableHlo.unary_writes, StableHlo.nary_writes, StableHlo.reshape_writes, Finset.mem_singleton]
    repeat' apply And.intro
    all_goals exact StableHlo.devRef_ne_of_ne (by decide)))
/-- No host line before the launch writes argument 1. -/
theorem V_main_arg1 (c : Dev nD) : V m c main_arg1 = m ((c : Thread nD τ).loc main_arg1) :=
  StableHlo.after_of_forall_not_mem (b := Proc.devRef .tc main_arg1) _ _ (List.forall_iff_forall_mem.mp (by
    simp only [hostOps0, List.flatten_cons, List.flatten_nil, List.append_nil, List.cons_append,
      List.nil_append, List.Forall, StableHlo.unary_writes, StableHlo.nary_writes, StableHlo.reshape_writes, Finset.mem_singleton]
    repeat' apply And.intro
    all_goals exact StableHlo.devRef_ne_of_ne (by decide)))
/-- No host line before the launch writes argument 2. -/
theorem V_main_arg2 (c : Dev nD) : V m c main_arg2 = m ((c : Thread nD τ).loc main_arg2) :=
  StableHlo.after_of_forall_not_mem (b := Proc.devRef .tc main_arg2) _ _ (List.forall_iff_forall_mem.mp (by
    simp only [hostOps0, List.flatten_cons, List.flatten_nil, List.append_nil, List.cons_append,
      List.nil_append, List.Forall, StableHlo.unary_writes, StableHlo.nary_writes, StableHlo.reshape_writes, Finset.mem_singleton]
    repeat' apply And.intro
    all_goals exact StableHlo.devRef_ne_of_ne (by decide)))
/-- No host line before the launch writes argument 3. -/
theorem V_main_arg3 (c : Dev nD) : V m c main_arg3 = m ((c : Thread nD τ).loc main_arg3) :=
  StableHlo.after_of_forall_not_mem (b := Proc.devRef .tc main_arg3) _ _ (List.forall_iff_forall_mem.mp (by
    simp only [hostOps0, List.flatten_cons, List.flatten_nil, List.append_nil, List.cons_append,
      List.nil_append, List.Forall, StableHlo.unary_writes, StableHlo.nary_writes, StableHlo.reshape_writes, Finset.mem_singleton]
    repeat' apply And.intro
    all_goals exact StableHlo.devRef_ne_of_ne (by decide)))
/-- No host line before the launch writes argument 4. -/
theorem V_main_arg4 (c : Dev nD) : V m c main_arg4 = m ((c : Thread nD τ).loc main_arg4) :=
  StableHlo.after_of_forall_not_mem (b := Proc.devRef .tc main_arg4) _ _ (List.forall_iff_forall_mem.mp (by
    simp only [hostOps0, List.flatten_cons, List.flatten_nil, List.append_nil, List.cons_append,
      List.nil_append, List.Forall, StableHlo.unary_writes, StableHlo.nary_writes, StableHlo.reshape_writes, Finset.mem_singleton]
    repeat' apply And.intro
    all_goals exact StableHlo.devRef_ne_of_ne (by decide)))
/-- No host line before the launch writes argument 5. -/
theorem V_main_arg5 (c : Dev nD) : V m c main_arg5 = m ((c : Thread nD τ).loc main_arg5) :=
  StableHlo.after_of_forall_not_mem (b := Proc.devRef .tc main_arg5) _ _ (List.forall_iff_forall_mem.mp (by
    simp only [hostOps0, List.flatten_cons, List.flatten_nil, List.append_nil, List.cons_append,
      List.nil_append, List.Forall, StableHlo.unary_writes, StableHlo.nary_writes, StableHlo.reshape_writes, Finset.mem_singleton]
    repeat' apply And.intro
    all_goals exact StableHlo.devRef_ne_of_ne (by decide)))
/-- No host line before the launch writes argument 6. -/
theorem V_main_arg6 (c : Dev nD) : V m c main_arg6 = m ((c : Thread nD τ).loc main_arg6) :=
  StableHlo.after_of_forall_not_mem (b := Proc.devRef .tc main_arg6) _ _ (List.forall_iff_forall_mem.mp (by
    simp only [hostOps0, List.flatten_cons, List.flatten_nil, List.append_nil, List.cons_append,
      List.nil_append, List.Forall, StableHlo.unary_writes, StableHlo.nary_writes, StableHlo.reshape_writes, Finset.mem_singleton]
    repeat' apply And.intro
    all_goals exact StableHlo.devRef_ne_of_ne (by decide)))
/-- No host line before the launch writes argument 7. -/
theorem V_main_arg7 (c : Dev nD) : V m c main_arg7 = m ((c : Thread nD τ).loc main_arg7) :=
  StableHlo.after_of_forall_not_mem (b := Proc.devRef .tc main_arg7) _ _ (List.forall_iff_forall_mem.mp (by
    simp only [hostOps0, List.flatten_cons, List.flatten_nil, List.append_nil, List.cons_append,
      List.nil_append, List.Forall, StableHlo.unary_writes, StableHlo.nary_writes, StableHlo.reshape_writes, Finset.mem_singleton]
    repeat' apply And.intro
    all_goals exact StableHlo.devRef_ne_of_ne (by decide)))
/-- No host line before the launch writes argument 8. -/
theorem V_main_arg8 (c : Dev nD) : V m c main_arg8 = m ((c : Thread nD τ).loc main_arg8) :=
  StableHlo.after_of_forall_not_mem (b := Proc.devRef .tc main_arg8) _ _ (List.forall_iff_forall_mem.mp (by
    simp only [hostOps0, List.flatten_cons, List.flatten_nil, List.append_nil, List.cons_append,
      List.nil_append, List.Forall, StableHlo.unary_writes, StableHlo.nary_writes, StableHlo.reshape_writes, Finset.mem_singleton]
    repeat' apply And.intro
    all_goals exact StableHlo.devRef_ne_of_ne (by decide)))
/-- No host line before the launch writes argument 9. -/
theorem V_main_arg9 (c : Dev nD) : V m c main_arg9 = m ((c : Thread nD τ).loc main_arg9) :=
  StableHlo.after_of_forall_not_mem (b := Proc.devRef .tc main_arg9) _ _ (List.forall_iff_forall_mem.mp (by
    simp only [hostOps0, List.flatten_cons, List.flatten_nil, List.append_nil, List.cons_append,
      List.nil_append, List.Forall, StableHlo.unary_writes, StableHlo.nary_writes, StableHlo.reshape_writes, Finset.mem_singleton]
    repeat' apply And.intro
    all_goals exact StableHlo.devRef_ne_of_ne (by decide)))
/-- No host line before the launch writes argument 10. -/
theorem V_main_arg10 (c : Dev nD) : V m c main_arg10 = m ((c : Thread nD τ).loc main_arg10) :=
  StableHlo.after_of_forall_not_mem (b := Proc.devRef .tc main_arg10) _ _ (List.forall_iff_forall_mem.mp (by
    simp only [hostOps0, List.flatten_cons, List.flatten_nil, List.append_nil, List.cons_append,
      List.nil_append, List.Forall, StableHlo.unary_writes, StableHlo.nary_writes, StableHlo.reshape_writes, Finset.mem_singleton]
    repeat' apply And.intro
    all_goals exact StableHlo.devRef_ne_of_ne (by decide)))
/-- No host line before the launch writes argument 11. -/
theorem V_main_arg11 (c : Dev nD) : V m c main_arg11 = m ((c : Thread nD τ).loc main_arg11) :=
  StableHlo.after_of_forall_not_mem (b := Proc.devRef .tc main_arg11) _ _ (List.forall_iff_forall_mem.mp (by
    simp only [hostOps0, List.flatten_cons, List.flatten_nil, List.append_nil, List.cons_append,
      List.nil_append, List.Forall, StableHlo.unary_writes, StableHlo.nary_writes, StableHlo.reshape_writes, Finset.mem_singleton]
    repeat' apply And.intro
    all_goals exact StableHlo.devRef_ne_of_ne (by decide)))
/-- No host line before the launch writes argument 12. -/
theorem V_main_arg12 (c : Dev nD) : V m c main_arg12 = m ((c : Thread nD τ).loc main_arg12) :=
  StableHlo.after_of_forall_not_mem (b := Proc.devRef .tc main_arg12) _ _ (List.forall_iff_forall_mem.mp (by
    simp only [hostOps0, List.flatten_cons, List.flatten_nil, List.append_nil, List.cons_append,
      List.nil_append, List.Forall, StableHlo.unary_writes, StableHlo.nary_writes, StableHlo.reshape_writes, Finset.mem_singleton]
    repeat' apply And.intro
    all_goals exact StableHlo.devRef_ne_of_ne (by decide)))

/-! ## A window's tile at a grid point -/

/-- Window `w`'s tile at grid point `t`, read off its array as the launch finds it. -/
def iblk (c : Dev nD) (w : Fin cfg0.W) (t : Fin cfg0.N) : ((cfg0.win w).xblock (cfg0.grid.coords t)).Idx → Elt F (cfg0.win w).elt :=
  ((cfg0.win w).blk t).view.read (Elt F) (V m c (Pipeline.arrRef spec0 w))

/-! Each input's staging buffer holds its tile at every grid point — also the parameters', which are copied in
    once, at the first point, and whose tile is the same whole array at every point. -/
theorem before_of_0 {c : Dev nD} (dat : Dat τ (Elt F) Unit ℕ (UR sig nD τ) ℕ cfg0 c) (hA : dat.A 0 = V m c (Pipeline.arrRef spec0 0))
    (hafter : ∀ t, dat.after 0 t = iblk m c 0 t) (t : Fin cfg0.N) (d) : dat.before 0 t d = iblk m c 0 t :=
  (dat.before_in_eq_fetched 0 rfl (fun _ => rfl) (fun _ _ _ => rfl) (fun t => by rw [hafter]; unfold Dat.blockOf iblk; rw [hA]; try rfl) t d).trans
    (by unfold Dat.fetched Dat.blockOf iblk; rw [hA]; try rfl)
theorem before_of_1 {c : Dev nD} (dat : Dat τ (Elt F) Unit ℕ (UR sig nD τ) ℕ cfg0 c) (hA : dat.A 1 = V m c (Pipeline.arrRef spec0 1))
    (hafter : ∀ t, dat.after 1 t = iblk m c 1 t) (t : Fin cfg0.N) (d) : dat.before 1 t d = iblk m c 1 t :=
  (dat.before_in_eq_fetched 1 rfl (fun _ => rfl) (fun _ _ _ => rfl) (fun t => by rw [hafter]; unfold Dat.blockOf iblk; rw [hA]; try rfl) t d).trans
    (by unfold Dat.fetched Dat.blockOf iblk; rw [hA]; try rfl)
theorem before_of_2 {c : Dev nD} (dat : Dat τ (Elt F) Unit ℕ (UR sig nD τ) ℕ cfg0 c) (hA : dat.A 2 = V m c (Pipeline.arrRef spec0 2))
    (hafter : ∀ t, dat.after 2 t = iblk m c 2 t) (t : Fin cfg0.N) (d) : dat.before 2 t d = iblk m c 2 t :=
  (dat.before_in_eq_fetched 2 rfl (fun _ => rfl) (fun _ _ _ => rfl) (fun t => by rw [hafter]; unfold Dat.blockOf iblk; rw [hA]; try rfl) t d).trans
    (by unfold Dat.fetched Dat.blockOf iblk; rw [hA]; try rfl)
theorem before_of_3 {c : Dev nD} (dat : Dat τ (Elt F) Unit ℕ (UR sig nD τ) ℕ cfg0 c) (hA : dat.A 3 = V m c (Pipeline.arrRef spec0 3))
    (hafter : ∀ t, dat.after 3 t = iblk m c 3 t) (t : Fin cfg0.N) (d) : dat.before 3 t d = iblk m c 3 t :=
  (dat.before_in_eq_fetched 3 rfl (fun _ => rfl) (fun _ _ _ => rfl) (fun t => by rw [hafter]; unfold Dat.blockOf iblk; rw [hA]; try rfl) t d).trans
    (by unfold Dat.fetched Dat.blockOf iblk; rw [hA]; try rfl)
theorem before_of_4 {c : Dev nD} (dat : Dat τ (Elt F) Unit ℕ (UR sig nD τ) ℕ cfg0 c) (hA : dat.A 4 = V m c (Pipeline.arrRef spec0 4))
    (hafter : ∀ t, dat.after 4 t = iblk m c 4 t) (t : Fin cfg0.N) (d) : dat.before 4 t d = iblk m c 4 t :=
  (dat.before_in_eq_fetched 4 rfl (fun _ => rfl) (fun _ _ _ => rfl) (fun t => by rw [hafter]; unfold Dat.blockOf iblk; rw [hA]; try rfl) t d).trans
    (by unfold Dat.fetched Dat.blockOf iblk; rw [hA]; try rfl)
theorem before_of_5 {c : Dev nD} (dat : Dat τ (Elt F) Unit ℕ (UR sig nD τ) ℕ cfg0 c) (hA : dat.A 5 = V m c (Pipeline.arrRef spec0 5))
    (hafter : ∀ t, dat.after 5 t = iblk m c 5 t) (t : Fin cfg0.N) (d) : dat.before 5 t d = iblk m c 5 t :=
  (dat.before_in_eq_fetched 5 rfl (fun _ => rfl) (fun _ _ _ => rfl) (fun t => by rw [hafter]; unfold Dat.blockOf iblk; rw [hA]; try rfl) t d).trans
    (by unfold Dat.fetched Dat.blockOf iblk; rw [hA]; try rfl)
theorem before_of_6 {c : Dev nD} (dat : Dat τ (Elt F) Unit ℕ (UR sig nD τ) ℕ cfg0 c) (hA : dat.A 6 = V m c (Pipeline.arrRef spec0 6))
    (hafter : ∀ t, dat.after 6 t = iblk m c 6 t) (t : Fin cfg0.N) (d) : dat.before 6 t d = iblk m c 6 t :=
  (dat.before_in_eq_fetched 6 rfl (fun _ => rfl) (fun _ _ _ => rfl) (fun t => by rw [hafter]; unfold Dat.blockOf iblk; rw [hA]; try rfl) t d).trans
    (by unfold Dat.fetched Dat.blockOf iblk; rw [hA]; try rfl)
theorem before_of_7 {c : Dev nD} (dat : Dat τ (Elt F) Unit ℕ (UR sig nD τ) ℕ cfg0 c) (hA : dat.A 7 = V m c (Pipeline.arrRef spec0 7))
    (hafter : ∀ t, dat.after 7 t = iblk m c 7 t) (t : Fin cfg0.N) (d) : dat.before 7 t d = iblk m c 7 t :=
  (dat.before_in_eq_fetched 7 rfl (fun _ => rfl) (fun _ _ _ => rfl) (fun t => by rw [hafter]; unfold Dat.blockOf iblk; rw [hA]; try rfl) t d).trans
    (by unfold Dat.fetched Dat.blockOf iblk; rw [hA]; try rfl)

/-! ## The body's rectangles -/

theorem hz2 : (![0, 0] : Fin 2 → Nat) = fun _ => 0 := funext fun a => by fin_cases a <;> rfl

/-- A whole [256, 1024] tile. -/
abbrev rT : Rect S256x1024 := Rect.unit (s := S256x1024) ![0, 0] S256x1024.size inb_S256x1024_S256x1024_0_0
/-- Gate `g`'s [1024, 1024] columns of a re-laid weight matrix, `g` = 0 (input), 1 (forget), 2 (output), 3 (candidate). -/
abbrev rW0 : Rect S1024x4096 := Rect.unit (s := S1024x4096) ![0, 0] S1024x1024.size inb_S1024x4096_S1024x1024_0_0
abbrev rW1 : Rect S1024x4096 := Rect.unit (s := S1024x4096) ![0, 1024] S1024x1024.size inb_S1024x4096_S1024x1024_0_1024
abbrev rW2 : Rect S1024x4096 := Rect.unit (s := S1024x4096) ![0, 2048] S1024x1024.size inb_S1024x4096_S1024x1024_0_2048
abbrev rW3 : Rect S1024x4096 := Rect.unit (s := S1024x4096) ![0, 3072] S1024x1024.size inb_S1024x4096_S1024x1024_0_3072
/-- Gate `g`'s 1024 entries of the bias row. -/
abbrev rB0 : Rect S1x4096 := Rect.unit (s := S1x4096) ![0, 0] S1x1024.size inb_S1x4096_S1x1024_0_0
abbrev rB1 : Rect S1x4096 := Rect.unit (s := S1x4096) ![0, 1024] S1x1024.size inb_S1x4096_S1x1024_0_1024
abbrev rB2 : Rect S1x4096 := Rect.unit (s := S1x4096) ![0, 2048] S1x1024.size inb_S1x4096_S1x1024_0_2048
abbrev rB3 : Rect S1x4096 := Rect.unit (s := S1x4096) ![0, 3072] S1x1024.size inb_S1x4096_S1x1024_0_3072
/-- The whole output projection, its bias row, and a whole [256, 512] tile. -/
abbrev rWy : Rect S1024x512 := Rect.unit (s := S1024x512) ![0, 0] S1024x512.size inb_S1024x512_S1024x512_0_0
abbrev rBy : Rect S1x512 := Rect.unit (s := S1x512) ![0, 0] S1x512.size inb_S1x512_S1x512_0_0
abbrev rY : Rect S256x512 := Rect.unit (s := S256x512) ![0, 0] S256x512.size inb_S256x512_S256x512_0_0

/-! ## What the body stores -/

/-- The new cell state of a tile: forget gate times old cell state plus input gate times candidate. -/
abbrev cellTile (x0 : Vec F S256x1024 .f32) (x1 : Vec F S256x1024 .f32) (x2 : Vec F S256x1024 .f32) (x3 : Vec F S1024x4096 .bf16) (x4 : Vec F S1024x4096 .bf16) (x5 : Vec F S1x4096 .f32) : Vec F S256x1024 .f32 :=
  k0_pay7 (k0_pay1 (View.ld x0 rT)) (k0_pay2 (View.ld x1 rT)) (k0_pay3 (View.ld x0 rT) (View.ld x1 rT) (View.ld x3 rW0) (View.ld x4 rW0) (View.ld x5 rB0)) (k0_pay4 (View.ld x0 rT) (View.ld x1 rT) (View.ld x3 rW1) (View.ld x4 rW1) (View.ld x5 rB1)) (View.ld x3 rW3) (View.ld x4 rW3) (View.ld x5 rB3) (View.ld x2 rT)

/-- The new hidden state of a tile: output gate times tanh of the new cell state. -/
abbrev hiddenTile (x0 : Vec F S256x1024 .f32) (x1 : Vec F S256x1024 .f32) (x2 : Vec F S256x1024 .f32) (x3 : Vec F S1024x4096 .bf16) (x4 : Vec F S1024x4096 .bf16) (x5 : Vec F S1x4096 .f32) : Vec F S256x1024 .f32 :=
  k0_pay8 (k0_pay1 (View.ld x0 rT)) (k0_pay2 (View.ld x1 rT)) (k0_pay3 (View.ld x0 rT) (View.ld x1 rT) (View.ld x3 rW0) (View.ld x4 rW0) (View.ld x5 rB0)) (k0_pay4 (View.ld x0 rT) (View.ld x1 rT) (View.ld x3 rW1) (View.ld x4 rW1) (View.ld x5 rB1)) (k0_pay5 (View.ld x0 rT) (View.ld x3 rW2)) (k0_pay6 (View.ld x4 rW2)) (constant S256x1024 .f32 0x00000000#32) (View.ld x5 rB2) (View.ld x3 rW3) (View.ld x4 rW3) (View.ld x5 rB3) (View.ld x2 rT)

/-- The projected output of a tile: the new hidden state times the projection plus its bias. -/
abbrev projTile (x0 : Vec F S256x1024 .f32) (x1 : Vec F S256x1024 .f32) (x2 : Vec F S256x1024 .f32) (x3 : Vec F S1024x4096 .bf16) (x4 : Vec F S1024x4096 .bf16) (x5 : Vec F S1x4096 .f32) (x6 : Vec F S1024x512 .bf16) (x7 : Vec F S1x512 .f32) : Vec F S256x512 .f32 :=
  k0_pay9 (k0_pay1 (View.ld x0 rT)) (k0_pay2 (View.ld x1 rT)) (k0_pay3 (View.ld x0 rT) (View.ld x1 rT) (View.ld x3 rW0) (View.ld x4 rW0) (View.ld x5 rB0)) (k0_pay4 (View.ld x0 rT) (View.ld x1 rT) (View.ld x3 rW1) (View.ld x4 rW1) (View.ld x5 rB1)) (k0_pay5 (View.ld x0 rT) (View.ld x3 rW2)) (k0_pay6 (View.ld x4 rW2)) (constant S256x1024 .f32 0x00000000#32) (View.ld x5 rB2) (View.ld x3 rW3) (View.ld x4 rW3) (View.ld x5 rB3) (View.ld x2 rT) (View.ld x6 rWy) (View.ld x7 rBy)

/-- What the body leaves in the staging buffer of window 8 (new hidden state), 9 (new cell state), 10 (projection):
    one store over the whole tile each. -/
def out8 (x0 : Vec F S256x1024 .f32) (x1 : Vec F S256x1024 .f32) (x2 : Vec F S256x1024 .f32) (x3 : Vec F S1024x4096 .bf16) (x4 : Vec F S1024x4096 .bf16) (x5 : Vec F S1x4096 .f32) : Vec F S256x1024 .f32 := View.canon [⟨rT, hiddenTile x0 x1 x2 x3 x4 x5⟩]
def out9 (x0 : Vec F S256x1024 .f32) (x1 : Vec F S256x1024 .f32) (x2 : Vec F S256x1024 .f32) (x3 : Vec F S1024x4096 .bf16) (x4 : Vec F S1024x4096 .bf16) (x5 : Vec F S1x4096 .f32) : Vec F S256x1024 .f32 := View.canon [⟨rT, cellTile x0 x1 x2 x3 x4 x5⟩]
def out10 (x0 : Vec F S256x1024 .f32) (x1 : Vec F S256x1024 .f32) (x2 : Vec F S256x1024 .f32) (x3 : Vec F S1024x4096 .bf16) (x4 : Vec F S1024x4096 .bf16) (x5 : Vec F S1x4096 .f32) (x6 : Vec F S1024x512 .bf16) (x7 : Vec F S1x512 .f32) : Vec F S256x512 .f32 := View.canon [⟨rY, projTile x0 x1 x2 x3 x4 x5 x6 x7⟩]

theorem cover_T (p : Vec F S256x1024 .f32) (y : S256x1024.Idx) :
    ∃ pc ∈ ([⟨rT, p⟩] : List (View.Piece (Elt F) S256x1024 .f32)), y ∈ pc.1.set :=
  ⟨_, List.mem_singleton_self _, View.mem_set_unit_zero hz2 inb_S256x1024_S256x1024_0_0 y⟩
theorem cover_Y (p : Vec F S256x512 .f32) (y : S256x512.Idx) :
    ∃ pc ∈ ([⟨rY, p⟩] : List (View.Piece (Elt F) S256x512 .f32)), y ∈ pc.1.set :=
  ⟨_, List.mem_singleton_self _, View.mem_set_unit_zero hz2 inb_S256x512_S256x512_0_0 y⟩

/-! ## The body runs -/

set_option maxHeartbeats 4000000 in
/-- On whole staging buffers, the inputs' at contents `x0 … x7` and the outputs' at anything, the body runs to its
    end, faults nowhere, leaves the inputs' buffers as they were and the three outputs' at `out8`, `out9`, `out10`. -/
theorem sound_kernel (c : Dev nD) (E : Set ℕ) (i : grid0.Coords) (a0 : Memref sig .tc .vmem S256x1024 .f32) (ha0 : a0.IsWhole) (a1 : Memref sig .tc .vmem S256x1024 .f32) (ha1 : a1.IsWhole) (a2 : Memref sig .tc .vmem S256x1024 .f32) (ha2 : a2.IsWhole) (a3 : Memref sig .tc .vmem S1024x4096 .bf16) (ha3 : a3.IsWhole) (a4 : Memref sig .tc .vmem S1024x4096 .bf16) (ha4 : a4.IsWhole) (a5 : Memref sig .tc .vmem S1x4096 .f32) (ha5 : a5.IsWhole) (a6 : Memref sig .tc .vmem S1024x512 .bf16) (ha6 : a6.IsWhole) (a7 : Memref sig .tc .vmem S1x512 .f32) (ha7 : a7.IsWhole) (a8 : Memref sig .tc .vmem S256x1024 .f32) (ha8 : a8.IsWhole) (a9 : Memref sig .tc .vmem S256x1024 .f32) (ha9 : a9.IsWhole) (a10 : Memref sig .tc .vmem S256x512 .f32) (ha10 : a10.IsWhole)
    (x0 : Vec F S256x1024 .f32) (x1 : Vec F S256x1024 .f32) (x2 : Vec F S256x1024 .f32) (x3 : Vec F S1024x4096 .bf16) (x4 : Vec F S1024x4096 .bf16) (x5 : Vec F S1x4096 .f32) (x6 : Vec F S1024x512 .bf16) (x7 : Vec F S1x512 .f32) (K : PUnit → sProp 𝕄) :
    iprop(owns (c : Thread nD τ) a0 fullShare x0 ∗ owns (c : Thread nD τ) a1 fullShare x1 ∗ owns (c : Thread nD τ) a2 fullShare x2 ∗ owns (c : Thread nD τ) a3 fullShare x3 ∗ owns (c : Thread nD τ) a4 fullShare x4 ∗ owns (c : Thread nD τ) a5 fullShare x5 ∗ owns (c : Thread nD τ) a6 fullShare x6 ∗ owns (c : Thread nD τ) a7 fullShare x7 ∗ (∃ d, owns (c : Thread nD τ) a8 fullShare d) ∗ (∃ d, owns (c : Thread nD τ) a9 fullShare d) ∗ (∃ d, owns (c : Thread nD τ) a10 fullShare d)
        ∗ (iprop(owns (c : Thread nD τ) a0 fullShare x0 ∗ owns (c : Thread nD τ) a1 fullShare x1 ∗ owns (c : Thread nD τ) a2 fullShare x2 ∗ owns (c : Thread nD τ) a3 fullShare x3 ∗ owns (c : Thread nD τ) a4 fullShare x4 ∗ owns (c : Thread nD τ) a5 fullShare x5 ∗ owns (c : Thread nD τ) a6 fullShare x6 ∗ owns (c : Thread nD τ) a7 fullShare x7 ∗ owns (c : Thread nD τ) a8 fullShare (out8 x0 x1 x2 x3 x4 x5) ∗ owns (c : Thread nD τ) a9 fullShare (out9 x0 x1 x2 x3 x4 x5) ∗ owns (c : Thread nD τ) a10 fullShare (out10 x0 x1 x2 x3 x4 x5 x6 x7)) -∗ K ⟨⟩))
      ⊢ wp frame (wpE (defs₀ (F := F)) Variants.none c none) E (cc0__lstm_kernel i a0 ha0 a1 ha1 a2 ha2 a3 ha3 a4 ha4 a5 ha5 a6 ha6 a7 ha7 a8 ha8 a9 ha9 a10 ha10) K := by
  simp only [cc0__lstm_kernel_eq_skeleton]; unfold cc0__lstm_kernel_skel
  simp only [k0_part1_eq_skeleton, k0_part2_eq_skeleton]; unfold k0_part1_skel k0_part2_skel
  unfold owns
  iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%d8, %f8, -, H8⟩, ⟨%d9, %f9, -, H9⟩, ⟨%d10, %f10, -, H10⟩, Hk⟩
  subst hf0 hf1 hf2 hf3 hf4 hf5 hf6 hf7
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  isplitl [H5]
  · iexists f5; isplitr; · ipureintro; rfl
    iexact H5
  isplitl [H6]
  · iexists f6; isplitr; · ipureintro; rfl
    iexact H6
  isplitl [H7]
  · iexists f7; isplitr; · ipureintro; rfl
    iexact H7
  isplitl [H8]
  · iexists _; isplitr
    swap; · iexact H8
    ipureintro
    try dsimp only
    exact View.read_writes_eq_canon _ _ _ (cover_T _)
  isplitl [H9]
  · iexists _; isplitr
    swap; · iexact H9
    ipureintro
    try dsimp only
    exact View.read_writes_eq_canon _ _ _ (cover_T _)
  iexists _; isplitr
  swap; · iexact H10
  ipureintro
  try dsimp only
  exact View.read_writes_eq_canon _ _ _ (cover_Y _)

end Cert.KernelIdeal.Cell

end
-- ==== Proof.CellRun.lean ====
/-
  The launch of the LSTM-cell kernel, part two: the run over the 32 tiles of 256 batch rows.

  At grid point `t` the kernel is handed tile `t` of x, h and c and the whole re-laid parameters, and leaves tile
  `t` of the new hidden state, the new cell state and the projection, which are written back to rows
  256·t .. 256·t + 255 of the three result arrays. So the program runs to its end, faults nowhere, leaves its
  thirteen argument arrays as launched, and each result array is what the tiles written back make of it.
-/
import proofs.«115341_j37778532335717_2_alg».proof.Proof.CellBody

set_option maxRecDepth 16384

noncomputable section

namespace Cert.KernelIdeal.Cell

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## What each staging buffer holds after the body, grid point by grid point -/

/-- The arrays as the launch finds them; after the body at point `t` each input's buffer still at its tile and each
    output's at the tile the body stored; nothing else is touched. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => iblk m c 4 t
    | ⟨5, _⟩ => iblk m c 5 t
    | ⟨6, _⟩ => iblk m c 6 t
    | ⟨7, _⟩ => iblk m c 7 t
    | ⟨8, _⟩ => out8 (iblk m c 0 t) (iblk m c 1 t) (iblk m c 2 t) (iblk m c 3 t) (iblk m c 4 t) (iblk m c 5 t)
    | ⟨9, _⟩ => out9 (iblk m c 0 t) (iblk m c 1 t) (iblk m c 2 t) (iblk m c 3 t) (iblk m c 4 t) (iblk m c 5 t)
    | ⟨10, _⟩ => out10 (iblk m c 0 t) (iblk m c 1 t) (iblk m c 2 t) (iblk m c 3 t) (iblk m c 4 t) (iblk m c 5 t) (iblk m c 6 t) (iblk m c 7 t)
  Φ _ := Pipeline.ΦA spec0 c
  q _ := fullShare
  owed _ := 0

theorem A_eq (c : Dev nD) (w : Fin cfg0.W) : (dats m 0 c).A w = V m c (Pipeline.arrRef spec0 w) := by
  dsimp only [dats]

theorem after_0 (c : Dev nD) (t : Fin cfg0.N) : (dats m 0 c).after 0 t = iblk m c 0 t := by dsimp only [dats]
theorem after_1 (c : Dev nD) (t : Fin cfg0.N) : (dats m 0 c).after 1 t = iblk m c 1 t := by dsimp only [dats]
theorem after_2 (c : Dev nD) (t : Fin cfg0.N) : (dats m 0 c).after 2 t = iblk m c 2 t := by dsimp only [dats]
theorem after_3 (c : Dev nD) (t : Fin cfg0.N) : (dats m 0 c).after 3 t = iblk m c 3 t := by dsimp only [dats]
theorem after_4 (c : Dev nD) (t : Fin cfg0.N) : (dats m 0 c).after 4 t = iblk m c 4 t := by dsimp only [dats]
theorem after_5 (c : Dev nD) (t : Fin cfg0.N) : (dats m 0 c).after 5 t = iblk m c 5 t := by dsimp only [dats]
theorem after_6 (c : Dev nD) (t : Fin cfg0.N) : (dats m 0 c).after 6 t = iblk m c 6 t := by dsimp only [dats]
theorem after_7 (c : Dev nD) (t : Fin cfg0.N) : (dats m 0 c).after 7 t = iblk m c 7 t := by dsimp only [dats]
theorem after_8 (c : Dev nD) (t : Fin cfg0.N) : (dats m 0 c).after 8 t = out8 (iblk m c 0 t) (iblk m c 1 t) (iblk m c 2 t) (iblk m c 3 t) (iblk m c 4 t) (iblk m c 5 t) := by dsimp only [dats]
theorem after_9 (c : Dev nD) (t : Fin cfg0.N) : (dats m 0 c).after 9 t = out9 (iblk m c 0 t) (iblk m c 1 t) (iblk m c 2 t) (iblk m c 3 t) (iblk m c 4 t) (iblk m c 5 t) := by dsimp only [dats]
theorem after_10 (c : Dev nD) (t : Fin cfg0.N) : (dats m 0 c).after 10 t = out10 (iblk m c 0 t) (iblk m c 1 t) (iblk m c 2 t) (iblk m c 3 t) (iblk m c 4 t) (iblk m c 5 t) (iblk m c 6 t) (iblk m c 7 t) := by dsimp only [dats]

theorem before_0 (c : Dev nD) (t : Fin cfg0.N) (d) : (dats m 0 c).before 0 t d = iblk m c 0 t :=
  before_of_0 m (dats m 0 c) (A_eq m c 0) (after_0 m c) t d
theorem before_1 (c : Dev nD) (t : Fin cfg0.N) (d) : (dats m 0 c).before 1 t d = iblk m c 1 t :=
  before_of_1 m (dats m 0 c) (A_eq m c 1) (after_1 m c) t d
theorem before_2 (c : Dev nD) (t : Fin cfg0.N) (d) : (dats m 0 c).before 2 t d = iblk m c 2 t :=
  before_of_2 m (dats m 0 c) (A_eq m c 2) (after_2 m c) t d
theorem before_3 (c : Dev nD) (t : Fin cfg0.N) (d) : (dats m 0 c).before 3 t d = iblk m c 3 t :=
  before_of_3 m (dats m 0 c) (A_eq m c 3) (after_3 m c) t d
theorem before_4 (c : Dev nD) (t : Fin cfg0.N) (d) : (dats m 0 c).before 4 t d = iblk m c 4 t :=
  before_of_4 m (dats m 0 c) (A_eq m c 4) (after_4 m c) t d
theorem before_5 (c : Dev nD) (t : Fin cfg0.N) (d) : (dats m 0 c).before 5 t d = iblk m c 5 t :=
  before_of_5 m (dats m 0 c) (A_eq m c 5) (after_5 m c) t d
theorem before_6 (c : Dev nD) (t : Fin cfg0.N) (d) : (dats m 0 c).before 6 t d = iblk m c 6 t :=
  before_of_6 m (dats m 0 c) (A_eq m c 6) (after_6 m c) t d
theorem before_7 (c : Dev nD) (t : Fin cfg0.N) (d) : (dats m 0 c).before 7 t d = iblk m c 7 t :=
  before_of_7 m (dats m 0 c) (A_eq m c 7) (after_7 m c) t d

/-! ## The body at a grid point -/

/-- What the body is called with at point `t`, -/
def bodyPre (c : Dev nD) (t : Fin cfg0.N) : sProp 𝕄 :=
  iprop((dats m 0 c).Φ t.castSucc ∗ (dats m 0 c).owesAt () t.castSucc
    ∗ (∃ d, owns (c : Thread nD τ) (st0_0 t) fullShare ((dats m 0 c).before 0 t d))
    ∗ (∃ d, owns (c : Thread nD τ) (st0_1 t) fullShare ((dats m 0 c).before 1 t d))
    ∗ (∃ d, owns (c : Thread nD τ) (st0_2 t) fullShare ((dats m 0 c).before 2 t d))
    ∗ (∃ d, owns (c : Thread nD τ) (st0_3 t) fullShare ((dats m 0 c).before 3 t d))
    ∗ (∃ d, owns (c : Thread nD τ) (st0_4 t) fullShare ((dats m 0 c).before 4 t d))
    ∗ (∃ d, owns (c : Thread nD τ) (st0_5 t) fullShare ((dats m 0 c).before 5 t d))
    ∗ (∃ d, owns (c : Thread nD τ) (st0_6 t) fullShare ((dats m 0 c).before 6 t d))
    ∗ (∃ d, owns (c : Thread nD τ) (st0_7 t) fullShare ((dats m 0 c).before 7 t d))
    ∗ (∃ d, owns (c : Thread nD τ) (st0_8 t) fullShare ((dats m 0 c).before 8 t d))
    ∗ (∃ d, owns (c : Thread nD τ) (st0_9 t) fullShare ((dats m 0 c).before 9 t d))
    ∗ (∃ d, owns (c : Thread nD τ) (st0_10 t) fullShare ((dats m 0 c).before 10 t d)))

/-- and what it returns. -/
def bodyPost (c : Dev nD) (t : Fin cfg0.N) : sProp 𝕄 :=
  iprop((dats m 0 c).Φ t.succ ∗ (dats m 0 c).owesAt () t.succ
    ∗ owns (c : Thread nD τ) (st0_0 t) fullShare ((dats m 0 c).after 0 t)
    ∗ owns (c : Thread nD τ) (st0_1 t) fullShare ((dats m 0 c).after 1 t)
    ∗ owns (c : Thread nD τ) (st0_2 t) fullShare ((dats m 0 c).after 2 t)
    ∗ owns (c : Thread nD τ) (st0_3 t) fullShare ((dats m 0 c).after 3 t)
    ∗ owns (c : Thread nD τ) (st0_4 t) fullShare ((dats m 0 c).after 4 t)
    ∗ owns (c : Thread nD τ) (st0_5 t) fullShare ((dats m 0 c).after 5 t)
    ∗ owns (c : Thread nD τ) (st0_6 t) fullShare ((dats m 0 c).after 6 t)
    ∗ owns (c : Thread nD τ) (st0_7 t) fullShare ((dats m 0 c).after 7 t)
    ∗ owns (c : Thread nD τ) (st0_8 t) fullShare ((dats m 0 c).after 8 t)
    ∗ owns (c : Thread nD τ) (st0_9 t) fullShare ((dats m 0 c).after 9 t)
    ∗ owns (c : Thread nD τ) (st0_10 t) fullShare ((dats m 0 c).after 10 t))

theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before_0, before_1, before_2, before_3, before_4, before_5, before_6, before_7]
  rw [show (dats m 0 c).Φ t.succ = (dats m 0 c).Φ t.castSucc from rfl,
    show (dats m 0 c).owesAt () t.succ = (dats m 0 c).owesAt () t.castSucc from rfl,
    after_0, after_1, after_2, after_3, after_4, after_5, after_6, after_7, after_8, after_9, after_10]
  iintro ⟨HΦ, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩, ⟨%d10, H10⟩⟩
  iapply (sound_kernel c Set.univ _ _ _ _ _ _ _ _ _ _ _ _ _ _ _ _ _ _ _ _ _ _ _ (iblk m c 0 t) (iblk m c 1 t) (iblk m c 2 t) (iblk m c 3 t) (iblk m c 4 t) (iblk m c 5 t) (iblk m c 6 t) (iblk m c 7 t) _)
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexists _; iexact H8
  isplitl [H9]; · iexists _; iexact H9
  isplitl [H10]; · iexists _; iexact H10
  iintro ⟨H0, H1, H2, H3, H4, H5, H6, H7, H8, H9, H10⟩
  isplitl [HΦ]; · iexact HΦ
  isplitl [Ho]; · iexact Ho
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexact H9
  iexact H10

theorem body_obligation (c : Dev nD) : BodyObligation (dats (F := F) m 0 c) (defs₀ (F := F)) Variants.none () Set.univ := fun t => by
  rw [bigSep_W0, bigSep_W0]
  exact sound_body m c t

/-! ## The run -/

set_option backward.isDefEq.respectTransparency.types false in
/-- Every weakly fair execution of the program ends, faulting nowhere, with every array a window stages at what the
    tiles written back make of it and every other buffer as the launch found it. -/
theorem run_main : θ_run defs (onTc (τ := τ) (main (F := F))) (s₀ m ρ) (Pipeline.FramePost cfgs (dats m) 0 (V m)) :=
  Pipeline.θ_run_frame cfgs (dats m) (0 : Fin 1) launch0 defs₀ Variants.none m ρ main
    (hbody := fun c => (body_obligation m c).loose) (hshare := fun c => (dats m 0 c).share_full fun _ => rfl)
    (howed := fun _ _ => rfl) (V := V m) (hmain := hmain m Variants.none) (hA := A_eq m) (hΦ := fun _ _ => rfl)

/-- The same run with the three result arrays NAMED and the thirteen arguments unchanged. -/
theorem run_named : θ_run defs (onTc (τ := τ) (main (F := F))) ⟨m, fun _ => 0, ρ⟩ (fun r => ∀ c : Dev nD,
      r.2.mem ((c.tc : Thread nD τ).loc main_v16_2) = (dats m 0 c).arrAt 10 cfg0.N
      ∧ r.2.mem ((c.tc : Thread nD τ).loc main_v16_0) = (dats m 0 c).arrAt 8 cfg0.N
      ∧ r.2.mem ((c.tc : Thread nD τ).loc main_v16_1) = (dats m 0 c).arrAt 9 cfg0.N
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)) :=
  (θ_run defs _ _).mono (fun r h c => ⟨(h c).1 10, (h c).1 8, (h c).1 9,
      ((h c).1 0).trans (((dats m 0 c).arrAt_in 0 rfl _).trans ((A_eq m c 0).trans (V_main_arg0 m c))),
      ((h c).1 1).trans (((dats m 0 c).arrAt_in 1 rfl _).trans ((A_eq m c 1).trans (V_main_arg1 m c))),
      ((h c).1 2).trans (((dats m 0 c).arrAt_in 2 rfl _).trans ((A_eq m c 2).trans (V_main_arg2 m c))),
      ((h c).2 main_arg3 (Pipeline.mem_restRefs_of main_arg3 (by decide) (by decide))).trans (V_main_arg3 m c),
      ((h c).2 main_arg4 (Pipeline.mem_restRefs_of main_arg4 (by decide) (by decide))).trans (V_main_arg4 m c),
      ((h c).2 main_arg5 (Pipeline.mem_restRefs_of main_arg5 (by decide) (by decide))).trans (V_main_arg5 m c),
      ((h c).2 main_arg6 (Pipeline.mem_restRefs_of main_arg6 (by decide) (by decide))).trans (V_main_arg6 m c),
      ((h c).2 main_arg7 (Pipeline.mem_restRefs_of main_arg7 (by decide) (by decide))).trans (V_main_arg7 m c),
      ((h c).2 main_arg8 (Pipeline.mem_restRefs_of main_arg8 (by decide) (by decide))).trans (V_main_arg8 m c),
      ((h c).2 main_arg9 (Pipeline.mem_restRefs_of main_arg9 (by decide) (by decide))).trans (V_main_arg9 m c),
      ((h c).2 main_arg10 (Pipeline.mem_restRefs_of main_arg10 (by decide) (by decide))).trans (V_main_arg10 m c),
      ((h c).2 main_arg11 (Pipeline.mem_restRefs_of main_arg11 (by decide) (by decide))).trans (V_main_arg11 m c),
      ((h c).2 main_arg12 (Pipeline.mem_restRefs_of main_arg12 (by decide) (by decide))).trans (V_main_arg12 m c)⟩) (run_main m ρ)

/-- The program runs to its end, faults nowhere and leaves its argument arrays as launched. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)) :=
  (θ_run defs _ _).mono (fun r h c => (h c).2.2.2) (run_named m ρ)

end Cert.KernelIdeal.Cell

end
-- ==== Proof.LibMatmulNN.lean ====
/-
  A kernel's matrix product `A · B` of an `[M, K]` by a `[K, N]` operand — the LAST axis of the left operand contracted
  with the FIRST axis of the right one, no batch axes (jnp `x @ W`, `jnp.dot(x, W)`; dimension numbers `[1] x [0]`,
  free axes `[0]` and `[1]`) — into a zero accumulator, over the extended reals: read at `(i, j)` it is the sum over
  `k : Fin K` of `A(i, k) · B(k, j)`. Stated for ANY record of dimension numbers with those six lists, each hypothesis
  closed by `rfl` at a printed record.
-/
import Idealize.ShloMosaic.Lib.ValueIdx
import Idealize.ShloMosaic.PureOps.Ideal.Laws

noncomputable section

open scoped BigOperators

namespace Cert.LibMatmulNN

open Idealize.ShloMosaic Idealize.ShloMosaic.ValueIdx

variable {M N K : Nat}

/-- Two coordinates of one index at equal positions are equal, however the positions are spelt. -/
theorem coord_congr {s : Shape} (j : s.Idx) (a b : Nat) (ha : a < s.rank) (hb : b < s.rank) (e : a = b) :
    (j ⟨a, ha⟩).val = (j ⟨b, hb⟩).val := by
  subst e; rfl

/-- The left operand's row is the result's row. -/
theorem lhsIdx_row (d : DotDims ⟨2, ![M, K]⟩ ⟨2, ![K, N]⟩ ⟨2, ![M, N]⟩)
    (hlb : d.lhsBatch = []) (hln : d.lhsNonContracting = [0])
    (j : (⟨2, ![M, N]⟩ : Shape).Idx) (k : d.contr.Idx) : (d.lhsIdx j k 0).val = (j 0).val := by
  unfold DotDims.lhsIdx
  rw [dif_neg (by rw [hlb]; exact List.not_mem_nil), dif_pos (by rw [hln]; exact List.mem_singleton.mpr rfl)]
  rw [Fin.val_cast]
  exact coord_congr j _ 0 _ (by show 0 < 2; omega) (by rw [hlb, hln]; rfl)

/-- The right operand's column is the result's column. -/
theorem rhsIdx_col (d : DotDims ⟨2, ![M, K]⟩ ⟨2, ![K, N]⟩ ⟨2, ![M, N]⟩)
    (hlb : d.lhsBatch = []) (hrb : d.rhsBatch = []) (hln : d.lhsNonContracting = [0]) (hrn : d.rhsNonContracting = [1])
    (j : (⟨2, ![M, N]⟩ : Shape).Idx) (k : d.contr.Idx) : (d.rhsIdx j k 1).val = (j 1).val := by
  unfold DotDims.rhsIdx
  rw [dif_neg (by rw [hrb]; exact List.not_mem_nil), dif_pos (by rw [hrn]; exact List.mem_singleton.mpr rfl)]
  rw [Fin.val_cast]
  exact coord_congr j _ 1 _ (by show 1 < 2; omega) (by rw [hlb, hln, hrn]; rfl)

/-- The contraction ranges over one axis, of extent `K`. -/
theorem contr_rank (d : DotDims ⟨2, ![M, K]⟩ ⟨2, ![K, N]⟩ ⟨2, ![M, N]⟩) (hlc : d.lhsContracting = [1]) :
    d.contr.rank = 1 := by
  rw [d.rank_contr, hlc]; rfl

theorem contr_size (d : DotDims ⟨2, ![M, K]⟩ ⟨2, ![K, N]⟩ ⟨2, ![M, N]⟩) (hlc : d.lhsContracting = [1]) :
    d.contr.size ⟨0, by rw [contr_rank d hlc]; exact Nat.one_pos⟩ = K := by
  rw [d.size_contr 0 (by rw [hlc]; exact Nat.one_pos), List.getElem_of_eq hlc]
  rfl

/-- `A · B` into a zero accumulator, at `(i, j)`, is `Σ_k A[i, k] · B[k, j]`. -/
theorem matmul_nn_apply {φ₁ φ₂ : FTy} (d : DotDims ⟨2, ![M, K]⟩ ⟨2, ![K, N]⟩ ⟨2, ![M, N]⟩)
    (hlc : d.lhsContracting = [1]) (hrc : d.rhsContracting = [0])
    (hln : d.lhsNonContracting = [0]) (hrn : d.rhsNonContracting = [1])
    (hlb : d.lhsBatch = []) (hrb : d.rhsBatch = [])
    (prec : Option ContractPrecision) (A : FVec Ideal ⟨2, ![M, K]⟩ φ₁) (B : FVec Ideal ⟨2, ![K, N]⟩ φ₂)
    (i : Fin M) (j : Fin N) :
    matmul d prec A B (constant ⟨2, ![M, N]⟩ .f32 0x00000000#32) (ix2 i j) = ∑ k : Fin K, A (ix2 i k) * B (ix2 k j) := by
  have hr := contr_rank d hlc
  have hs := contr_size d hlc
  simp only [matmul]
  rw [Ideal.matmul_constant_zero_apply, ← Equiv.sum_comp (contrEquiv1 d K hr hs).symm]
  refine Finset.sum_congr rfl fun k _ => ?_
  have hk := contrEquiv1_symm_val d K hr hs k
  have el : d.lhsIdx (ix2 i j) ((contrEquiv1 d K hr hs).symm k) = ix2 i k := funext fun a => Fin.ext (by
    match a with
    | ⟨0, _⟩ => exact lhsIdx_row d hlb hln _ _
    | ⟨1, _⟩ => exact (d.lhsIdx_val_of_single hlc _ _).trans hk)
  have er : d.rhsIdx (ix2 i j) ((contrEquiv1 d K hr hs).symm k) = ix2 k j := funext fun a => Fin.ext (by
    match a with
    | ⟨0, _⟩ => exact (d.rhsIdx_val_of_single hrc _ _).trans hk
    | ⟨1, _⟩ => exact rhsIdx_col d hlb hrb hln hrn _ _)
  rw [el, er]

end Cert.LibMatmulNN

end
-- ==== Proof.CellTile.lean ====
/-
  One tile of the LSTM cell read entry by entry, over the extended reals (where a change of float format is the
  identity): with the tile's 256 rows of x, h, c and the re-laid parameters — the gates' input weights side by
  side in one [1024, 4096] matrix, their hidden-state weights likewise, their biases end to end in one row — the
  pre-activation of the gate whose columns start at `o` is, at row p and hidden unit j,

      Σ_k x(p,k)·Wx(k, o+j) + Σ_k h(p,k)·Wh(k, o+j) + b(o+j),

  (o = 0 input gate, 1024 forget gate, 2048 output gate, 3072 candidate), and the three stored tiles are
  σ(f)·c + σ(i)·tanh(g), σ(o)·tanh(new cell), and Σ_k hidden(p,k)·Wy(k,q) + by(q).
-/
import proofs.«115341_j37778532335717_2_alg».proof.Proof.CellBody
import proofs.«115341_j37778532335717_2_alg».proof.Proof.LibMatmulNN
import Idealize.ShloMosaic.Lib.ValueIdx
import Idealize.ShloMosaic.Lib.Pipeline.Value
import Idealize.ShloMosaic.PureOps.Ideal.Laws

set_option maxRecDepth 16384

noncomputable section

open scoped BigOperators

namespace Cert.KernelIdeal.Cell

open Cert.KernelIdeal Cert.KernelIdeal.Gen
open Idealize.ShloMosaic Idealize.ShloMosaic.ValueIdx

/-- Column `o + j` of a 4096-wide row: unit `j` of the gate whose columns start at `o`. -/
abbrev gcol (o : Nat) (ho : o + 1024 ≤ 4096) (j : Fin 1024) : Fin 4096 := ⟨o + j.val, by have := j.isLt; omega⟩

/-- A gate's [1024, 1024] columns loaded from a re-laid weight matrix, read at (k, j). -/
theorem ld_w (X : Vec Ideal S1024x4096 .bf16) (o : Nat) (ho : o + 1024 ≤ 4096)
    (inb : ∀ a, (![0, o] : Fin 2 → Nat) a + S1024x1024.size a ≤ S1024x4096.size a) (k j : Fin 1024) :
    View.ld X (Rect.unit (s := S1024x4096) ![0, o] S1024x1024.size inb) (ix2 k j) = X (ix2 k (gcol o ho j)) := by
  show X _ = X _
  refine congrArg X (funext fun a => Fin.ext ?_)
  match a with
  | ⟨0, _⟩ => show 0 + 1 * k.val = k.val; omega
  | ⟨1, _⟩ => show o + 1 * j.val = o + j.val; omega

/-- A gate's 1024 entries loaded from the bias row, read at (0, j). -/
theorem ld_b (X : Vec Ideal S1x4096 .f32) (o : Nat) (ho : o + 1024 ≤ 4096)
    (inb : ∀ a, (![0, o] : Fin 2 → Nat) a + S1x1024.size a ≤ S1x4096.size a) (j : Fin 1024) :
    View.ld X (Rect.unit (s := S1x4096) ![0, o] S1x1024.size inb) (ix2 (0 : Fin 1) j) = X (ix2 (0 : Fin 1) (gcol o ho j)) := by
  show X _ = X _
  refine congrArg X (funext fun a => Fin.ext ?_)
  match a with
  | ⟨0, _⟩ => show 0 + 1 * 0 = 0; omega
  | ⟨1, _⟩ => show o + 1 * j.val = o + j.val; omega

/-- A [1, n] row spread over 256 rows, read at (p, j), is the row's entry j. -/
theorem row_spread_1024 (b : FVec Ideal S1x1024 .f32) (p : Fin 256) (j : Fin 1024) :
    (broadcastTo S256x1024 (shapeCast S1x1024 b shapeCasts_S1x1024_S1x1024) broadcasts_S1x1024_S256x1024 : FVec Ideal S256x1024 .f32) (ix2 p j)
      = b (ix2 (0 : Fin 1) j) := by
  rw [shapeCast_self]
  exact broadcastTo_apply b broadcasts_S1x1024_S256x1024 (ix2 p j) (ix2 (0 : Fin 1) j) (fun a => match a with
    | ⟨0, _⟩ => by show (0 : Nat) = if (1 : Nat) = 1 then 0 else _; rw [if_pos rfl]
    | ⟨1, _⟩ => by show j.val = if (1024 : Nat) = 1 then 0 else j.val; rw [if_neg (by decide)])

theorem row_spread_512 (b : FVec Ideal S1x512 .f32) (p : Fin 256) (q : Fin 512) :
    (broadcastTo S256x512 (shapeCast S1x512 b shapeCasts_S1x512_S1x512) broadcasts_S1x512_S256x512 : FVec Ideal S256x512 .f32) (ix2 p q)
      = b (ix2 (0 : Fin 1) q) := by
  rw [shapeCast_self]
  exact broadcastTo_apply b broadcasts_S1x512_S256x512 (ix2 p q) (ix2 (0 : Fin 1) q) (fun a => match a with
    | ⟨0, _⟩ => by show (0 : Nat) = if (1 : Nat) = 1 then 0 else _; rw [if_pos rfl]
    | ⟨1, _⟩ => by show q.val = if (512 : Nat) = 1 then 0 else q.val; rw [if_neg (by decide)])

/-- The body's gate expression — two products into zero accumulators added, plus the spread bias — read at (p, j). -/
theorem gate_apply (a0 a1 : FVec Ideal S256x1024 .bf16) (w3 w4 : FVec Ideal S1024x1024 .bf16) (b5 : FVec Ideal S1x1024 .f32)
    (p : Fin 256) (j : Fin 1024) :
    (addf (F := Ideal) (addf (F := Ideal)
        (matmul (F := Ideal) dot_S256x1024_S1024x1024_S256x1024_1_0_0_1_n_n none a0 (shapeCast S1024x1024 w3 shapeCasts_S1024x1024_S1024x1024) (constant S256x1024 .f32 0x00000000#32))
        (matmul (F := Ideal) dot_S256x1024_S1024x1024_S256x1024_1_0_0_1_n_n none a1 (shapeCast S1024x1024 w4 shapeCasts_S1024x1024_S1024x1024) (constant S256x1024 .f32 0x00000000#32)))
      (broadcastTo S256x1024 (shapeCast S1x1024 b5 shapeCasts_S1x1024_S1x1024) broadcasts_S1x1024_S256x1024) : FVec Ideal S256x1024 .f32) (ix2 p j)
      = (∑ k : Fin 1024, a0 (ix2 p k) * w3 (ix2 k j)) + (∑ k : Fin 1024, a1 (ix2 p k) * w4 (ix2 k j)) + b5 (ix2 (0 : Fin 1) j) := by
  rw [addf_apply, addf_apply, row_spread_1024, shapeCast_self, shapeCast_self]
  rw [Cert.LibMatmulNN.matmul_nn_apply dot_S256x1024_S1024x1024_S256x1024_1_0_0_1_n_n rfl rfl rfl rfl rfl rfl none a0 w3 p j,
    Cert.LibMatmulNN.matmul_nn_apply dot_S256x1024_S1024x1024_S256x1024_1_0_0_1_n_n rfl rfl rfl rfl rfl rfl none a1 w4 p j]

/-- The pre-activation, on a tile, of the gate whose columns start at `o`. -/
def tilePre (x0 x1 : Vec Ideal S256x1024 .f32) (x3 x4 : Vec Ideal S1024x4096 .bf16) (x5 : Vec Ideal S1x4096 .f32)
    (o : Nat) (ho : o + 1024 ≤ 4096) (p : Fin 256) (j : Fin 1024) : EReal :=
  (∑ k : Fin 1024, x0 (ix2 p k) * x3 (ix2 k (gcol o ho j))) + (∑ k : Fin 1024, x1 (ix2 p k) * x4 (ix2 k (gcol o ho j)))
    + x5 (ix2 (0 : Fin 1) (gcol o ho j))

/-- The gate expression over the loaded pieces is that pre-activation. -/
theorem gate_tile (x0 x1 : Vec Ideal S256x1024 .f32) (x3 x4 : Vec Ideal S1024x4096 .bf16) (x5 : Vec Ideal S1x4096 .f32)
    (o : Nat) (ho : o + 1024 ≤ 4096)
    (inbW : ∀ a, (![0, o] : Fin 2 → Nat) a + S1024x1024.size a ≤ S1024x4096.size a)
    (inbB : ∀ a, (![0, o] : Fin 2 → Nat) a + S1x1024.size a ≤ S1x4096.size a) (p : Fin 256) (j : Fin 1024) :
    (addf (F := Ideal) (addf (F := Ideal)
        (matmul (F := Ideal) dot_S256x1024_S1024x1024_S256x1024_1_0_0_1_n_n none (truncf .bf16 x0 bitsLt_bf16_f32 : FVec Ideal S256x1024 .bf16)
          (shapeCast S1024x1024 (View.ld x3 (Rect.unit (s := S1024x4096) ![0, o] S1024x1024.size inbW)) shapeCasts_S1024x1024_S1024x1024 : FVec Ideal S1024x1024 .bf16) (constant S256x1024 .f32 0x00000000#32))
        (matmul (F := Ideal) dot_S256x1024_S1024x1024_S256x1024_1_0_0_1_n_n none (truncf .bf16 x1 bitsLt_bf16_f32 : FVec Ideal S256x1024 .bf16)
          (shapeCast S1024x1024 (View.ld x4 (Rect.unit (s := S1024x4096) ![0, o] S1024x1024.size inbW)) shapeCasts_S1024x1024_S1024x1024 : FVec Ideal S1024x1024 .bf16) (constant S256x1024 .f32 0x00000000#32)))
      (broadcastTo S256x1024 (shapeCast S1x1024 (View.ld x5 (Rect.unit (s := S1x4096) ![0, o] S1x1024.size inbB)) shapeCasts_S1x1024_S1x1024 : FVec Ideal S1x1024 .f32) broadcasts_S1x1024_S256x1024) : FVec Ideal S256x1024 .f32) (ix2 p j)
      = tilePre x0 x1 x3 x4 x5 o ho p j := by
  refine (gate_apply _ _ _ _ _ p j).trans ?_
  unfold tilePre
  refine congrArg₂ (· + ·) (congrArg₂ (· + ·) (Finset.sum_congr rfl fun k _ => ?_) (Finset.sum_congr rfl fun k _ => ?_)) ?_
  · exact congrArg (x0 (ix2 p k) * ·) (ld_w x3 o ho inbW k j)
  · exact congrArg (x1 (ix2 p k) * ·) (ld_w x4 o ho inbW k j)
  · exact ld_b x5 o ho inbB j

/-! ## The three stored tiles -/

/-- The new cell state of a tile, entry (p, j). -/
theorem cellTile_apply (x0 x1 x2 : Vec Ideal S256x1024 .f32) (x3 x4 : Vec Ideal S1024x4096 .bf16) (x5 : Vec Ideal S1x4096 .f32) (p : Fin 256) (j : Fin 1024) :
    cellTile x0 x1 x2 x3 x4 x5 (ix2 p j)
      = Ideal.logistic (tilePre x0 x1 x3 x4 x5 1024 (by omega) p j) * x2 (ix2 p j)
        + Ideal.logistic (tilePre x0 x1 x3 x4 x5 0 (by omega) p j) * Ideal.tanh (tilePre x0 x1 x3 x4 x5 3072 (by omega) p j) := by
  unfold cellTile k0_pay7 k0_pay4 k0_pay3 k0_pay1 k0_pay2
  simp only [View.ld_unit_zero (S := S256x1024) hz2]
  have hf := gate_tile x0 x1 x3 x4 x5 1024 (by omega) inb_S1024x4096_S1024x1024_0_1024 inb_S1x4096_S1x1024_0_1024 p j
  have hi := gate_tile x0 x1 x3 x4 x5 0 (by omega) inb_S1024x4096_S1024x1024_0_0 inb_S1x4096_S1x1024_0_0 p j
  have hg := gate_tile x0 x1 x3 x4 x5 3072 (by omega) inb_S1024x4096_S1024x1024_0_3072 inb_S1x4096_S1x1024_0_3072 p j
  exact congrArg₂ (· + ·) (congrArg (· * x2 (ix2 p j)) (congrArg Ideal.logistic hf))
    (congrArg₂ (· * ·) (congrArg Ideal.logistic hi) (congrArg Ideal.tanh hg))

/-- The new hidden state of a tile, entry (p, j). -/
theorem hiddenTile_apply (x0 x1 x2 : Vec Ideal S256x1024 .f32) (x3 x4 : Vec Ideal S1024x4096 .bf16) (x5 : Vec Ideal S1x4096 .f32) (p : Fin 256) (j : Fin 1024) :
    hiddenTile x0 x1 x2 x3 x4 x5 (ix2 p j)
      = Ideal.logistic (tilePre x0 x1 x3 x4 x5 2048 (by omega) p j) * Ideal.tanh (cellTile x0 x1 x2 x3 x4 x5 (ix2 p j)) := by
  unfold hiddenTile k0_pay8
  refine congrArg₂ (· * ·) (congrArg Ideal.logistic ?_) rfl
  unfold k0_pay5 k0_pay6 k0_pay1 k0_pay2
  rw [View.ld_unit_zero (S := S256x1024) hz2 _ x0, View.ld_unit_zero (S := S256x1024) hz2 _ x1]
  exact gate_tile x0 x1 x3 x4 x5 2048 (by omega) inb_S1024x4096_S1024x1024_0_2048 inb_S1x4096_S1x1024_0_2048 p j

/-- The projected output of a tile, entry (p, q). -/
theorem projTile_apply (x0 x1 x2 : Vec Ideal S256x1024 .f32) (x3 x4 : Vec Ideal S1024x4096 .bf16) (x5 : Vec Ideal S1x4096 .f32) (x6 : Vec Ideal S1024x512 .bf16) (x7 : Vec Ideal S1x512 .f32) (p : Fin 256) (q : Fin 512) :
    projTile x0 x1 x2 x3 x4 x5 x6 x7 (ix2 p q)
      = (∑ k : Fin 1024, hiddenTile x0 x1 x2 x3 x4 x5 (ix2 p k) * x6 (ix2 k q)) + x7 (ix2 (0 : Fin 1) q) := by
  unfold projTile k0_pay9
  rw [View.ld_unit_zero (S := S1024x512) hz2 _ x6, View.ld_unit_zero (S := S1x512) hz2 _ x7]
  refine (addf_apply _ _ _).trans ?_
  refine congrArg₂ (· + ·) ?_ (row_spread_512 x7 p q)
  refine (Cert.LibMatmulNN.matmul_nn_apply dot_S256x1024_S1024x512_S256x512_1_0_0_1_n_n rfl rfl rfl rfl rfl rfl none _ _ p q).trans ?_
  rw [shapeCast_self]
  rfl

end Cert.KernelIdeal.Cell

end
-- ==== Proof.CellSpec.lean ====
/-
  The LSTM cell as one function of its arguments, index by index, over the extended reals.

  With x, h, c of shape [8192, 1024], each gate weight W of shape [2048, 1024] (rows 0..1023 multiply x, rows
  1024..2047 multiply h) and each gate bias b of shape [1024], the pre-activation of a gate at batch row r and
  hidden unit j is

      pre(r, j) = Σ_{k<1024} x(r,k)·W(k,j) + Σ_{k<1024} h(r,k)·W(1024+k,j) + b(j),

  the new cell state is σ(pre_f)·c + σ(pre_i)·tanh(pre_c), the new hidden state σ(pre_o)·tanh(new cell), and the
  projected output Σ_k hidden(r,k)·Wy(k,q) + by(q). Also here: a sum over 2048 terms is the sum over its first
  1024 plus the sum over its last 1024 — the one law that joins a product with the rows [x, h] laid side by side
  to the two half-products added up (addition of extended reals is commutative and associative, so no finiteness
  is needed).
-/
import Idealize.ShloMosaic.Lib.ValueIdx
import Idealize.ShloMosaic.PureOps.Ideal
import Idealize.ShloMosaic.PureOps.Ideal.Laws

noncomputable section

open scoped BigOperators

namespace Cert.CellSpec

open Idealize.ShloMosaic Idealize.ShloMosaic.ValueIdx

/-- An [a, b] array of extended reals, and an [a] one. -/
abbrev Mat (a b : Nat) : Type := (⟨2, ![a, b]⟩ : Shape).Idx → EReal
abbrev Row (a : Nat) : Type := (⟨1, ![a]⟩ : Shape).Idx → EReal

/-- Row `k` of the upper half of a gate weight (the rows that multiply x), -/
abbrev up (k : Fin 1024) : Fin 2048 := ⟨k.val, by have := k.isLt; omega⟩
/-- and row `k` of its lower half (the rows that multiply h). -/
abbrev dn (k : Fin 1024) : Fin 2048 := ⟨1024 + k.val, by have := k.isLt; omega⟩

/-- A sum over 2048 terms is the sum over the first 1024 plus the sum over the last 1024. -/
theorem sum_halves {M : Type*} [AddCommMonoid M] (f : Fin 2048 → M) :
    ∑ k : Fin 2048, f k = (∑ k : Fin 1024, f (up k)) + ∑ k : Fin 1024, f (dn k) :=
  Fin.sum_univ_add (a := 1024) (b := 1024) (fun i => f i)

/-- A gate's pre-activation at batch row `r` and hidden unit `j`. -/
def pre (X H : Mat 8192 1024) (W : Mat 2048 1024) (b : Row 1024) (r : Fin 8192) (j : Fin 1024) : EReal :=
  (∑ k : Fin 1024, X (ix2 r k) * W (ix2 (up k) j)) + (∑ k : Fin 1024, H (ix2 r k) * W (ix2 (dn k) j)) + b (ix1 j)

/-- The new cell state. -/
def cell (X H C : Mat 8192 1024) (Wi : Mat 2048 1024) (bi : Row 1024) (Wf : Mat 2048 1024) (bf : Row 1024)
    (Wc : Mat 2048 1024) (bc : Row 1024) (r : Fin 8192) (j : Fin 1024) : EReal :=
  Ideal.logistic (pre X H Wf bf r j) * C (ix2 r j) + Ideal.logistic (pre X H Wi bi r j) * Ideal.tanh (pre X H Wc bc r j)

/-- The new hidden state. -/
def hidden (X H C : Mat 8192 1024) (Wi : Mat 2048 1024) (bi : Row 1024) (Wf : Mat 2048 1024) (bf : Row 1024)
    (Wo : Mat 2048 1024) (bo : Row 1024) (Wc : Mat 2048 1024) (bc : Row 1024) (r : Fin 8192) (j : Fin 1024) : EReal :=
  Ideal.logistic (pre X H Wo bo r j) * Ideal.tanh (cell X H C Wi bi Wf bf Wc bc r j)

/-- The projected output. -/
def proj (X H C : Mat 8192 1024) (Wi : Mat 2048 1024) (bi : Row 1024) (Wf : Mat 2048 1024) (bf : Row 1024)
    (Wo : Mat 2048 1024) (bo : Row 1024) (Wc : Mat 2048 1024) (bc : Row 1024) (Wy : Mat 1024 512) (bY : Row 512)
    (r : Fin 8192) (q : Fin 512) : EReal :=
  (∑ k : Fin 1024, hidden X H C Wi bi Wf bf Wo bo Wc bc r k * Wy (ix2 k q)) + bY (ix1 q)

/-- The three result arrays. -/
def cellArr (X H C : Mat 8192 1024) (Wi : Mat 2048 1024) (bi : Row 1024) (Wf : Mat 2048 1024) (bf : Row 1024)
    (Wc : Mat 2048 1024) (bc : Row 1024) : Mat 8192 1024 := fun i => cell X H C Wi bi Wf bf Wc bc (i 0) (i 1)
def hiddenArr (X H C : Mat 8192 1024) (Wi : Mat 2048 1024) (bi : Row 1024) (Wf : Mat 2048 1024) (bf : Row 1024)
    (Wo : Mat 2048 1024) (bo : Row 1024) (Wc : Mat 2048 1024) (bc : Row 1024) : Mat 8192 1024 :=
  fun i => hidden X H C Wi bi Wf bf Wo bo Wc bc (i 0) (i 1)
def projArr (X H C : Mat 8192 1024) (Wi : Mat 2048 1024) (bi : Row 1024) (Wf : Mat 2048 1024) (bf : Row 1024)
    (Wo : Mat 2048 1024) (bo : Row 1024) (Wc : Mat 2048 1024) (bc : Row 1024) (Wy : Mat 1024 512) (bY : Row 512) : Mat 8192 512 :=
  fun i => proj X H C Wi bi Wf bf Wo bo Wc bc Wy bY (i 0) (i 1)

end Cert.CellSpec

end
-- ==== Proof.LibConcat4.lean ====
/-
  FOUR arrays of one shape laid end to end, read by coordinates: four [R, N] matrices side by side as an
  [R, T] one (jnp.concatenate(axis=1), T = 4·N), and four [N] vectors end to end as a [T] one
  (jnp.concatenate(axis=0)). The entry at column (or position) g·N + j is piece g's entry at j; the row is kept.
  Host or kernel: the statement is about the operation `concatenate` itself.
-/
import Idealize.ShloMosaic.Lib.ValueIdx
import Idealize.ShloMosaic.Lib.Pipeline.Value

noncomputable section

namespace Cert.LibConcat4

open Idealize.ShloMosaic Idealize.ShloMosaic.ValueIdx

variable {α : Type} {R N T : Nat}

/-- Column `g·N + j` of four [R, N] matrices side by side is column `j` of matrix `g`. -/
theorem cols_apply (x0 x1 x2 x3 : (⟨2, ![R, N]⟩ : Shape).Idx → α)
    (h : Shape.Concatenates [(⟨2, ![R, N]⟩ : Shape), ⟨2, ![R, N]⟩, ⟨2, ![R, N]⟩, ⟨2, ![R, N]⟩] ⟨2, ![R, T]⟩ 1)
    (r : Fin R) (j : Fin N) (jj : Fin T) :
    (jj.val = j.val →
      concatenate ⟨2, ![R, T]⟩ 1 [⟨⟨2, ![R, N]⟩, x0⟩, ⟨⟨2, ![R, N]⟩, x1⟩, ⟨⟨2, ![R, N]⟩, x2⟩, ⟨⟨2, ![R, N]⟩, x3⟩] h (ix2 r jj) = x0 (ix2 r j))
    ∧ (jj.val = N + j.val →
      concatenate ⟨2, ![R, T]⟩ 1 [⟨⟨2, ![R, N]⟩, x0⟩, ⟨⟨2, ![R, N]⟩, x1⟩, ⟨⟨2, ![R, N]⟩, x2⟩, ⟨⟨2, ![R, N]⟩, x3⟩] h (ix2 r jj) = x1 (ix2 r j))
    ∧ (jj.val = N + N + j.val →
      concatenate ⟨2, ![R, T]⟩ 1 [⟨⟨2, ![R, N]⟩, x0⟩, ⟨⟨2, ![R, N]⟩, x1⟩, ⟨⟨2, ![R, N]⟩, x2⟩, ⟨⟨2, ![R, N]⟩, x3⟩] h (ix2 r jj) = x2 (ix2 r j))
    ∧ (jj.val = N + N + N + j.val →
      concatenate ⟨2, ![R, T]⟩ 1 [⟨⟨2, ![R, N]⟩, x0⟩, ⟨⟨2, ![R, N]⟩, x1⟩, ⟨⟨2, ![R, N]⟩, x2⟩, ⟨⟨2, ![R, N]⟩, x3⟩] h (ix2 r jj) = x3 (ix2 r j)) := by
  have hi : ∀ b : Fin 2, b.cast (rfl : (2 : Nat) = 2) ≠ (1 : Fin 2) →
      ((ix2 r j : (⟨2, ![R, N]⟩ : Shape).Idx) b).val = ((ix2 r jj : (⟨2, ![R, T]⟩ : Shape).Idx) (b.cast rfl)).val := by
    intro b hb
    match b with
    | ⟨0, _⟩ => rfl
    | ⟨1, _⟩ => exact absurd rfl hb
  refine ⟨fun e => ?_, fun e => ?_, fun e => ?_, fun e => ?_⟩
  · exact concatenate_apply_piece (t := ⟨2, ![R, T]⟩) (1 : Fin 2) [⟨⟨2, ![R, N]⟩, x0⟩, ⟨⟨2, ![R, N]⟩, x1⟩, ⟨⟨2, ![R, N]⟩, x2⟩, ⟨⟨2, ![R, N]⟩, x3⟩] h (ix2 r jj) 0 (by show 0 < 4; omega) ⟨2, ![R, N]⟩ x0 rfl rfl 0
      (by simp [Nat.add_assoc]) (ix2 r j) hi (by show 0 + j.val = jj.val; omega)
  · exact concatenate_apply_piece (t := ⟨2, ![R, T]⟩) (1 : Fin 2) [⟨⟨2, ![R, N]⟩, x0⟩, ⟨⟨2, ![R, N]⟩, x1⟩, ⟨⟨2, ![R, N]⟩, x2⟩, ⟨⟨2, ![R, N]⟩, x3⟩] h (ix2 r jj) 1 (by show 1 < 4; omega) ⟨2, ![R, N]⟩ x1 rfl rfl N
      (by simp [Nat.add_assoc]) (ix2 r j) hi (by show N + j.val = jj.val; omega)
  · exact concatenate_apply_piece (t := ⟨2, ![R, T]⟩) (1 : Fin 2) [⟨⟨2, ![R, N]⟩, x0⟩, ⟨⟨2, ![R, N]⟩, x1⟩, ⟨⟨2, ![R, N]⟩, x2⟩, ⟨⟨2, ![R, N]⟩, x3⟩] h (ix2 r jj) 2 (by show 2 < 4; omega) ⟨2, ![R, N]⟩ x2 rfl rfl (N + N)
      (by simp [Nat.add_assoc]) (ix2 r j) hi (by show N + N + j.val = jj.val; omega)
  · exact concatenate_apply_piece (t := ⟨2, ![R, T]⟩) (1 : Fin 2) [⟨⟨2, ![R, N]⟩, x0⟩, ⟨⟨2, ![R, N]⟩, x1⟩, ⟨⟨2, ![R, N]⟩, x2⟩, ⟨⟨2, ![R, N]⟩, x3⟩] h (ix2 r jj) 3 (by show 3 < 4; omega) ⟨2, ![R, N]⟩ x3 rfl rfl (N + N + N)
      (by simp [Nat.add_assoc]) (ix2 r j) hi (by show N + N + N + j.val = jj.val; omega)

/-- Position `g·N + j` of four [N] vectors end to end is position `j` of vector `g`. -/
theorem vec_apply (x0 x1 x2 x3 : (⟨1, ![N]⟩ : Shape).Idx → α)
    (h : Shape.Concatenates [(⟨1, ![N]⟩ : Shape), ⟨1, ![N]⟩, ⟨1, ![N]⟩, ⟨1, ![N]⟩] ⟨1, ![T]⟩ 0)
    (j : Fin N) (jj : Fin T) :
    (jj.val = j.val →
      concatenate ⟨1, ![T]⟩ 0 [⟨⟨1, ![N]⟩, x0⟩, ⟨⟨1, ![N]⟩, x1⟩, ⟨⟨1, ![N]⟩, x2⟩, ⟨⟨1, ![N]⟩, x3⟩] h (ix1 jj) = x0 (ix1 j))
    ∧ (jj.val = N + j.val →
      concatenate ⟨1, ![T]⟩ 0 [⟨⟨1, ![N]⟩, x0⟩, ⟨⟨1, ![N]⟩, x1⟩, ⟨⟨1, ![N]⟩, x2⟩, ⟨⟨1, ![N]⟩, x3⟩] h (ix1 jj) = x1 (ix1 j))
    ∧ (jj.val = N + N + j.val →
      concatenate ⟨1, ![T]⟩ 0 [⟨⟨1, ![N]⟩, x0⟩, ⟨⟨1, ![N]⟩, x1⟩, ⟨⟨1, ![N]⟩, x2⟩, ⟨⟨1, ![N]⟩, x3⟩] h (ix1 jj) = x2 (ix1 j))
    ∧ (jj.val = N + N + N + j.val →
      concatenate ⟨1, ![T]⟩ 0 [⟨⟨1, ![N]⟩, x0⟩, ⟨⟨1, ![N]⟩, x1⟩, ⟨⟨1, ![N]⟩, x2⟩, ⟨⟨1, ![N]⟩, x3⟩] h (ix1 jj) = x3 (ix1 j)) := by
  have hi : ∀ b : Fin 1, b.cast (rfl : (1 : Nat) = 1) ≠ (0 : Fin 1) →
      ((ix1 j : (⟨1, ![N]⟩ : Shape).Idx) b).val = ((ix1 jj : (⟨1, ![T]⟩ : Shape).Idx) (b.cast rfl)).val := by
    intro b hb
    match b with
    | ⟨0, _⟩ => exact absurd rfl hb
  refine ⟨fun e => ?_, fun e => ?_, fun e => ?_, fun e => ?_⟩
  · exact concatenate_apply_piece (t := ⟨1, ![T]⟩) (0 : Fin 1) [⟨⟨1, ![N]⟩, x0⟩, ⟨⟨1, ![N]⟩, x1⟩, ⟨⟨1, ![N]⟩, x2⟩, ⟨⟨1, ![N]⟩, x3⟩] h (ix1 jj) 0 (by show 0 < 4; omega) ⟨1, ![N]⟩ x0 rfl rfl 0
      (by simp [Nat.add_assoc]) (ix1 j) hi (by show 0 + j.val = jj.val; omega)
  · exact concatenate_apply_piece (t := ⟨1, ![T]⟩) (0 : Fin 1) [⟨⟨1, ![N]⟩, x0⟩, ⟨⟨1, ![N]⟩, x1⟩, ⟨⟨1, ![N]⟩, x2⟩, ⟨⟨1, ![N]⟩, x3⟩] h (ix1 jj) 1 (by show 1 < 4; omega) ⟨1, ![N]⟩ x1 rfl rfl N
      (by simp [Nat.add_assoc]) (ix1 j) hi (by show N + j.val = jj.val; omega)
  · exact concatenate_apply_piece (t := ⟨1, ![T]⟩) (0 : Fin 1) [⟨⟨1, ![N]⟩, x0⟩, ⟨⟨1, ![N]⟩, x1⟩, ⟨⟨1, ![N]⟩, x2⟩, ⟨⟨1, ![N]⟩, x3⟩] h (ix1 jj) 2 (by show 2 < 4; omega) ⟨1, ![N]⟩ x2 rfl rfl (N + N)
      (by simp [Nat.add_assoc]) (ix1 j) hi (by show N + N + j.val = jj.val; omega)
  · exact concatenate_apply_piece (t := ⟨1, ![T]⟩) (0 : Fin 1) [⟨⟨1, ![N]⟩, x0⟩, ⟨⟨1, ![N]⟩, x1⟩, ⟨⟨1, ![N]⟩, x2⟩, ⟨⟨1, ![N]⟩, x3⟩] h (ix1 jj) 3 (by show 3 < 4; omega) ⟨1, ![N]⟩ x3 rfl rfl (N + N + N)
      (by simp [Nat.add_assoc]) (ix1 j) hi (by show N + N + N + j.val = jj.val; omega)

end Cert.LibConcat4

end
-- ==== Proof.CellFlush.lean ====
/-
  From tiles to whole arrays. Grid point t of the launch works on batch rows 256·t .. 256·t + 255: the tile of
  x, h, c it is handed is those rows of the argument, the re-laid parameters are the same whole arrays at every
  point, and the tiles it stores are written back to those rows of the three results. The re-laid input weights
  hold, at (k, o + j), the upper-half entry W(k, j) of the gate whose columns start at o; the re-laid hidden-state
  weights the lower-half entry W(1024 + k, j); the bias row b(j). So every entry a tile stores is the
  specification's entry of the row it belongs to, and since the 32 tiles cover all 8192 rows, each result array
  ends as the specification's array.
-/
import proofs.«115341_j37778532335717_2_alg».proof.Proof.CellRun
import proofs.«115341_j37778532335717_2_alg».proof.Proof.CellTile
import proofs.«115341_j37778532335717_2_alg».proof.Proof.CellSpec
import proofs.«115341_j37778532335717_2_alg».proof.Proof.LibConcat4
import Idealize.ShloMosaic.Lib.StableHlo.Run
import Idealize.ShloMosaic.Lib.Pipeline.Value

set_option maxRecDepth 16384

noncomputable section

open scoped BigOperators

namespace Cert.KernelIdeal.Cell

open Cert.KernelIdeal Cert.KernelIdeal.Gen
open Idealize.ShloMosaic Idealize.ShloMosaic.TcCoe Idealize.ShloMosaic.ValueIdx Idealize.SL.Sem Idealize.ShloMosaic.StableHlo
open Idealize.ShloMosaic.Pipeline (Dat)
open Cert.CellSpec

variable (m : (ℓ : Loc nD τ sig) → Buf (Elt Ideal) ℓ) (ρ : Dev nD → PrngReg)

/-! ## The re-laid parameters as the launch finds them -/

/-- The input weights: the gates' upper halves side by side. -/
theorem V_wx (c : Dev nD) : V m c main_v5 =
    truncf (F := Ideal) .bf16 (concatenate S1024x4096 1
      [⟨S1024x1024, extractStridedSlice S1024x1024 ![0, 0] (m ((c : Thread nD τ).loc main_arg3)) slices_S2048x1024_S1024x1024_0_0⟩,
      ⟨S1024x1024, extractStridedSlice S1024x1024 ![0, 0] (m ((c : Thread nD τ).loc main_arg5)) slices_S2048x1024_S1024x1024_0_0⟩,
      ⟨S1024x1024, extractStridedSlice S1024x1024 ![0, 0] (m ((c : Thread nD τ).loc main_arg7)) slices_S2048x1024_S1024x1024_0_0⟩,
      ⟨S1024x1024, extractStridedSlice S1024x1024 ![0, 0] (m ((c : Thread nD τ).loc main_arg9)) slices_S2048x1024_S1024x1024_0_0⟩] concatenates_S1024x1024_S1024x1024_S1024x1024_S1024x1024_S1024x4096_d1) bitsLt_bf16_f32 := by
  dsimp only [V]
  simp only [hostOps0, List.flatten_cons, List.flatten_nil, List.append_nil]
  after_results
  try rfl

/-- The hidden-state weights: the gates' lower halves side by side. -/
theorem V_wh (c : Dev nD) : V m c main_v11 =
    truncf (F := Ideal) .bf16 (concatenate S1024x4096 1
      [⟨S1024x1024, extractStridedSlice S1024x1024 ![1024, 0] (m ((c : Thread nD τ).loc main_arg3)) slices_S2048x1024_S1024x1024_1024_0⟩,
      ⟨S1024x1024, extractStridedSlice S1024x1024 ![1024, 0] (m ((c : Thread nD τ).loc main_arg5)) slices_S2048x1024_S1024x1024_1024_0⟩,
      ⟨S1024x1024, extractStridedSlice S1024x1024 ![1024, 0] (m ((c : Thread nD τ).loc main_arg7)) slices_S2048x1024_S1024x1024_1024_0⟩,
      ⟨S1024x1024, extractStridedSlice S1024x1024 ![1024, 0] (m ((c : Thread nD τ).loc main_arg9)) slices_S2048x1024_S1024x1024_1024_0⟩] concatenates_S1024x1024_S1024x1024_S1024x1024_S1024x1024_S1024x4096_d1) bitsLt_bf16_f32 := by
  dsimp only [V]
  simp only [hostOps0, List.flatten_cons, List.flatten_nil, List.append_nil]
  after_results
  try rfl

/-- The bias row: the gates' biases end to end, as one row. -/
theorem V_b (c : Dev nD) : V m c main_v13 =
    shapeCast S1x4096 (concatenate S4096 0 [⟨S1024, (m ((c : Thread nD τ).loc main_arg4))⟩, ⟨S1024, (m ((c : Thread nD τ).loc main_arg6))⟩, ⟨S1024, (m ((c : Thread nD τ).loc main_arg8))⟩, ⟨S1024, (m ((c : Thread nD τ).loc main_arg10))⟩] concatenates_S1024_S1024_S1024_S1024_S4096_d0) shapeCasts_S4096_S1x4096 := by
  dsimp only [V]
  simp only [hostOps0, List.flatten_cons, List.flatten_nil, List.append_nil]
  after_results
  try rfl

/-- The output projection (a change of float format only), and its bias as one row. -/
theorem V_wy (c : Dev nD) : V m c main_v14 = truncf (F := Ideal) .bf16 (m ((c : Thread nD τ).loc main_arg11)) bitsLt_bf16_f32 := by
  dsimp only [V]
  simp only [hostOps0, List.flatten_cons, List.flatten_nil, List.append_nil]
  after_results
  try rfl

theorem V_by (c : Dev nD) : V m c main_v15 = shapeCast S1x512 (m ((c : Thread nD τ).loc main_arg12)) shapeCasts_S512_S1x512 := by
  dsimp only [V]
  simp only [hostOps0, List.flatten_cons, List.flatten_nil, List.append_nil]
  after_results
  try rfl

/-! Read by coordinates. -/
theorem wx_0 (c : Dev nD) (k j : Fin 1024) :
    V m c main_v5 (ix2 k (gcol 0 (by omega) j)) = (m ((c : Thread nD τ).loc main_arg3)) (ix2 (up k) j) := by
  rw [V_wx]
  refine ((Cert.LibConcat4.cols_apply (R := 1024) (N := 1024) (T := 4096) _ _ _ _ concatenates_S1024x1024_S1024x1024_S1024x1024_S1024x1024_S1024x4096_d1 k j (gcol 0 (by omega) j)).1 (by show (0 + j.val : Nat) = j.val; omega)).trans ?_
  exact extractStridedSlice_apply ![0, 0] _ slices_S2048x1024_S1024x1024_0_0 (ix2 k j) (ix2 (up k) j) (fun a => match a with
    | ⟨0, _⟩ => by show k.val = 0 + k.val; omega
    | ⟨1, _⟩ => by show j.val = 0 + j.val; omega)
theorem wx_1024 (c : Dev nD) (k j : Fin 1024) :
    V m c main_v5 (ix2 k (gcol 1024 (by omega) j)) = (m ((c : Thread nD τ).loc main_arg5)) (ix2 (up k) j) := by
  rw [V_wx]
  refine ((Cert.LibConcat4.cols_apply (R := 1024) (N := 1024) (T := 4096) _ _ _ _ concatenates_S1024x1024_S1024x1024_S1024x1024_S1024x1024_S1024x4096_d1 k j (gcol 1024 (by omega) j)).2.1 (by show (1024 + j.val : Nat) = 1024 + j.val; omega)).trans ?_
  exact extractStridedSlice_apply ![0, 0] _ slices_S2048x1024_S1024x1024_0_0 (ix2 k j) (ix2 (up k) j) (fun a => match a with
    | ⟨0, _⟩ => by show k.val = 0 + k.val; omega
    | ⟨1, _⟩ => by show j.val = 0 + j.val; omega)
theorem wx_2048 (c : Dev nD) (k j : Fin 1024) :
    V m c main_v5 (ix2 k (gcol 2048 (by omega) j)) = (m ((c : Thread nD τ).loc main_arg7)) (ix2 (up k) j) := by
  rw [V_wx]
  refine ((Cert.LibConcat4.cols_apply (R := 1024) (N := 1024) (T := 4096) _ _ _ _ concatenates_S1024x1024_S1024x1024_S1024x1024_S1024x1024_S1024x4096_d1 k j (gcol 2048 (by omega) j)).2.2.1 (by show (2048 + j.val : Nat) = 1024 + 1024 + j.val; omega)).trans ?_
  exact extractStridedSlice_apply ![0, 0] _ slices_S2048x1024_S1024x1024_0_0 (ix2 k j) (ix2 (up k) j) (fun a => match a with
    | ⟨0, _⟩ => by show k.val = 0 + k.val; omega
    | ⟨1, _⟩ => by show j.val = 0 + j.val; omega)
theorem wx_3072 (c : Dev nD) (k j : Fin 1024) :
    V m c main_v5 (ix2 k (gcol 3072 (by omega) j)) = (m ((c : Thread nD τ).loc main_arg9)) (ix2 (up k) j) := by
  rw [V_wx]
  refine ((Cert.LibConcat4.cols_apply (R := 1024) (N := 1024) (T := 4096) _ _ _ _ concatenates_S1024x1024_S1024x1024_S1024x1024_S1024x1024_S1024x4096_d1 k j (gcol 3072 (by omega) j)).2.2.2 (by show (3072 + j.val : Nat) = 1024 + 1024 + 1024 + j.val; omega)).trans ?_
  exact extractStridedSlice_apply ![0, 0] _ slices_S2048x1024_S1024x1024_0_0 (ix2 k j) (ix2 (up k) j) (fun a => match a with
    | ⟨0, _⟩ => by show k.val = 0 + k.val; omega
    | ⟨1, _⟩ => by show j.val = 0 + j.val; omega)
theorem wh_0 (c : Dev nD) (k j : Fin 1024) :
    V m c main_v11 (ix2 k (gcol 0 (by omega) j)) = (m ((c : Thread nD τ).loc main_arg3)) (ix2 (dn k) j) := by
  rw [V_wh]
  refine ((Cert.LibConcat4.cols_apply (R := 1024) (N := 1024) (T := 4096) _ _ _ _ concatenates_S1024x1024_S1024x1024_S1024x1024_S1024x1024_S1024x4096_d1 k j (gcol 0 (by omega) j)).1 (by show (0 + j.val : Nat) = j.val; omega)).trans ?_
  exact extractStridedSlice_apply ![1024, 0] _ slices_S2048x1024_S1024x1024_1024_0 (ix2 k j) (ix2 (dn k) j) (fun a => match a with
    | ⟨0, _⟩ => by show 1024 + k.val = 1024 + k.val; omega
    | ⟨1, _⟩ => by show j.val = 0 + j.val; omega)
theorem wh_1024 (c : Dev nD) (k j : Fin 1024) :
    V m c main_v11 (ix2 k (gcol 1024 (by omega) j)) = (m ((c : Thread nD τ).loc main_arg5)) (ix2 (dn k) j) := by
  rw [V_wh]
  refine ((Cert.LibConcat4.cols_apply (R := 1024) (N := 1024) (T := 4096) _ _ _ _ concatenates_S1024x1024_S1024x1024_S1024x1024_S1024x1024_S1024x4096_d1 k j (gcol 1024 (by omega) j)).2.1 (by show (1024 + j.val : Nat) = 1024 + j.val; omega)).trans ?_
  exact extractStridedSlice_apply ![1024, 0] _ slices_S2048x1024_S1024x1024_1024_0 (ix2 k j) (ix2 (dn k) j) (fun a => match a with
    | ⟨0, _⟩ => by show 1024 + k.val = 1024 + k.val; omega
    | ⟨1, _⟩ => by show j.val = 0 + j.val; omega)
theorem wh_2048 (c : Dev nD) (k j : Fin 1024) :
    V m c main_v11 (ix2 k (gcol 2048 (by omega) j)) = (m ((c : Thread nD τ).loc main_arg7)) (ix2 (dn k) j) := by
  rw [V_wh]
  refine ((Cert.LibConcat4.cols_apply (R := 1024) (N := 1024) (T := 4096) _ _ _ _ concatenates_S1024x1024_S1024x1024_S1024x1024_S1024x1024_S1024x4096_d1 k j (gcol 2048 (by omega) j)).2.2.1 (by show (2048 + j.val : Nat) = 1024 + 1024 + j.val; omega)).trans ?_
  exact extractStridedSlice_apply ![1024, 0] _ slices_S2048x1024_S1024x1024_1024_0 (ix2 k j) (ix2 (dn k) j) (fun a => match a with
    | ⟨0, _⟩ => by show 1024 + k.val = 1024 + k.val; omega
    | ⟨1, _⟩ => by show j.val = 0 + j.val; omega)
theorem wh_3072 (c : Dev nD) (k j : Fin 1024) :
    V m c main_v11 (ix2 k (gcol 3072 (by omega) j)) = (m ((c : Thread nD τ).loc main_arg9)) (ix2 (dn k) j) := by
  rw [V_wh]
  refine ((Cert.LibConcat4.cols_apply (R := 1024) (N := 1024) (T := 4096) _ _ _ _ concatenates_S1024x1024_S1024x1024_S1024x1024_S1024x1024_S1024x4096_d1 k j (gcol 3072 (by omega) j)).2.2.2 (by show (3072 + j.val : Nat) = 1024 + 1024 + 1024 + j.val; omega)).trans ?_
  exact extractStridedSlice_apply ![1024, 0] _ slices_S2048x1024_S1024x1024_1024_0 (ix2 k j) (ix2 (dn k) j) (fun a => match a with
    | ⟨0, _⟩ => by show 1024 + k.val = 1024 + k.val; omega
    | ⟨1, _⟩ => by show j.val = 0 + j.val; omega)
theorem b_0 (c : Dev nD) (j : Fin 1024) :
    V m c main_v13 (ix2 (0 : Fin 1) (gcol 0 (by omega) j)) = (m ((c : Thread nD τ).loc main_arg4)) (ix1 j) := by
  rw [V_b]
  refine (shapeCast_apply _ shapeCasts_S4096_S1x4096 (ix2 (0 : Fin 1) (gcol 0 (by omega) j)) (ix1 (gcol 0 (by omega) j)) (by
    rw [Shape.rowMajor_val_one, Shape.rowMajor_val_two]; show (0 + j.val) = 0 * 4096 + (0 + j.val); omega)).trans ?_
  exact (Cert.LibConcat4.vec_apply (N := 1024) (T := 4096) _ _ _ _ concatenates_S1024_S1024_S1024_S1024_S4096_d0 j (gcol 0 (by omega) j)).1 (by show (0 + j.val : Nat) = j.val; omega)
theorem b_1024 (c : Dev nD) (j : Fin 1024) :
    V m c main_v13 (ix2 (0 : Fin 1) (gcol 1024 (by omega) j)) = (m ((c : Thread nD τ).loc main_arg6)) (ix1 j) := by
  rw [V_b]
  refine (shapeCast_apply _ shapeCasts_S4096_S1x4096 (ix2 (0 : Fin 1) (gcol 1024 (by omega) j)) (ix1 (gcol 1024 (by omega) j)) (by
    rw [Shape.rowMajor_val_one, Shape.rowMajor_val_two]; show (1024 + j.val) = 0 * 4096 + (1024 + j.val); omega)).trans ?_
  exact (Cert.LibConcat4.vec_apply (N := 1024) (T := 4096) _ _ _ _ concatenates_S1024_S1024_S1024_S1024_S4096_d0 j (gcol 1024 (by omega) j)).2.1 (by show (1024 + j.val : Nat) = 1024 + j.val; omega)
theorem b_2048 (c : Dev nD) (j : Fin 1024) :
    V m c main_v13 (ix2 (0 : Fin 1) (gcol 2048 (by omega) j)) = (m ((c : Thread nD τ).loc main_arg8)) (ix1 j) := by
  rw [V_b]
  refine (shapeCast_apply _ shapeCasts_S4096_S1x4096 (ix2 (0 : Fin 1) (gcol 2048 (by omega) j)) (ix1 (gcol 2048 (by omega) j)) (by
    rw [Shape.rowMajor_val_one, Shape.rowMajor_val_two]; show (2048 + j.val) = 0 * 4096 + (2048 + j.val); omega)).trans ?_
  exact (Cert.LibConcat4.vec_apply (N := 1024) (T := 4096) _ _ _ _ concatenates_S1024_S1024_S1024_S1024_S4096_d0 j (gcol 2048 (by omega) j)).2.2.1 (by show (2048 + j.val : Nat) = 1024 + 1024 + j.val; omega)
theorem b_3072 (c : Dev nD) (j : Fin 1024) :
    V m c main_v13 (ix2 (0 : Fin 1) (gcol 3072 (by omega) j)) = (m ((c : Thread nD τ).loc main_arg10)) (ix1 j) := by
  rw [V_b]
  refine (shapeCast_apply _ shapeCasts_S4096_S1x4096 (ix2 (0 : Fin 1) (gcol 3072 (by omega) j)) (ix1 (gcol 3072 (by omega) j)) (by
    rw [Shape.rowMajor_val_one, Shape.rowMajor_val_two]; show (3072 + j.val) = 0 * 4096 + (3072 + j.val); omega)).trans ?_
  exact (Cert.LibConcat4.vec_apply (N := 1024) (T := 4096) _ _ _ _ concatenates_S1024_S1024_S1024_S1024_S4096_d0 j (gcol 3072 (by omega) j)).2.2.2 (by show (3072 + j.val : Nat) = 1024 + 1024 + 1024 + j.val; omega)

theorem wy_apply (c : Dev nD) (k : Fin 1024) (q : Fin 512) : V m c main_v14 (ix2 k q) = (m ((c : Thread nD τ).loc main_arg11)) (ix2 k q) := by
  rw [V_wy]; rfl

theorem by_apply (c : Dev nD) (q : Fin 512) : V m c main_v15 (ix2 (0 : Fin 1) q) = (m ((c : Thread nD τ).loc main_arg12)) (ix1 q) := by
  rw [V_by]
  exact shapeCast_apply _ shapeCasts_S512_S1x512 (ix2 (0 : Fin 1) q) (ix1 q) (by
    rw [Shape.rowMajor_val_one, Shape.rowMajor_val_two]; show q.val = 0 * 512 + q.val; omega)

/-! ## The windows' tiles -/

/-- Which tile each window is at, at grid point t: the six row-tiled windows at tile t, the five parameter windows
    always at their one tile. Decided over the 32 points. -/
theorem idx_facts : ∀ t : Fin cfg0.N,
    win0_0.index t (0 : Fin 2) = t.val ∧ win0_0.index t (1 : Fin 2) = 0
    ∧ win0_1.index t (0 : Fin 2) = t.val ∧ win0_1.index t (1 : Fin 2) = 0
    ∧ win0_2.index t (0 : Fin 2) = t.val ∧ win0_2.index t (1 : Fin 2) = 0
    ∧ win0_8.index t (0 : Fin 2) = t.val ∧ win0_8.index t (1 : Fin 2) = 0
    ∧ win0_9.index t (0 : Fin 2) = t.val ∧ win0_9.index t (1 : Fin 2) = 0
    ∧ win0_10.index t (0 : Fin 2) = t.val ∧ win0_10.index t (1 : Fin 2) = 0
    ∧ win0_3.index t (0 : Fin 2) = 0 ∧ win0_3.index t (1 : Fin 2) = 0
    ∧ win0_4.index t (0 : Fin 2) = 0 ∧ win0_4.index t (1 : Fin 2) = 0
    ∧ win0_5.index t (0 : Fin 2) = 0 ∧ win0_5.index t (1 : Fin 2) = 0
    ∧ win0_6.index t (0 : Fin 2) = 0 ∧ win0_6.index t (1 : Fin 2) = 0
    ∧ win0_7.index t (0 : Fin 2) = 0 ∧ win0_7.index t (1 : Fin 2) = 0 :=
  (by decide +kernel : ∀ t : Fin grid0.N, _)

/-- Batch row `256·t + p`: row p of tile t. -/
def brow (t : Fin cfg0.N) (p : Fin 256) : Fin 8192 :=
  ⟨256 * t.val + p.val, by have h := lt_of_lt_of_eq t.isLt N_0; have := p.isLt; omega⟩

theorem brow_val (t : Fin cfg0.N) (p : Fin 256) : (brow t p).val = 256 * t.val + p.val := rfl

theorem blk_row0 (c : Dev nD) (t : Fin cfg0.N) (p : Fin 256) (k : Fin 1024) :
    iblk m c 0 t (ix2 p k) = (m ((c : Thread nD τ).loc main_arg0)) (ix2 (brow t p) k) := by
  show V m c main_arg0 (((cfg0.win 0).blk t).view.emb (ix2 p k)) = _
  rw [V_main_arg0]
  obtain ⟨r0a, r0b, r1a, r1b, r2a, r2b, r8a, r8b, r9a, r9b, r10a, r10b, w3a, w3b, w4a, w4b, w5a, w5b, w6a, w6b, w7a, w7b⟩ := idx_facts t
  refine congrArg _ (funext fun a => Fin.ext ?_)
  match a with
  | ⟨0, _⟩ => show win0_0.index t (0 : Fin 2) * 256 + 1 * p.val = 256 * t.val + p.val; omega
  | ⟨1, _⟩ => show win0_0.index t (1 : Fin 2) * 1024 + 1 * k.val = k.val; omega
theorem blk_row1 (c : Dev nD) (t : Fin cfg0.N) (p : Fin 256) (k : Fin 1024) :
    iblk m c 1 t (ix2 p k) = (m ((c : Thread nD τ).loc main_arg1)) (ix2 (brow t p) k) := by
  show V m c main_arg1 (((cfg0.win 1).blk t).view.emb (ix2 p k)) = _
  rw [V_main_arg1]
  obtain ⟨r0a, r0b, r1a, r1b, r2a, r2b, r8a, r8b, r9a, r9b, r10a, r10b, w3a, w3b, w4a, w4b, w5a, w5b, w6a, w6b, w7a, w7b⟩ := idx_facts t
  refine congrArg _ (funext fun a => Fin.ext ?_)
  match a with
  | ⟨0, _⟩ => show win0_1.index t (0 : Fin 2) * 256 + 1 * p.val = 256 * t.val + p.val; omega
  | ⟨1, _⟩ => show win0_1.index t (1 : Fin 2) * 1024 + 1 * k.val = k.val; omega
theorem blk_row2 (c : Dev nD) (t : Fin cfg0.N) (p : Fin 256) (k : Fin 1024) :
    iblk m c 2 t (ix2 p k) = (m ((c : Thread nD τ).loc main_arg2)) (ix2 (brow t p) k) := by
  show V m c main_arg2 (((cfg0.win 2).blk t).view.emb (ix2 p k)) = _
  rw [V_main_arg2]
  obtain ⟨r0a, r0b, r1a, r1b, r2a, r2b, r8a, r8b, r9a, r9b, r10a, r10b, w3a, w3b, w4a, w4b, w5a, w5b, w6a, w6b, w7a, w7b⟩ := idx_facts t
  refine congrArg _ (funext fun a => Fin.ext ?_)
  match a with
  | ⟨0, _⟩ => show win0_2.index t (0 : Fin 2) * 256 + 1 * p.val = 256 * t.val + p.val; omega
  | ⟨1, _⟩ => show win0_2.index t (1 : Fin 2) * 1024 + 1 * k.val = k.val; omega
theorem blk_whole3 (c : Dev nD) (t : Fin cfg0.N) (k : Fin 1024) (n : Fin 4096) :
    iblk m c 3 t (ix2 k n) = V m c main_v5 (ix2 k n) := by
  show V m c main_v5 (((cfg0.win 3).blk t).view.emb (ix2 k n)) = _
  obtain ⟨r0a, r0b, r1a, r1b, r2a, r2b, r8a, r8b, r9a, r9b, r10a, r10b, w3a, w3b, w4a, w4b, w5a, w5b, w6a, w6b, w7a, w7b⟩ := idx_facts t
  refine congrArg _ (funext fun a => Fin.ext ?_)
  match a with
  | ⟨0, _⟩ => show win0_3.index t (0 : Fin 2) * 1024 + 1 * k.val = k.val; omega
  | ⟨1, _⟩ => show win0_3.index t (1 : Fin 2) * 4096 + 1 * n.val = n.val; omega
theorem blk_whole4 (c : Dev nD) (t : Fin cfg0.N) (k : Fin 1024) (n : Fin 4096) :
    iblk m c 4 t (ix2 k n) = V m c main_v11 (ix2 k n) := by
  show V m c main_v11 (((cfg0.win 4).blk t).view.emb (ix2 k n)) = _
  obtain ⟨r0a, r0b, r1a, r1b, r2a, r2b, r8a, r8b, r9a, r9b, r10a, r10b, w3a, w3b, w4a, w4b, w5a, w5b, w6a, w6b, w7a, w7b⟩ := idx_facts t
  refine congrArg _ (funext fun a => Fin.ext ?_)
  match a with
  | ⟨0, _⟩ => show win0_4.index t (0 : Fin 2) * 1024 + 1 * k.val = k.val; omega
  | ⟨1, _⟩ => show win0_4.index t (1 : Fin 2) * 4096 + 1 * n.val = n.val; omega
theorem blk_whole5 (c : Dev nD) (t : Fin cfg0.N) (k : Fin 1) (n : Fin 4096) :
    iblk m c 5 t (ix2 k n) = V m c main_v13 (ix2 k n) := by
  show V m c main_v13 (((cfg0.win 5).blk t).view.emb (ix2 k n)) = _
  obtain ⟨r0a, r0b, r1a, r1b, r2a, r2b, r8a, r8b, r9a, r9b, r10a, r10b, w3a, w3b, w4a, w4b, w5a, w5b, w6a, w6b, w7a, w7b⟩ := idx_facts t
  refine congrArg _ (funext fun a => Fin.ext ?_)
  match a with
  | ⟨0, _⟩ => show win0_5.index t (0 : Fin 2) * 1 + 1 * k.val = k.val; omega
  | ⟨1, _⟩ => show win0_5.index t (1 : Fin 2) * 4096 + 1 * n.val = n.val; omega
theorem blk_whole6 (c : Dev nD) (t : Fin cfg0.N) (k : Fin 1024) (n : Fin 512) :
    iblk m c 6 t (ix2 k n) = V m c main_v14 (ix2 k n) := by
  show V m c main_v14 (((cfg0.win 6).blk t).view.emb (ix2 k n)) = _
  obtain ⟨r0a, r0b, r1a, r1b, r2a, r2b, r8a, r8b, r9a, r9b, r10a, r10b, w3a, w3b, w4a, w4b, w5a, w5b, w6a, w6b, w7a, w7b⟩ := idx_facts t
  refine congrArg _ (funext fun a => Fin.ext ?_)
  match a with
  | ⟨0, _⟩ => show win0_6.index t (0 : Fin 2) * 1024 + 1 * k.val = k.val; omega
  | ⟨1, _⟩ => show win0_6.index t (1 : Fin 2) * 512 + 1 * n.val = n.val; omega
theorem blk_whole7 (c : Dev nD) (t : Fin cfg0.N) (k : Fin 1) (n : Fin 512) :
    iblk m c 7 t (ix2 k n) = V m c main_v15 (ix2 k n) := by
  show V m c main_v15 (((cfg0.win 7).blk t).view.emb (ix2 k n)) = _
  obtain ⟨r0a, r0b, r1a, r1b, r2a, r2b, r8a, r8b, r9a, r9b, r10a, r10b, w3a, w3b, w4a, w4b, w5a, w5b, w6a, w6b, w7a, w7b⟩ := idx_facts t
  refine congrArg _ (funext fun a => Fin.ext ?_)
  match a with
  | ⟨0, _⟩ => show win0_7.index t (0 : Fin 2) * 1 + 1 * k.val = k.val; omega
  | ⟨1, _⟩ => show win0_7.index t (1 : Fin 2) * 512 + 1 * n.val = n.val; omega

/-! ## A tile's entries are the specification's -/

/-- The pre-activation on tile t of the gate at columns o.., with weight W and bias b, is the specification's at the
    tile's row. -/
theorem pre_point (c : Dev nD) (t : Fin cfg0.N) (o : Nat) (ho : o + 1024 ≤ 4096)
    (W : Mat 2048 1024) (b : Row 1024) (p : Fin 256) (j : Fin 1024)
    (hWx : ∀ k : Fin 1024, V m c main_v5 (ix2 k (gcol o ho j)) = W (ix2 (up k) j))
    (hWh : ∀ k : Fin 1024, V m c main_v11 (ix2 k (gcol o ho j)) = W (ix2 (dn k) j))
    (hb : V m c main_v13 (ix2 (0 : Fin 1) (gcol o ho j)) = b (ix1 j)) :
    tilePre (iblk m c 0 t) (iblk m c 1 t) (iblk m c 3 t) (iblk m c 4 t) (iblk m c 5 t) o ho p j
      = CellSpec.pre (m ((c : Thread nD τ).loc main_arg0)) (m ((c : Thread nD τ).loc main_arg1)) W b (brow t p) j := by
  unfold tilePre CellSpec.pre
  refine congrArg₂ (· + ·) (congrArg₂ (· + ·) (Finset.sum_congr rfl fun k _ => ?_) (Finset.sum_congr rfl fun k _ => ?_)) ?_
  · rw [blk_row0, blk_whole3, hWx]
  · rw [blk_row1, blk_whole4, hWh]
  · rw [blk_whole5, hb]

theorem cell_point (c : Dev nD) (t : Fin cfg0.N) (p : Fin 256) (j : Fin 1024) :
    cellTile (iblk m c 0 t) (iblk m c 1 t) (iblk m c 2 t) (iblk m c 3 t) (iblk m c 4 t) (iblk m c 5 t) (ix2 p j) = CellSpec.cell (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg9)) (m ((c : Thread nD τ).loc main_arg10)) (brow t p) j := by
  rw [cellTile_apply, blk_row2]
  unfold CellSpec.cell
  rw [(pre_point m c t 1024 (by omega) (m ((c : Thread nD τ).loc main_arg5)) (m ((c : Thread nD τ).loc main_arg6)) p j (wx_1024 m c · j) (wh_1024 m c · j) (b_1024 m c j)),
    (pre_point m c t 0 (by omega) (m ((c : Thread nD τ).loc main_arg3)) (m ((c : Thread nD τ).loc main_arg4)) p j (wx_0 m c · j) (wh_0 m c · j) (b_0 m c j)),
    (pre_point m c t 3072 (by omega) (m ((c : Thread nD τ).loc main_arg9)) (m ((c : Thread nD τ).loc main_arg10)) p j (wx_3072 m c · j) (wh_3072 m c · j) (b_3072 m c j))]

theorem hidden_point (c : Dev nD) (t : Fin cfg0.N) (p : Fin 256) (j : Fin 1024) :
    hiddenTile (iblk m c 0 t) (iblk m c 1 t) (iblk m c 2 t) (iblk m c 3 t) (iblk m c 4 t) (iblk m c 5 t) (ix2 p j) = CellSpec.hidden (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) (m ((c : Thread nD τ).loc main_arg9)) (m ((c : Thread nD τ).loc main_arg10)) (brow t p) j := by
  rw [hiddenTile_apply, cell_point]
  unfold CellSpec.hidden
  rw [(pre_point m c t 2048 (by omega) (m ((c : Thread nD τ).loc main_arg7)) (m ((c : Thread nD τ).loc main_arg8)) p j (wx_2048 m c · j) (wh_2048 m c · j) (b_2048 m c j))]

theorem proj_point (c : Dev nD) (t : Fin cfg0.N) (p : Fin 256) (q : Fin 512) :
    projTile (iblk m c 0 t) (iblk m c 1 t) (iblk m c 2 t) (iblk m c 3 t) (iblk m c 4 t) (iblk m c 5 t) (iblk m c 6 t) (iblk m c 7 t) (ix2 p q) = CellSpec.proj (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) (m ((c : Thread nD τ).loc main_arg9)) (m ((c : Thread nD τ).loc main_arg10)) (m ((c : Thread nD τ).loc main_arg11)) (m ((c : Thread nD τ).loc main_arg12)) (brow t p) q := by
  rw [projTile_apply]
  unfold CellSpec.proj
  refine congrArg₂ (· + ·) (Finset.sum_congr rfl fun k _ => ?_) ?_
  · rw [hidden_point, blk_whole6, wy_apply]
  · rw [blk_whole7, by_apply]

/-! ## What each grid point writes back, and the cover -/

theorem emb8 (t : Fin cfg0.N) (p : Fin 256) (j : Fin 1024) :
    ((cfg0.win 8).blk t).view.emb (ix2 p j) = ix2 (brow t p) j := by
  obtain ⟨r0a, r0b, r1a, r1b, r2a, r2b, r8a, r8b, r9a, r9b, r10a, r10b, w3a, w3b, w4a, w4b, w5a, w5b, w6a, w6b, w7a, w7b⟩ := idx_facts t
  refine funext fun a => Fin.ext ?_
  match a with
  | ⟨0, _⟩ => show win0_8.index t (0 : Fin 2) * 256 + 1 * p.val = 256 * t.val + p.val; omega
  | ⟨1, _⟩ => show win0_8.index t (1 : Fin 2) * 1024 + 1 * j.val = j.val; omega
theorem emb9 (t : Fin cfg0.N) (p : Fin 256) (j : Fin 1024) :
    ((cfg0.win 9).blk t).view.emb (ix2 p j) = ix2 (brow t p) j := by
  obtain ⟨r0a, r0b, r1a, r1b, r2a, r2b, r8a, r8b, r9a, r9b, r10a, r10b, w3a, w3b, w4a, w4b, w5a, w5b, w6a, w6b, w7a, w7b⟩ := idx_facts t
  refine funext fun a => Fin.ext ?_
  match a with
  | ⟨0, _⟩ => show win0_9.index t (0 : Fin 2) * 256 + 1 * p.val = 256 * t.val + p.val; omega
  | ⟨1, _⟩ => show win0_9.index t (1 : Fin 2) * 1024 + 1 * j.val = j.val; omega
theorem emb10 (t : Fin cfg0.N) (p : Fin 256) (j : Fin 512) :
    ((cfg0.win 10).blk t).view.emb (ix2 p j) = ix2 (brow t p) j := by
  obtain ⟨r0a, r0b, r1a, r1b, r2a, r2b, r8a, r8b, r9a, r9b, r10a, r10b, w3a, w3b, w4a, w4b, w5a, w5b, w6a, w6b, w7a, w7b⟩ := idx_facts t
  refine funext fun a => Fin.ext ?_
  match a with
  | ⟨0, _⟩ => show win0_10.index t (0 : Fin 2) * 256 + 1 * p.val = 256 * t.val + p.val; omega
  | ⟨1, _⟩ => show win0_10.index t (1 : Fin 2) * 512 + 1 * j.val = j.val; omega

/-- The three result arrays of the specification, of the launch's arguments. -/
abbrev specCell (c : Dev nD) : Mat 8192 1024 := CellSpec.cellArr (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg9)) (m ((c : Thread nD τ).loc main_arg10))
abbrev specHidden (c : Dev nD) : Mat 8192 1024 := CellSpec.hiddenArr (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) (m ((c : Thread nD τ).loc main_arg9)) (m ((c : Thread nD τ).loc main_arg10))
abbrev specProj (c : Dev nD) : Mat 8192 512 := CellSpec.projArr (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) (m ((c : Thread nD τ).loc main_arg9)) (m ((c : Thread nD τ).loc main_arg10)) (m ((c : Thread nD τ).loc main_arg11)) (m ((c : Thread nD τ).loc main_arg12))

theorem flushed9_eq (c : Dev nD) (t : Fin cfg0.N) :
    (dats m 0 c).flushed 9 t = ((cfg0.win 9).blk t).view.read (Elt Ideal) (specCell m c) := by
  show (cfg0.win 9).cut (grid0.coords t) ((dats m 0 c).after 9 t) = _
  rw [after_9]
  unfold out9
  rw [View.canon_unit_zero hz2]
  funext y
  obtain ⟨p, j, rfl⟩ : ∃ (p : Fin 256) (j : Fin 1024), y = ix2 p j := ⟨y 0, y 1, eq_ix2 y⟩
  show cellTile (iblk m c 0 t) (iblk m c 1 t) (iblk m c 2 t) (iblk m c 3 t) (iblk m c 4 t) (iblk m c 5 t) (ix2 p j) = specCell m c (((cfg0.win 9).blk t).view.emb (ix2 p j))
  rw [emb9, cell_point]
  rfl

theorem flushed8_eq (c : Dev nD) (t : Fin cfg0.N) :
    (dats m 0 c).flushed 8 t = ((cfg0.win 8).blk t).view.read (Elt Ideal) (specHidden m c) := by
  show (cfg0.win 8).cut (grid0.coords t) ((dats m 0 c).after 8 t) = _
  rw [after_8]
  unfold out8
  rw [View.canon_unit_zero hz2]
  funext y
  obtain ⟨p, j, rfl⟩ : ∃ (p : Fin 256) (j : Fin 1024), y = ix2 p j := ⟨y 0, y 1, eq_ix2 y⟩
  show hiddenTile (iblk m c 0 t) (iblk m c 1 t) (iblk m c 2 t) (iblk m c 3 t) (iblk m c 4 t) (iblk m c 5 t) (ix2 p j) = specHidden m c (((cfg0.win 8).blk t).view.emb (ix2 p j))
  rw [emb8, hidden_point]
  rfl

theorem flushed10_eq (c : Dev nD) (t : Fin cfg0.N) :
    (dats m 0 c).flushed 10 t = ((cfg0.win 10).blk t).view.read (Elt Ideal) (specProj m c) := by
  show (cfg0.win 10).cut (grid0.coords t) ((dats m 0 c).after 10 t) = _
  rw [after_10]
  unfold out10
  rw [View.canon_unit_zero hz2]
  funext y
  obtain ⟨p, q, rfl⟩ : ∃ (p : Fin 256) (q : Fin 512), y = ix2 p q := ⟨y 0, y 1, eq_ix2 y⟩
  show projTile (iblk m c 0 t) (iblk m c 1 t) (iblk m c 2 t) (iblk m c 3 t) (iblk m c 4 t) (iblk m c 5 t) (iblk m c 6 t) (iblk m c 7 t) (ix2 p q) = specProj m c (((cfg0.win 10).blk t).view.emb (ix2 p q))
  rw [emb10, proj_point]
  rfl

theorem mem_blk8 (t : Fin cfg0.N) (i : S8192x1024.Idx) :
    i ∈ ((cfg0.win 8).blk t).view.set ↔ ∀ a : Fin 2, win0_8.index t a * S256x1024.size a ≤ (i a).val ∧ (i a).val < win0_8.index t a * S256x1024.size a + S256x1024.size a := by
  show i ∈ ((View.whole main_v16_0).slice (win0_8.rect t)).set ↔ _
  rw [View.set_slice_whole, Rect.mem_set_unit]
  exact Iff.rfl
theorem mem_blk9 (t : Fin cfg0.N) (i : S8192x1024.Idx) :
    i ∈ ((cfg0.win 9).blk t).view.set ↔ ∀ a : Fin 2, win0_9.index t a * S256x1024.size a ≤ (i a).val ∧ (i a).val < win0_9.index t a * S256x1024.size a + S256x1024.size a := by
  show i ∈ ((View.whole main_v16_1).slice (win0_9.rect t)).set ↔ _
  rw [View.set_slice_whole, Rect.mem_set_unit]
  exact Iff.rfl
theorem mem_blk10 (t : Fin cfg0.N) (i : S8192x512.Idx) :
    i ∈ ((cfg0.win 10).blk t).view.set ↔ ∀ a : Fin 2, win0_10.index t a * S256x512.size a ≤ (i a).val ∧ (i a).val < win0_10.index t a * S256x512.size a + S256x512.size a := by
  show i ∈ ((View.whole main_v16_2).slice (win0_10.rect t)).set ↔ _
  rw [View.set_slice_whole, Rect.mem_set_unit]
  exact Iff.rfl

theorem cover8 (i : S8192x1024.Idx) : ∃ t : Fin cfg0.N, (cfg0.win 8).flush t = true ∧ i ∈ ((cfg0.win 8).blk t).view.set := by
  have hi0 : (i 0).val < 8192 := (i 0).isLt
  have hi1 : (i 1).val < 1024 := (i 1).isLt
  have hN : cfg0.N = 32 := N_0
  let t : Fin cfg0.N := ⟨(i 0).val / 256, by rw [hN]; omega⟩
  have ht : t.val = (i 0).val / 256 := rfl
  obtain ⟨r0a, r0b, r1a, r1b, r2a, r2b, r8a, r8b, r9a, r9b, r10a, r10b, w3a, w3b, w4a, w4b, w5a, w5b, w6a, w6b, w7a, w7b⟩ := idx_facts t
  refine ⟨t, flush0_8 t, ?_⟩
  rw [mem_blk8]
  intro a
  match a with
  | ⟨0, _⟩ => show win0_8.index t (0 : Fin 2) * 256 ≤ (i 0).val ∧ (i 0).val < win0_8.index t (0 : Fin 2) * 256 + 256; omega
  | ⟨1, _⟩ => show win0_8.index t (1 : Fin 2) * 1024 ≤ (i 1).val ∧ (i 1).val < win0_8.index t (1 : Fin 2) * 1024 + 1024; omega
theorem cover9 (i : S8192x1024.Idx) : ∃ t : Fin cfg0.N, (cfg0.win 9).flush t = true ∧ i ∈ ((cfg0.win 9).blk t).view.set := by
  have hi0 : (i 0).val < 8192 := (i 0).isLt
  have hi1 : (i 1).val < 1024 := (i 1).isLt
  have hN : cfg0.N = 32 := N_0
  let t : Fin cfg0.N := ⟨(i 0).val / 256, by rw [hN]; omega⟩
  have ht : t.val = (i 0).val / 256 := rfl
  obtain ⟨r0a, r0b, r1a, r1b, r2a, r2b, r8a, r8b, r9a, r9b, r10a, r10b, w3a, w3b, w4a, w4b, w5a, w5b, w6a, w6b, w7a, w7b⟩ := idx_facts t
  refine ⟨t, flush0_9 t, ?_⟩
  rw [mem_blk9]
  intro a
  match a with
  | ⟨0, _⟩ => show win0_9.index t (0 : Fin 2) * 256 ≤ (i 0).val ∧ (i 0).val < win0_9.index t (0 : Fin 2) * 256 + 256; omega
  | ⟨1, _⟩ => show win0_9.index t (1 : Fin 2) * 1024 ≤ (i 1).val ∧ (i 1).val < win0_9.index t (1 : Fin 2) * 1024 + 1024; omega
theorem cover10 (i : S8192x512.Idx) : ∃ t : Fin cfg0.N, (cfg0.win 10).flush t = true ∧ i ∈ ((cfg0.win 10).blk t).view.set := by
  have hi0 : (i 0).val < 8192 := (i 0).isLt
  have hi1 : (i 1).val < 512 := (i 1).isLt
  have hN : cfg0.N = 32 := N_0
  let t : Fin cfg0.N := ⟨(i 0).val / 256, by rw [hN]; omega⟩
  have ht : t.val = (i 0).val / 256 := rfl
  obtain ⟨r0a, r0b, r1a, r1b, r2a, r2b, r8a, r8b, r9a, r9b, r10a, r10b, w3a, w3b, w4a, w4b, w5a, w5b, w6a, w6b, w7a, w7b⟩ := idx_facts t
  refine ⟨t, flush0_10 t, ?_⟩
  rw [mem_blk10]
  intro a
  match a with
  | ⟨0, _⟩ => show win0_10.index t (0 : Fin 2) * 256 ≤ (i 0).val ∧ (i 0).val < win0_10.index t (0 : Fin 2) * 256 + 256; omega
  | ⟨1, _⟩ => show win0_10.index t (1 : Fin 2) * 512 ≤ (i 1).val ∧ (i 1).val < win0_10.index t (1 : Fin 2) * 512 + 512; omega

/-! ## The result arrays, and the run read -/

theorem final8 (c : Dev nD) : (dats m 0 c).arrAt 8 cfg0.N = specHidden m c :=
  (dats m 0 c).arrAt_eq_of_cover 8 (specHidden m c) (fun t _ => flushed8_eq m c t) cover8
theorem final9 (c : Dev nD) : (dats m 0 c).arrAt 9 cfg0.N = specCell m c :=
  (dats m 0 c).arrAt_eq_of_cover 9 (specCell m c) (fun t _ => flushed9_eq m c t) cover9
theorem final10 (c : Dev nD) : (dats m 0 c).arrAt 10 cfg0.N = specProj m c :=
  (dats m 0 c).arrAt_eq_of_cover 10 (specProj m c) (fun t _ => flushed10_eq m c t) cover10

/-- Every weakly fair execution of the kernel program ends, faulting nowhere, with the three results at the
    specification's arrays of the launch's arguments and the arguments unchanged. -/
theorem run_value : θ_run defs (onTc (τ := τ) (main (F := Ideal))) ⟨m, fun _ => 0, ρ⟩ (fun r => ∀ c : Dev nD,
      r.2.mem ((c.tc : Thread nD τ).loc main_v16_2) = specProj m c
      ∧ r.2.mem ((c.tc : Thread nD τ).loc main_v16_0) = specHidden m c
      ∧ r.2.mem ((c.tc : Thread nD τ).loc main_v16_1) = specCell m c
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)) :=
  (θ_run defs _ _).mono (fun r h c => ⟨(h c).1.trans (final10 m c), (h c).2.1.trans (final8 m c),
    (h c).2.2.1.trans (final9 m c), (h c).2.2.2⟩) (run_named m ρ)

end Cert.KernelIdeal.Cell

end
-- ==== Proof.CellRef.lean ====
/-
  The reference read entry by entry. It lays x and h side by side as one [8192, 2048] matrix and the four gate
  weights side by side as one [2048, 4096] matrix, multiplies, adds the biases laid end to end, and cuts the
  product back into the four gates. At batch row r and column o + j of the product, the sum over the 2048
  joined columns splits into its first 1024 terms, which are x(r,k)·W(k,j), and its last 1024, which are
  h(r,k)·W(1024+k,j) — the pre-activation of the specification. The sigmoid is spelt 1/(1 + exp(−z)), which is the
  logistic function on every extended real; the rest is the specification's own arithmetic.
-/
import proofs.«115341_j37778532335717_2_alg».proof.Proof.Gen.ReferenceIdeal.Read
import proofs.«115341_j37778532335717_2_alg».proof.Proof.CellSpec
import proofs.«115341_j37778532335717_2_alg».proof.Proof.LibConcat4

set_option maxRecDepth 16384

noncomputable section

open scoped BigOperators

namespace Cert.ReferenceIdeal.RefCell

open Cert.ReferenceIdeal Cert.ReferenceIdeal.Gen Cert.ReferenceIdeal.Read
open Idealize.ShloMosaic Idealize.ShloMosaic.ValueIdx Cert.CellSpec

variable (x0 x1 x2 : (⟨S8192x1024, .f32⟩ : BufTy).Contents (Elt Ideal))
  (x3 : (⟨S2048x1024, .f32⟩ : BufTy).Contents (Elt Ideal)) (x4 : (⟨S1024, .f32⟩ : BufTy).Contents (Elt Ideal))
  (x5 : (⟨S2048x1024, .f32⟩ : BufTy).Contents (Elt Ideal)) (x6 : (⟨S1024, .f32⟩ : BufTy).Contents (Elt Ideal))
  (x7 : (⟨S2048x1024, .f32⟩ : BufTy).Contents (Elt Ideal)) (x8 : (⟨S1024, .f32⟩ : BufTy).Contents (Elt Ideal))
  (x9 : (⟨S2048x1024, .f32⟩ : BufTy).Contents (Elt Ideal)) (x10 : (⟨S1024, .f32⟩ : BufTy).Contents (Elt Ideal))
  (x11 : (⟨S1024x512, .f32⟩ : BufTy).Contents (Elt Ideal)) (x12 : (⟨S512, .f32⟩ : BufTy).Contents (Elt Ideal))

/-- The word 0x3F800000 is the number one. -/
theorem one_word : Ideal.ofBits .f32 0x3F800000#32 = 1 := by
  simp [Ideal.ofBits, Ideal.ieee, -EReal.coe_mul]; norm_num

/-- 1 / (1 + exp(−z)) with the ones spelt as words is the logistic function. -/
theorem sigmoid_expanded (z : EReal) :
    FloatOps.hostDivf (F := Ideal) (FloatOps.ofBits .f32 0x3F800000#32)
      (FloatOps.addf (FloatOps.ofBits .f32 0x3F800000#32) (FloatOps.hostUnary .exp (FloatOps.hostNegf (φ := .f32) z))) = Ideal.logistic z := by
  show Ideal.div (Ideal.ofBits .f32 0x3F800000#32) (Ideal.ofBits .f32 0x3F800000#32 + Ideal.exp (-z)) = Ideal.logistic z
  rw [one_word]
  rfl

/-- Columns 0..1023 of [x, h] are x, -/
theorem xh_left (r : Fin 8192) (k : Fin 1024) : val_main_v0 (F := Ideal) x0 x1 (ix2 r (up k)) = x0 (ix2 r k) := by
  unfold val_main_v0
  exact concatenate_pair_apply_left (t := S8192x2048) (1 : Fin 2) x0 x1 concatenates_S8192x1024_S8192x1024_S8192x2048_d1 (ix2 r (up k)) rfl (ix2 r k)
    (fun b => by
      match b with
      | ⟨0, _⟩ => rfl
      | ⟨1, _⟩ => rfl)

/-- and columns 1024..2047 are h. -/
theorem xh_right (r : Fin 8192) (k : Fin 1024) : val_main_v0 (F := Ideal) x0 x1 (ix2 r (dn k)) = x1 (ix2 r k) := by
  unfold val_main_v0
  exact concatenate_pair_apply_right (t := S8192x2048) (1 : Fin 2) x0 x1 concatenates_S8192x1024_S8192x1024_S8192x2048_d1 (ix2 r (dn k)) rfl rfl (ix2 r k)
    (fun b hb => by
      match b with
      | ⟨0, _⟩ => rfl
      | ⟨1, _⟩ => exact absurd rfl hb)
    (by show k.val + 1024 = 1024 + k.val; omega)

/-- The joined product plus the joined bias, at row r and column n. -/
theorem gates_apply (r : Fin 8192) (n : Fin 4096) :
    val_main_v6 (F := Ideal) x0 x1 x3 x4 x5 x6 x7 x8 x9 x10 (ix2 r n)
      = (∑ k : Fin 2048, val_main_v0 (F := Ideal) x0 x1 (ix2 r k) * val_main_v1 (F := Ideal) x3 x5 x7 x9 (ix2 k n))
        + val_main_v2 (F := Ideal) x4 x6 x8 x10 (ix1 n) := by
  rw [val_main_v6_apply, val_main_v3_apply, val_main_v5_apply, val_main_v4_apply]
  have e1 : ∀ k : Fin 2048, lidx_main_v3 (ix2 r n) k = ix2 r k := fun k => funext fun a => Fin.ext (by
    match a with
    | ⟨0, _⟩ => rfl
    | ⟨1, _⟩ => rfl)
  have e2 : ∀ k : Fin 2048, ridx_main_v3 (ix2 r n) k = ix2 k n := fun k => funext fun a => Fin.ext (by
    match a with
    | ⟨0, _⟩ => rfl
    | ⟨1, _⟩ => rfl)
  have e3 : idx_main_v4 (idx_main_v5 (ix2 r n)) = ix1 n := funext fun a => Fin.ext (by
    match a with
    | ⟨0, _⟩ => rfl)
  simp only [e1, e2, e3]
  rfl

/-- At a column n that is unit j of a gate with weight W and bias b, that is the gate's pre-activation. -/
theorem gate_pre (W : (⟨S2048x1024, .f32⟩ : BufTy).Contents (Elt Ideal)) (b : (⟨S1024, .f32⟩ : BufTy).Contents (Elt Ideal))
    (r : Fin 8192) (j : Fin 1024) (n : Fin 4096)
    (hW : ∀ kk : Fin 2048, val_main_v1 (F := Ideal) x3 x5 x7 x9 (ix2 kk n) = W (ix2 kk j))
    (hb : val_main_v2 (F := Ideal) x4 x6 x8 x10 (ix1 n) = b (ix1 j)) :
    val_main_v6 (F := Ideal) x0 x1 x3 x4 x5 x6 x7 x8 x9 x10 (ix2 r n) = CellSpec.pre x0 x1 W b r j := by
  rw [gates_apply, sum_halves, hb]
  unfold CellSpec.pre
  refine congrArg (· + b (ix1 j)) (congrArg₂ (· + ·) (Finset.sum_congr rfl fun k _ => ?_) (Finset.sum_congr rfl fun k _ => ?_))
  · rw [hW, xh_left]
  · rw [hW, xh_right]

theorem pre_i (r : Fin 8192) (j : Fin 1024) :
    val_main_v7 (F := Ideal) x0 x1 x3 x4 x5 x6 x7 x8 x9 x10 (ix2 r j) = CellSpec.pre x0 x1 x3 x4 r j := by
  rw [val_main_v7_apply]
  have e : idx_main_v7 (ix2 r j) = ix2 r (⟨j.val, by have := j.isLt; omega⟩ : Fin 4096) := funext fun a => Fin.ext (by
    match a with
    | ⟨0, _⟩ => rfl
    | ⟨1, _⟩ => rfl)
  rw [e]
  refine gate_pre x0 x1 x3 x4 x5 x6 x7 x8 x9 x10 x3 x4 r j _ (fun kk => ?_) ?_
  · unfold val_main_v1
    exact (Cert.LibConcat4.cols_apply (R := 2048) (N := 1024) (T := 4096) x3 x5 x7 x9 concatenates_S2048x1024_S2048x1024_S2048x1024_S2048x1024_S2048x4096_d1 kk j _).1 (by show (j.val : Nat) = j.val; omega)
  · unfold val_main_v2
    exact (Cert.LibConcat4.vec_apply (N := 1024) (T := 4096) x4 x6 x8 x10 concatenates_S1024_S1024_S1024_S1024_S4096_d0 j _).1 (by show (j.val : Nat) = j.val; omega)

theorem pre_f (r : Fin 8192) (j : Fin 1024) :
    val_main_v8 (F := Ideal) x0 x1 x3 x4 x5 x6 x7 x8 x9 x10 (ix2 r j) = CellSpec.pre x0 x1 x5 x6 r j := by
  rw [val_main_v8_apply]
  have e : idx_main_v8 (ix2 r j) = ix2 r (⟨1024 + j.val, by have := j.isLt; omega⟩ : Fin 4096) := funext fun a => Fin.ext (by
    match a with
    | ⟨0, _⟩ => rfl
    | ⟨1, _⟩ => rfl)
  rw [e]
  refine gate_pre x0 x1 x3 x4 x5 x6 x7 x8 x9 x10 x5 x6 r j _ (fun kk => ?_) ?_
  · unfold val_main_v1
    exact (Cert.LibConcat4.cols_apply (R := 2048) (N := 1024) (T := 4096) x3 x5 x7 x9 concatenates_S2048x1024_S2048x1024_S2048x1024_S2048x1024_S2048x4096_d1 kk j _).2.1 (by show (1024 + j.val : Nat) = 1024 + j.val; omega)
  · unfold val_main_v2
    exact (Cert.LibConcat4.vec_apply (N := 1024) (T := 4096) x4 x6 x8 x10 concatenates_S1024_S1024_S1024_S1024_S4096_d0 j _).2.1 (by show (1024 + j.val : Nat) = 1024 + j.val; omega)

theorem pre_o (r : Fin 8192) (j : Fin 1024) :
    val_main_v9 (F := Ideal) x0 x1 x3 x4 x5 x6 x7 x8 x9 x10 (ix2 r j) = CellSpec.pre x0 x1 x7 x8 r j := by
  rw [val_main_v9_apply]
  have e : idx_main_v9 (ix2 r j) = ix2 r (⟨2048 + j.val, by have := j.isLt; omega⟩ : Fin 4096) := funext fun a => Fin.ext (by
    match a with
    | ⟨0, _⟩ => rfl
    | ⟨1, _⟩ => rfl)
  rw [e]
  refine gate_pre x0 x1 x3 x4 x5 x6 x7 x8 x9 x10 x7 x8 r j _ (fun kk => ?_) ?_
  · unfold val_main_v1
    exact (Cert.LibConcat4.cols_apply (R := 2048) (N := 1024) (T := 4096) x3 x5 x7 x9 concatenates_S2048x1024_S2048x1024_S2048x1024_S2048x1024_S2048x4096_d1 kk j _).2.2.1 (by show (2048 + j.val : Nat) = 1024 + 1024 + j.val; omega)
  · unfold val_main_v2
    exact (Cert.LibConcat4.vec_apply (N := 1024) (T := 4096) x4 x6 x8 x10 concatenates_S1024_S1024_S1024_S1024_S4096_d0 j _).2.2.1 (by show (2048 + j.val : Nat) = 1024 + 1024 + j.val; omega)

theorem pre_c (r : Fin 8192) (j : Fin 1024) :
    val_main_v10 (F := Ideal) x0 x1 x3 x4 x5 x6 x7 x8 x9 x10 (ix2 r j) = CellSpec.pre x0 x1 x9 x10 r j := by
  rw [val_main_v10_apply]
  have e : idx_main_v10 (ix2 r j) = ix2 r (⟨3072 + j.val, by have := j.isLt; omega⟩ : Fin 4096) := funext fun a => Fin.ext (by
    match a with
    | ⟨0, _⟩ => rfl
    | ⟨1, _⟩ => rfl)
  rw [e]
  refine gate_pre x0 x1 x3 x4 x5 x6 x7 x8 x9 x10 x9 x10 r j _ (fun kk => ?_) ?_
  · unfold val_main_v1
    exact (Cert.LibConcat4.cols_apply (R := 2048) (N := 1024) (T := 4096) x3 x5 x7 x9 concatenates_S2048x1024_S2048x1024_S2048x1024_S2048x1024_S2048x4096_d1 kk j _).2.2.2 (by show (3072 + j.val : Nat) = 1024 + 1024 + 1024 + j.val; omega)
  · unfold val_main_v2
    exact (Cert.LibConcat4.vec_apply (N := 1024) (T := 4096) x4 x6 x8 x10 concatenates_S1024_S1024_S1024_S1024_S4096_d0 j _).2.2.2 (by show (3072 + j.val : Nat) = 1024 + 1024 + 1024 + j.val; omega)

theorem sig_i (r : Fin 8192) (j : Fin 1024) :
    val_main_v16 (F := Ideal) x0 x1 x3 x4 x5 x6 x7 x8 x9 x10 (ix2 r j) = Ideal.logistic (CellSpec.pre x0 x1 x3 x4 r j) := by
  rw [val_main_v16_apply, val_main_v15_apply, val_main_cst_0_apply, val_main_v14_apply, val_main_v13_apply, val_main_cst_apply,
    val_main_v12_apply, val_main_v11_apply, pre_i]
  exact sigmoid_expanded _

theorem sig_f (r : Fin 8192) (j : Fin 1024) :
    val_main_v22 (F := Ideal) x0 x1 x3 x4 x5 x6 x7 x8 x9 x10 (ix2 r j) = Ideal.logistic (CellSpec.pre x0 x1 x5 x6 r j) := by
  rw [val_main_v22_apply, val_main_v21_apply, val_main_cst_2_apply, val_main_v20_apply, val_main_v19_apply, val_main_cst_1_apply,
    val_main_v18_apply, val_main_v17_apply, pre_f]
  exact sigmoid_expanded _

theorem sig_o (r : Fin 8192) (j : Fin 1024) :
    val_main_v28 (F := Ideal) x0 x1 x3 x4 x5 x6 x7 x8 x9 x10 (ix2 r j) = Ideal.logistic (CellSpec.pre x0 x1 x7 x8 r j) := by
  rw [val_main_v28_apply, val_main_v27_apply, val_main_cst_4_apply, val_main_v26_apply, val_main_v25_apply, val_main_cst_3_apply,
    val_main_v24_apply, val_main_v23_apply, pre_o]
  exact sigmoid_expanded _

/-- The reference's new cell state is the specification's, -/
theorem cell_ref (r : Fin 8192) (j : Fin 1024) :
    val_main_v32 (F := Ideal) x0 x1 x2 x3 x4 x5 x6 x7 x8 x9 x10 (ix2 r j) = CellSpec.cell x0 x1 x2 x3 x4 x5 x6 x9 x10 r j := by
  rw [val_main_v32_apply, val_main_v30_apply, val_main_v31_apply, val_main_v29_apply, sig_f, sig_i, pre_c]
  rfl

/-- its new hidden state is the specification's, -/
theorem hidden_ref (r : Fin 8192) (j : Fin 1024) :
    val_main_v34 (F := Ideal) x0 x1 x2 x3 x4 x5 x6 x7 x8 x9 x10 (ix2 r j) = CellSpec.hidden x0 x1 x2 x3 x4 x5 x6 x7 x8 x9 x10 r j := by
  rw [val_main_v34_apply, val_main_v33_apply, sig_o, cell_ref]
  rfl

/-- and its projected output is the specification's. -/
theorem proj_ref (r : Fin 8192) (q : Fin 512) :
    val_main_v38 (F := Ideal) x0 x1 x2 x3 x4 x5 x6 x7 x8 x9 x10 x11 x12 (ix2 r q) = CellSpec.proj x0 x1 x2 x3 x4 x5 x6 x7 x8 x9 x10 x11 x12 r q := by
  rw [val_main_v38_apply, val_main_v35_apply, val_main_v37_apply, val_main_v36_apply]
  have e1 : ∀ k : Fin 1024, lidx_main_v35 (ix2 r q) k = ix2 r k := fun k => funext fun a => Fin.ext (by
    match a with
    | ⟨0, _⟩ => rfl
    | ⟨1, _⟩ => rfl)
  have e2 : ∀ k : Fin 1024, ridx_main_v35 (ix2 r q) k = ix2 k q := fun k => funext fun a => Fin.ext (by
    match a with
    | ⟨0, _⟩ => rfl
    | ⟨1, _⟩ => rfl)
  have e3 : idx_main_v36 (idx_main_v37 (ix2 r q)) = ix1 q := funext fun a => Fin.ext (by
    match a with
    | ⟨0, _⟩ => rfl)
  simp only [e1, e2, e3, hidden_ref]
  rfl

/-! ## The three results as whole arrays -/

theorem cellArr_ref : val_main_v32 (F := Ideal) x0 x1 x2 x3 x4 x5 x6 x7 x8 x9 x10 = CellSpec.cellArr x0 x1 x2 x3 x4 x5 x6 x9 x10 :=
  funext fun i => by
    obtain ⟨r, j, rfl⟩ : ∃ (r : Fin 8192) (j : Fin 1024), i = ix2 r j := ⟨i 0, i 1, eq_ix2 i⟩
    exact cell_ref x0 x1 x2 x3 x4 x5 x6 x7 x8 x9 x10 r j

theorem hiddenArr_ref : val_main_v34 (F := Ideal) x0 x1 x2 x3 x4 x5 x6 x7 x8 x9 x10 = CellSpec.hiddenArr x0 x1 x2 x3 x4 x5 x6 x7 x8 x9 x10 :=
  funext fun i => by
    obtain ⟨r, j, rfl⟩ : ∃ (r : Fin 8192) (j : Fin 1024), i = ix2 r j := ⟨i 0, i 1, eq_ix2 i⟩
    exact hidden_ref x0 x1 x2 x3 x4 x5 x6 x7 x8 x9 x10 r j

theorem projArr_ref : val_main_v38 (F := Ideal) x0 x1 x2 x3 x4 x5 x6 x7 x8 x9 x10 x11 x12 = CellSpec.projArr x0 x1 x2 x3 x4 x5 x6 x7 x8 x9 x10 x11 x12 :=
  funext fun i => by
    obtain ⟨r, q, rfl⟩ : ∃ (r : Fin 8192) (q : Fin 512), i = ix2 r q := ⟨i 0, i 1, eq_ix2 i⟩
    exact proj_ref x0 x1 x2 x3 x4 x5 x6 x7 x8 x9 x10 x11 x12 r q

end Cert.ReferenceIdeal.RefCell

end
-- ==== Proof.lean ====
/-
  An LSTM cell on 8192 batch rows, 1024 inputs, 1024 hidden units and 512 outputs: the kernel against its
  plain reference, over the extended reals.

  The kernel works on 32 tiles of 256 rows. For each gate it multiplies the tile of x by the gate's upper
  half-weight and the tile of h by its lower half-weight, adds the two products and the bias; the reference lays
  [x, h] side by side and multiplies once by the whole weight. The two agree because a sum over the 2048 joined
  columns is the sum over the first 1024 plus the sum over the last 1024 (CellSpec.sum_halves), a law of
  addition alone, which holds for every extended real: the precondition is never opened. The kernel's logistic
  and the reference's 1/(1 + exp(−z)) are one function; everything after the gates is the same arithmetic on
  both sides. No operation of the kernel was rewritten for the reading over the extended reals: the idealized kernel is the
  kernel's own text.

  CellBody / CellRun (and their word-level twins) run the program tile by tile and give the frames; CellTile
  reads a tile entry by entry; CellFlush goes from tiles to whole arrays; CellRef reads the reference; CellSpec
  is the common function.
-/
import proofs.«115341_j37778532335717_2_alg».proof.Defs
import proofs.«115341_j37778532335717_2_alg».proof.Proof.Gen.Kernel
import proofs.«115341_j37778532335717_2_alg».proof.Proof.Gen.KernelIdeal
import proofs.«115341_j37778532335717_2_alg».proof.Proof.Gen.ReferenceIdeal
import proofs.«115341_j37778532335717_2_alg».proof.Proof.Gen.Pre_finite_inputs
import proofs.«115341_j37778532335717_2_alg».proof.Proof.Gen.ReferenceIdeal.Run
import proofs.«115341_j37778532335717_2_alg».proof.Proof.Gen.ReferenceIdeal.Read
import proofs.«115341_j37778532335717_2_alg».proof.Proof.CellRunBits
import proofs.«115341_j37778532335717_2_alg».proof.Proof.CellFlush
import proofs.«115341_j37778532335717_2_alg».proof.Proof.CellRef

set_option maxRecDepth 16384

noncomputable section

namespace Cert.Proof

open Idealize.ShloMosaic Idealize.ShloMosaic.TcCoe Idealize.SL.Sem

/-- The word-level kernel runs to its end, faults nowhere and keeps its arguments. -/
theorem frame_kernel : Cert.frame_Kernel := fun m ρ _ => Cert.Kernel.Cell.frame m ρ

/-- So does the idealized kernel. -/
theorem frame_kernelIdeal : Cert.frame_KernelIdeal := fun m ρ _ => Cert.KernelIdeal.Cell.frame m ρ

/-- So does the reference: its run with the results dropped. -/
theorem frame_reference : Cert.frame_ReferenceIdeal := fun m ρ _ =>
  (θ_run Cert.ReferenceIdeal.defs _ _).mono (fun _ h c => (h c).2.2.2) (Cert.ReferenceIdeal.Value.run (F := Ideal) m ρ)

/-- No operation was rewritten between the kernel and its idealization: nothing to preserve. -/
theorem preserves : Cert.preserves_Kernel_KernelIdeal := trivial

/-- From memories that agree on the arguments both programs end with the specification's three arrays. -/
theorem algebraic : Cert.algebraic_KernelIdeal_ReferenceIdeal := by
  intro m ρ m' ρ' _ hagree
  refine ⟨fun c => Cert.KernelIdeal.Cell.specProj m c, fun c => Cert.KernelIdeal.Cell.specHidden m c,
    fun c => Cert.KernelIdeal.Cell.specCell m c, Cert.KernelIdeal.Cell.run_value m ρ, ?_⟩
  refine (θ_run Cert.ReferenceIdeal.defs _ _).mono (fun _ h c => ?_) (Cert.ReferenceIdeal.Value.run (F := Ideal) m' ρ')
  obtain ⟨a0, a1, a2, a3, a4, a5, a6, a7, a8, a9, a10, a11, a12⟩ := hagree c
  refine ⟨?_, ?_, ?_, (h c).2.2.2⟩
  · rw [(h c).1, Cert.ReferenceIdeal.Read.val_main_v38_eq, Cert.ReferenceIdeal.RefCell.projArr_ref,
      a0, a1, a2, a3, a4, a5, a6, a7, a8, a9, a10, a11, a12]
  · rw [(h c).2.1, Cert.ReferenceIdeal.Read.val_main_v34_eq, Cert.ReferenceIdeal.RefCell.hiddenArr_ref,
      a0, a1, a2, a3, a4, a5, a6, a7, a8, a9, a10]
  · rw [(h c).2.2.1, Cert.ReferenceIdeal.Read.val_main_v32_eq, Cert.ReferenceIdeal.RefCell.cellArr_ref,
      a0, a1, a2, a3, a4, a5, a6, a9, a10]

theorem claim : Cert.Claim := ⟨Cert.Kernel.Gen.facts, Cert.KernelIdeal.Gen.facts, Cert.ReferenceIdeal.Gen.facts, Cert.Pre_finite_inputs.Gen.facts,
  frame_kernel, frame_kernelIdeal, frame_reference, preserves, algebraic⟩

end Cert.Proof

end
